-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v102)) (v1 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_v111) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v183) = v0 c
          ∧ r.2.mem ((c.tc : Thread Cert.ReferenceIdeal.nD Cert.ReferenceIdeal.τ).loc Cert.ReferenceIdeal.main_v193) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg12 : FVec F S128x10 .f32) (main_arg13 : FVec F S10 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x10 .f32 := Host.absf main_arg12
  let main_cst_20 : FVec F S_ .f32 := constant S_ .f32 0x7F800000#32
  let main_v55 : FVec F S128x10 .f32 := broadcastInDim S128x10 ![] bcast_S_S128x10 main_cst_20
  let main_v56 : IVec S128x10 1 := cmpf .olt main_v54 main_v55
  let main_c_21 : IVec S_ 1 := constantI S_ 1 1#1
  let main_v57 : IVec S_ 1 := (fun x v => Host.reduce IntOp.andi x v reducesTo_S128x10_S_d0_1 h_S_) main_v56 main_c_21
  let main_v58 : IVec S_ 1 := andi main_v53 main_v57
  let main_v59 : FVec F S10 .f32 := Host.absf main_arg13
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  main_v63

def fn_part2 {F : FTy → Type} [FloatOps F] (main_arg8 : FVec F S128x128 .f32) (main_arg9 : FVec F S128 .f32) (main_arg10 : FVec F S128x128 .f32) (main_arg11 : FVec F S128 .f32) (main_arg12 : FVec F S128x10 .f32) (main_arg13 : FVec F S10 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x10 .f32) (main_arg13 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x10 .f32) (main_arg13 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S5000x128 : Shape := ⟨2, ![5000, 128]⟩
abbrev S600000x128 : Shape := ⟨2, ![600000, 128]⟩
abbrev S50000x1 : Shape := ⟨2, ![50000, 1]⟩
abbrev S1x128 : Shape := ⟨2, ![1, 128]⟩
abbrev S1 : Shape := ⟨1, ![1]⟩
abbrev S50000x10 : Shape := ⟨2, ![50000, 10]⟩

abbrev nBuf : Space → Nat
  | .hbm => 149
  | .vmem => 54
  | .smem => 0
  | _ => 0

abbrev hbmTy0_0 (i : Nat) : BufTy := match i % 128 with
  | 0 => ⟨S50000x128, .f32⟩
  | 1 => ⟨S2x600000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x10, .f32⟩
  | 13 => ⟨S10, .f32⟩
  | 14 => ⟨S1x600000, .i32⟩
  | 15 => ⟨S600000, .i32⟩
  | 16 => ⟨S1x600000, .i32⟩
  | 17 => ⟨S600000, .i32⟩
  | 18 => ⟨S_, .f32⟩
  | 19 => ⟨S600000, .f32⟩
  | 20 => ⟨S_, .f32⟩
  | 21 => ⟨S50000, .f32⟩
  | 22 => ⟨S600000x1, .i32⟩
  | 23 => ⟨S50000, .f32⟩
  | 24 => ⟨S_, .f32⟩
  | 25 => ⟨S50000, .f32⟩
  | 26 => ⟨S50000, .f32⟩
  | 27 => ⟨S50000, .f32⟩
  | 28 => ⟨S_, .i32⟩
  | 29 => ⟨S600000, .i32⟩
  | 30 => ⟨S600000, .i1⟩
  | 31 => ⟨S_, .i32⟩
  | 32 => ⟨S600000, .i32⟩
  | 33 => ⟨S600000, .i32⟩
  | 34 => ⟨S600000, .i32⟩
  | 35 => ⟨S600000x1, .i32⟩
  | 36 => ⟨S600000, .f32⟩
  | 37 => ⟨S_, .i32⟩
  | 38 => ⟨S600000, .i32⟩
  | 39 => ⟨S600000, .i1⟩
  | 40 => ⟨S_, .i32⟩
  | 41 => ⟨S600000, .i32⟩
  | 42 => ⟨S600000, .i32⟩
  | 43 => ⟨S600000, .i32⟩
  | 44 => ⟨S600000x1, .i32⟩
  | 45 => ⟨S600000, .f32⟩
  | 46 => ⟨S600000, .f32⟩
  | 47 => ⟨S50000, .f32⟩
  | 48 => ⟨S50000x128, .f32⟩
  | 49 => ⟨S_, .i32⟩
  | 50 => ⟨S600000, .i32⟩
  | 51 => ⟨S600000, .i1⟩
  | 52 => ⟨S_, .i32⟩
  | 53 => ⟨S600000, .i32⟩
  | 54 => ⟨S600000, .i32⟩
  | 55 => ⟨S600000, .i32⟩
  | 56 => ⟨S600000x1, .i32⟩
  | 57 => ⟨S600000x128, .f32⟩
  | 58 => ⟨S600000x1, .f32⟩
  | 59 => ⟨S600000x128, .f32⟩
  | 60 => ⟨S600000x128, .f32⟩
  | 61 => ⟨S_, .f32⟩
  | 62 => ⟨S50000x128, .f32⟩
  | 63 => ⟨S600000x1, .i32⟩
  | 64 => ⟨S50000x128, .f32⟩
  | 65 => ⟨S50000x1, .f32⟩
  | 66 => ⟨S50000x128, .f32⟩
  | 67 => ⟨S50000x128, .f32⟩
  | 68 => ⟨S1x128, .f32⟩
  | 69 => ⟨S50000x128, .f32⟩
  | 70 => ⟨S50000x128, .f32⟩
  | 71 => ⟨S_, .i32⟩
  | 72 => ⟨S600000, .i32⟩
  | 73 => ⟨S600000, .i1⟩
  | 74 => ⟨S_, .i32⟩
  | 75 => ⟨S600000, .i32⟩
  | 76 => ⟨S600000, .i32⟩
  | 77 => ⟨S600000, .i32⟩
  | 78 => ⟨S600000x1, .i32⟩
  | 79 => ⟨S600000x128, .f32⟩
  | 80 => ⟨S600000x1, .f32⟩
  | 81 => ⟨S600000x128, .f32⟩
  | 82 => ⟨S600000x128, .f32⟩
  | 83 => ⟨S_, .f32⟩
  | 84 => ⟨S50000x128, .f32⟩
  | 85 => ⟨S600000x1, .i32⟩
  | 86 => ⟨S50000x128, .f32⟩
  | 87 => ⟨S50000x1, .f32⟩
  | 88 => ⟨S50000x128, .f32⟩
  | 89 => ⟨S50000x128, .f32⟩
  | 90 => ⟨S1x128, .f32⟩
  | 91 => ⟨S50000x128, .f32⟩
  | 92 => ⟨S50000x128, .f32⟩
  | 93 => ⟨S_, .i32⟩
  | 94 => ⟨S600000, .i32⟩
  | 95 => ⟨S600000, .i1⟩
  | 96 => ⟨S_, .i32⟩
  | 97 => ⟨S600000, .i32⟩
  | 98 => ⟨S600000, .i32⟩
  | 99 => ⟨S600000, .i32⟩
  | 100 => ⟨S600000x1, .i32⟩
  | 101 => ⟨S600000x128, .f32⟩
  | 102 => ⟨S600000x1, .f32⟩
  | 103 => ⟨S600000x128, .f32⟩
  | 104 => ⟨S600000x128, .f32⟩
  | 105 => ⟨S_, .f32⟩
  | 106 => ⟨S50000x128, .f32⟩
  | 107 => ⟨S600000x1, .i32⟩
  | 108 => ⟨S50000x128, .f32⟩
  | 109 => ⟨S50000x1, .f32⟩
  | 110 => ⟨S50000x128, .f32⟩
  | 111 => ⟨S50000x128, .f32⟩
  | 112 => ⟨S1x128, .f32⟩
  | 113 => ⟨S50000x128, .f32⟩
  | 114 => ⟨S50000x128, .f32⟩
  | 115 => ⟨S_, .i32⟩
  | 116 => ⟨S600000, .i32⟩
  | 117 => ⟨S600000, .i1⟩
  | 118 => ⟨S_, .i32⟩
  | 119 => ⟨S600000, .i32⟩
  | 120 => ⟨S600000, .i32⟩
  | 121 => ⟨S600000, .i32⟩
  | 122 => ⟨S600000x1, .i32⟩
  | 123 => ⟨S600000x128, .f32⟩
  | 124 => ⟨S600000x1, .f32⟩
  | 125 => ⟨S600000x128, .f32⟩
  | 126 => ⟨S600000x128, .f32⟩
  | 127 => ⟨S_, .f32⟩
  | _ => ⟨S50000x128, .f32⟩

abbrev hbmTy0_1 (i : Nat) : BufTy := match i % 128 with
  | 0 => ⟨S50000x128, .f32⟩
  | 1 => ⟨S600000x1, .i32⟩
  | 2 => ⟨S50000x128, .f32⟩
  | 3 => ⟨S50000x1, .f32⟩
  | 4 => ⟨S50000x128, .f32⟩
  | 5 => ⟨S50000x128, .f32⟩
  | 6 => ⟨S1x128, .f32⟩
  | 7 => ⟨S50000x128, .f32⟩
  | 8 => ⟨S_, .f32⟩
  | 9 => ⟨S128x128, .f32⟩
  | 10 => ⟨S_, .i32⟩
  | 11 => ⟨S1, .i32⟩
  | 12 => ⟨S128x128, .f32⟩
  | 13 => ⟨S_, .f32⟩
  | 14 => ⟨S128, .f32⟩
  | 15 => ⟨S_, .i32⟩
  | 16 => ⟨S1, .i32⟩
  | 17 => ⟨S128, .f32⟩
  | 18 => ⟨S1x128, .f32⟩
  | 19 => ⟨S50000x128, .f32⟩
  | 20 => ⟨S50000x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S128x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S128x128, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_8 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_10 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_11 : Ref sig .tc := ⟨.hbm, 93, rfl⟩
abbrev main_v66 : Ref sig .tc := ⟨.hbm, 94, rfl⟩
abbrev main_v67 : Ref sig .tc := ⟨.hbm, 95, rfl⟩
abbrev main_c_12 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_13 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_c_14 : Ref sig .tc := ⟨.hbm, 115, rfl⟩
abbrev main_v85 : Ref sig .tc := ⟨.hbm, 116, rfl⟩
abbrev main_v86 : Ref sig .tc := ⟨.hbm, 117, rfl⟩
abbrev main_c_15 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_cst_16 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_cst_17 : Ref sig .tc := ⟨.hbm, 136, rfl⟩
abbrev main_v103 : Ref sig .tc := ⟨.hbm, 137, rfl⟩
abbrev main_c_18 : Ref sig .tc := ⟨.hbm, 138, rfl⟩
abbrev main_v104 : Ref sig .tc := ⟨.hbm, 139, rfl⟩
abbrev main_v105 : Ref sig .tc := ⟨.hbm, 140, rfl⟩
abbrev main_cst_19 : Ref sig .tc := ⟨.hbm, 141, rfl⟩
abbrev main_v106 : Ref sig .tc := ⟨.hbm, 142, rfl⟩
abbrev main_c_20 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg2_1 : Ref sig .tc := ⟨.vmem, 40, rfl⟩
abbrev cc7_stg0_0 : Ref sig .tc := ⟨.vmem, 41, rfl⟩
abbrev cc7_stg0_1 : Ref sig .tc := ⟨.vmem, 42, rfl⟩
abbrev cc7_stg1_0 : Ref sig .tc := ⟨.vmem, 43, rfl⟩
abbrev cc7_stg1_1 : Ref sig .tc := ⟨.vmem, 44, rfl⟩
abbrev cc7_stg2_0 : Ref sig .tc := ⟨.vmem, 45, rfl⟩
abbrev cc7_stg3_0 : Ref sig .tc := ⟨.vmem, 46, rfl⟩
abbrev cc7_stg3_1 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg2_0 : Ref sig .tc := ⟨.vmem, 51, rfl⟩
abbrev cc8_stg3_0 : Ref sig .tc := ⟨.vmem, 52, rfl⟩
abbrev cc8_stg3_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem2_1 : DmaSem sig := 40
abbrev cc7_sem0_0 : DmaSem sig := 41
abbrev cc7_sem0_1 : DmaSem sig := 42
abbrev cc7_sem1_0 : DmaSem sig := 43
abbrev cc7_sem1_1 : DmaSem sig := 44
abbrev cc7_sem2_0 : DmaSem sig := 45
abbrev cc7_sem3_0 : DmaSem sig := 46
abbrev cc7_sem3_1 : DmaSem sig := 47
abbrev cc8_sem0_0 : DmaSem sig := 48
abbrev cc8_sem0_1 : DmaSem sig := 49
abbrev cc8_sem1_0 : DmaSem sig := 50
abbrev cc8_sem2_0 : DmaSem sig := 51
abbrev cc8_sem3_0 : DmaSem sig := 52
abbrev cc8_sem3_1 : DmaSem sig := 53

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S5000x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S128x128 : S_.BroadcastsInDim S128x128 (![] : Fin 0 → Fin S128x128.rank)
  bcast_S_S1 : S_.BroadcastsInDim S1 (![] : Fin 0 → Fin S1.rank)
  bcast_S_S128 : S_.BroadcastsInDim S128 (![] : Fin 0 → Fin S128.rank)
  shapeCasts_S128x128_S128x128 : S128x128.ShapeCasts S128x128
  slices_S50000x128_S50000x10_0_0 : S50000x128.Slices ![0, 0] S50000x10
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  dot_S5000x128_S128x128_S5000x128_1_0_0_1_n_n_wf : DotDims.WF S5000x128 S128x128 S5000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S128x128_S1_S128x10_01_n_1_0_wf : ScatterDims.WF S128x128 S1 S128x10 [0, 1] [] [1] 0
  scatter_S128_S1_S10_0_n_0_0_wf : ScatterDims.WF S128 S1 S10 [0] [] [0] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S50000x128.size a
  hwx5_3 : ∀ i : grid5.Coords, EltTy.bits .f32 = 32 ∨ (Rect.block (s := S50000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S50000x128.size a
  hwx6_2 : ∀ i : grid6.Coords, EltTy.bits .f32 = 32 ∨ (Rect.block (s := S50000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S50000x128.size a
  hwx7_1 : ∀ i : grid7.Coords, EltTy.bits .f32 = 32 ∨ (Rect.block (s := S50000x128) S5000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x128.size a ≤ S50000x128.size a
  hwx7_3 : ∀ i : grid7.Coords, EltTy.bits .f32 = 32 ∨ (Rect.block (s := S50000x128) S5000x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x128.size a ≤ S50000x128.size a
  hwx8_3 : ∀ i : grid8.Coords, EltTy.bits .f32 = 32 ∨ (Rect.block (s := S50000x128) S5000x128.size (cc8_transform_3 i) (hinb8_3 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S128x128_S1_S128x10_01_n_1_0 : ScatterDims S128x128 S1 S128x10 where
  updateWindowDims := [0, 1]
  insertedWindowDims := []
  scatterDimsToOperandDims := [1]
  indexVectorDim := 0
  wf := scatter_S128x128_S1_S128x10_01_n_1_0_wf
def scatter_S128_S1_S10_0_n_0_0 : ScatterDims S128 S1 S10 where
  updateWindowDims := [0]
  insertedWindowDims := []
  scatterDimsToOperandDims := [0]
  indexVectorDim := 0
  wf := scatter_S128_S1_S10_0_n_0_0_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v63) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v64) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v64) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v65) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v78) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v81) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v82) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v83) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v83) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v84) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v97) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v100) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v101) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v102) S5000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v102) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v105) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v109) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v110) S5000x128.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩
abbrev S50000x10 : Shape := ⟨2, ![50000, 10]⟩
abbrev S1x10 : Shape := ⟨2, ![1, 10]⟩

abbrev nBuf : Space → Nat
  | .hbm => 332
  | .vmem => 0
  | .smem => 0
  | _ => 0

abbrev hbmTy0_0 (i : Nat) : BufTy := match i % 128 with
  | 0 => ⟨S50000x128, .f32⟩
  | 1 => ⟨S2x600000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x10, .f32⟩
  | 13 => ⟨S10, .f32⟩
  | 14 => ⟨S1x600000, .i32⟩
  | 15 => ⟨S600000, .i32⟩
  | 16 => ⟨S1x600000, .i32⟩
  | 17 => ⟨S600000, .i32⟩
  | 18 => ⟨S50000x128, .f32⟩
  | 19 => ⟨S_, .f32⟩
  | 20 => ⟨S600000, .f32⟩
  | 21 => ⟨S_, .f32⟩
  | 22 => ⟨S50000, .f32⟩
  | 23 => ⟨S600000x1, .i32⟩
  | 24 => ⟨S50000, .f32⟩
  | 25 => ⟨S_, .f32⟩
  | 26 => ⟨S50000, .f32⟩
  | 27 => ⟨S50000, .f32⟩
  | 28 => ⟨S50000, .f32⟩
  | 29 => ⟨S_, .i32⟩
  | 30 => ⟨S600000, .i32⟩
  | 31 => ⟨S600000, .i1⟩
  | 32 => ⟨S_, .i32⟩
  | 33 => ⟨S600000, .i32⟩
  | 34 => ⟨S600000, .i32⟩
  | 35 => ⟨S600000, .i32⟩
  | 36 => ⟨S600000x1, .i32⟩
  | 37 => ⟨S600000, .f32⟩
  | 38 => ⟨S_, .i32⟩
  | 39 => ⟨S600000, .i32⟩
  | 40 => ⟨S600000, .i1⟩
  | 41 => ⟨S_, .i32⟩
  | 42 => ⟨S600000, .i32⟩
  | 43 => ⟨S600000, .i32⟩
  | 44 => ⟨S600000, .i32⟩
  | 45 => ⟨S600000x1, .i32⟩
  | 46 => ⟨S600000, .f32⟩
  | 47 => ⟨S600000, .f32⟩
  | 48 => ⟨S_, .i32⟩
  | 49 => ⟨S600000, .i32⟩
  | 50 => ⟨S600000, .i1⟩
  | 51 => ⟨S_, .i32⟩
  | 52 => ⟨S600000, .i32⟩
  | 53 => ⟨S600000, .i32⟩
  | 54 => ⟨S600000, .i32⟩
  | 55 => ⟨S600000x1, .i32⟩
  | 56 => ⟨S600000x128, .f32⟩
  | 57 => ⟨S600000x1, .f32⟩
  | 58 => ⟨S600000x128, .f32⟩
  | 59 => ⟨S600000x128, .f32⟩
  | 60 => ⟨S_, .f32⟩
  | 61 => ⟨S50000x128, .f32⟩
  | 62 => ⟨S600000x1, .i32⟩
  | 63 => ⟨S50000x128, .f32⟩
  | 64 => ⟨S50000, .f32⟩
  | 65 => ⟨S50000x1, .f32⟩
  | 66 => ⟨S50000x128, .f32⟩
  | 67 => ⟨S50000x128, .f32⟩
  | 68 => ⟨S50000x128, .f32⟩
  | 69 => ⟨S1x128, .f32⟩
  | 70 => ⟨S50000x128, .f32⟩
  | 71 => ⟨S50000x128, .f32⟩
  | 72 => ⟨S_, .f32⟩
  | 73 => ⟨S50000x128, .f32⟩
  | 74 => ⟨S50000x128, .i1⟩
  | 75 => ⟨S_, .f32⟩
  | 76 => ⟨S50000x128, .f32⟩
  | 77 => ⟨S50000x128, .i1⟩
  | 78 => ⟨S_, .f32⟩
  | 79 => ⟨S_, .f32⟩
  | 80 => ⟨S50000x128, .f32⟩
  | 81 => ⟨S50000x128, .f32⟩
  | 82 => ⟨S50000x128, .f32⟩
  | 83 => ⟨S_, .f32⟩
  | 84 => ⟨S50000x128, .f32⟩
  | 85 => ⟨S50000x128, .f32⟩
  | 86 => ⟨S50000x128, .f32⟩
  | 87 => ⟨S50000x128, .f32⟩
  | 88 => ⟨S_, .f32⟩
  | 89 => ⟨S600000, .f32⟩
  | 90 => ⟨S_, .f32⟩
  | 91 => ⟨S50000, .f32⟩
  | 92 => ⟨S600000x1, .i32⟩
  | 93 => ⟨S50000, .f32⟩
  | 94 => ⟨S_, .f32⟩
  | 95 => ⟨S50000, .f32⟩
  | 96 => ⟨S50000, .f32⟩
  | 97 => ⟨S50000, .f32⟩
  | 98 => ⟨S_, .i32⟩
  | 99 => ⟨S600000, .i32⟩
  | 100 => ⟨S600000, .i1⟩
  | 101 => ⟨S_, .i32⟩
  | 102 => ⟨S600000, .i32⟩
  | 103 => ⟨S600000, .i32⟩
  | 104 => ⟨S600000, .i32⟩
  | 105 => ⟨S600000x1, .i32⟩
  | 106 => ⟨S600000, .f32⟩
  | 107 => ⟨S_, .i32⟩
  | 108 => ⟨S600000, .i32⟩
  | 109 => ⟨S600000, .i1⟩
  | 110 => ⟨S_, .i32⟩
  | 111 => ⟨S600000, .i32⟩
  | 112 => ⟨S600000, .i32⟩
  | 113 => ⟨S600000, .i32⟩
  | 114 => ⟨S600000x1, .i32⟩
  | 115 => ⟨S600000, .f32⟩
  | 116 => ⟨S600000, .f32⟩
  | 117 => ⟨S_, .i32⟩
  | 118 => ⟨S600000, .i32⟩
  | 119 => ⟨S600000, .i1⟩
  | 120 => ⟨S_, .i32⟩
  | 121 => ⟨S600000, .i32⟩
  | 122 => ⟨S600000, .i32⟩
  | 123 => ⟨S600000, .i32⟩
  | 124 => ⟨S600000x1, .i32⟩
  | 125 => ⟨S600000x128, .f32⟩
  | 126 => ⟨S600000x1, .f32⟩
  | 127 => ⟨S600000x128, .f32⟩
  | _ => ⟨S50000x128, .f32⟩

abbrev hbmTy0_1 (i : Nat) : BufTy := match i % 128 with
  | 0 => ⟨S600000x128, .f32⟩
  | 1 => ⟨S_, .f32⟩
  | 2 => ⟨S50000x128, .f32⟩
  | 3 => ⟨S600000x1, .i32⟩
  | 4 => ⟨S50000x128, .f32⟩
  | 5 => ⟨S50000, .f32⟩
  | 6 => ⟨S50000x1, .f32⟩
  | 7 => ⟨S50000x128, .f32⟩
  | 8 => ⟨S50000x128, .f32⟩
  | 9 => ⟨S50000x128, .f32⟩
  | 10 => ⟨S1x128, .f32⟩
  | 11 => ⟨S50000x128, .f32⟩
  | 12 => ⟨S50000x128, .f32⟩
  | 13 => ⟨S_, .f32⟩
  | 14 => ⟨S50000x128, .f32⟩
  | 15 => ⟨S50000x128, .i1⟩
  | 16 => ⟨S_, .f32⟩
  | 17 => ⟨S50000x128, .f32⟩
  | 18 => ⟨S50000x128, .i1⟩
  | 19 => ⟨S_, .f32⟩
  | 20 => ⟨S_, .f32⟩
  | 21 => ⟨S50000x128, .f32⟩
  | 22 => ⟨S50000x128, .f32⟩
  | 23 => ⟨S50000x128, .f32⟩
  | 24 => ⟨S_, .f32⟩
  | 25 => ⟨S50000x128, .f32⟩
  | 26 => ⟨S50000x128, .f32⟩
  | 27 => ⟨S50000x128, .f32⟩
  | 28 => ⟨S50000x128, .f32⟩
  | 29 => ⟨S_, .f32⟩
  | 30 => ⟨S600000, .f32⟩
  | 31 => ⟨S_, .f32⟩
  | 32 => ⟨S50000, .f32⟩
  | 33 => ⟨S600000x1, .i32⟩
  | 34 => ⟨S50000, .f32⟩
  | 35 => ⟨S_, .f32⟩
  | 36 => ⟨S50000, .f32⟩
  | 37 => ⟨S50000, .f32⟩
  | 38 => ⟨S50000, .f32⟩
  | 39 => ⟨S_, .i32⟩
  | 40 => ⟨S600000, .i32⟩
  | 41 => ⟨S600000, .i1⟩
  | 42 => ⟨S_, .i32⟩
  | 43 => ⟨S600000, .i32⟩
  | 44 => ⟨S600000, .i32⟩
  | 45 => ⟨S600000, .i32⟩
  | 46 => ⟨S600000x1, .i32⟩
  | 47 => ⟨S600000, .f32⟩
  | 48 => ⟨S_, .i32⟩
  | 49 => ⟨S600000, .i32⟩
  | 50 => ⟨S600000, .i1⟩
  | 51 => ⟨S_, .i32⟩
  | 52 => ⟨S600000, .i32⟩
  | 53 => ⟨S600000, .i32⟩
  | 54 => ⟨S600000, .i32⟩
  | 55 => ⟨S600000x1, .i32⟩
  | 56 => ⟨S600000, .f32⟩
  | 57 => ⟨S600000, .f32⟩
  | 58 => ⟨S_, .i32⟩
  | 59 => ⟨S600000, .i32⟩
  | 60 => ⟨S600000, .i1⟩
  | 61 => ⟨S_, .i32⟩
  | 62 => ⟨S600000, .i32⟩
  | 63 => ⟨S600000, .i32⟩
  | 64 => ⟨S600000, .i32⟩
  | 65 => ⟨S600000x1, .i32⟩
  | 66 => ⟨S600000x128, .f32⟩
  | 67 => ⟨S600000x1, .f32⟩
  | 68 => ⟨S600000x128, .f32⟩
  | 69 => ⟨S600000x128, .f32⟩
  | 70 => ⟨S_, .f32⟩
  | 71 => ⟨S50000x128, .f32⟩
  | 72 => ⟨S600000x1, .i32⟩
  | 73 => ⟨S50000x128, .f32⟩
  | 74 => ⟨S50000, .f32⟩
  | 75 => ⟨S50000x1, .f32⟩
  | 76 => ⟨S50000x128, .f32⟩
  | 77 => ⟨S50000x128, .f32⟩
  | 78 => ⟨S50000x128, .f32⟩
  | 79 => ⟨S1x128, .f32⟩
  | 80 => ⟨S50000x128, .f32⟩
  | 81 => ⟨S50000x128, .f32⟩
  | 82 => ⟨S_, .f32⟩
  | 83 => ⟨S50000x128, .f32⟩
  | 84 => ⟨S50000x128, .i1⟩
  | 85 => ⟨S_, .f32⟩
  | 86 => ⟨S50000x128, .f32⟩
  | 87 => ⟨S50000x128, .i1⟩
  | 88 => ⟨S_, .f32⟩
  | 89 => ⟨S_, .f32⟩
  | 90 => ⟨S50000x128, .f32⟩
  | 91 => ⟨S50000x128, .f32⟩
  | 92 => ⟨S50000x128, .f32⟩
  | 93 => ⟨S_, .f32⟩
  | 94 => ⟨S50000x128, .f32⟩
  | 95 => ⟨S50000x128, .f32⟩
  | 96 => ⟨S50000x128, .f32⟩
  | 97 => ⟨S50000x128, .f32⟩
  | 98 => ⟨S_, .f32⟩
  | 99 => ⟨S600000, .f32⟩
  | 100 => ⟨S_, .f32⟩
  | 101 => ⟨S50000, .f32⟩
  | 102 => ⟨S600000x1, .i32⟩
  | 103 => ⟨S50000, .f32⟩
  | 104 => ⟨S_, .f32⟩
  | 105 => ⟨S50000, .f32⟩
  | 106 => ⟨S50000, .f32⟩
  | 107 => ⟨S50000, .f32⟩
  | 108 => ⟨S_, .i32⟩
  | 109 => ⟨S600000, .i32⟩
  | 110 => ⟨S600000, .i1⟩
  | 111 => ⟨S_, .i32⟩
  | 112 => ⟨S600000, .i32⟩
  | 113 => ⟨S600000, .i32⟩
  | 114 => ⟨S600000, .i32⟩
  | 115 => ⟨S600000x1, .i32⟩
  | 116 => ⟨S600000, .f32⟩
  | 117 => ⟨S_, .i32⟩
  | 118 => ⟨S600000, .i32⟩
  | 119 => ⟨S600000, .i1⟩
  | 120 => ⟨S_, .i32⟩
  | 121 => ⟨S600000, .i32⟩
  | 122 => ⟨S600000, .i32⟩
  | 123 => ⟨S600000, .i32⟩
  | 124 => ⟨S600000x1, .i32⟩
  | 125 => ⟨S600000, .f32⟩
  | 126 => ⟨S600000, .f32⟩
  | 127 => ⟨S_, .i32⟩
  | _ => ⟨S50000x128, .f32⟩

abbrev hbmTy0_2 (i : Nat) : BufTy := match i % 128 with
  | 0 => ⟨S600000, .i32⟩
  | 1 => ⟨S600000, .i1⟩
  | 2 => ⟨S_, .i32⟩
  | 3 => ⟨S600000, .i32⟩
  | 4 => ⟨S600000, .i32⟩
  | 5 => ⟨S600000, .i32⟩
  | 6 => ⟨S600000x1, .i32⟩
  | 7 => ⟨S600000x128, .f32⟩
  | 8 => ⟨S600000x1, .f32⟩
  | 9 => ⟨S600000x128, .f32⟩
  | 10 => ⟨S600000x128, .f32⟩
  | 11 => ⟨S_, .f32⟩
  | 12 => ⟨S50000x128, .f32⟩
  | 13 => ⟨S600000x1, .i32⟩
  | 14 => ⟨S50000x128, .f32⟩
  | 15 => ⟨S50000, .f32⟩
  | 16 => ⟨S50000x1, .f32⟩
  | 17 => ⟨S50000x128, .f32⟩
  | 18 => ⟨S50000x128, .f32⟩
  | 19 => ⟨S50000x128, .f32⟩
  | 20 => ⟨S1x128, .f32⟩
  | 21 => ⟨S50000x128, .f32⟩
  | 22 => ⟨S50000x128, .f32⟩
  | 23 => ⟨S_, .f32⟩
  | 24 => ⟨S50000x128, .f32⟩
  | 25 => ⟨S50000x128, .i1⟩
  | 26 => ⟨S_, .f32⟩
  | 27 => ⟨S50000x128, .f32⟩
  | 28 => ⟨S50000x128, .i1⟩
  | 29 => ⟨S_, .f32⟩
  | 30 => ⟨S_, .f32⟩
  | 31 => ⟨S50000x128, .f32⟩
  | 32 => ⟨S50000x128, .f32⟩
  | 33 => ⟨S50000x128, .f32⟩
  | 34 => ⟨S_, .f32⟩
  | 35 => ⟨S50000x128, .f32⟩
  | 36 => ⟨S50000x128, .f32⟩
  | 37 => ⟨S50000x128, .f32⟩
  | 38 => ⟨S50000x128, .f32⟩
  | 39 => ⟨S1x128, .f32⟩
  | 40 => ⟨S50000x128, .f32⟩
  | 41 => ⟨S50000x128, .f32⟩
  | 42 => ⟨S_, .f32⟩
  | 43 => ⟨S50000x128, .f32⟩
  | 44 => ⟨S50000x128, .i1⟩
  | 45 => ⟨S_, .f32⟩
  | 46 => ⟨S50000x128, .f32⟩
  | 47 => ⟨S50000x128, .i1⟩
  | 48 => ⟨S_, .f32⟩
  | 49 => ⟨S_, .f32⟩
  | 50 => ⟨S50000x128, .f32⟩
  | 51 => ⟨S50000x128, .f32⟩
  | 52 => ⟨S50000x128, .f32⟩
  | 53 => ⟨S_, .f32⟩
  | 54 => ⟨S50000x128, .f32⟩
  | 55 => ⟨S50000x128, .f32⟩
  | 56 => ⟨S50000x128, .f32⟩
  | 57 => ⟨S50000x10, .f32⟩
  | 58 => ⟨S1x10, .f32⟩
  | 59 => ⟨S50000x10, .f32⟩
  | 60 => ⟨S50000x10, .f32⟩
  | 61 => ⟨S_, .f32⟩
  | 62 => ⟨S50000x10, .f32⟩
  | 63 => ⟨S50000x10, .i1⟩
  | 64 => ⟨S_, .f32⟩
  | 65 => ⟨S50000x10, .f32⟩
  | 66 => ⟨S50000x10, .i1⟩
  | 67 => ⟨S_, .f32⟩
  | 68 => ⟨S_, .f32⟩
  | 69 => ⟨S50000x10, .f32⟩
  | 70 => ⟨S50000x10, .f32⟩
  | 71 => ⟨S50000x10, .f32⟩
  | 72 => ⟨S_, .f32⟩
  | 73 => ⟨S50000x10, .f32⟩
  | 74 => ⟨S50000x10, .f32⟩
  | 75 => ⟨S50000x10, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_c_6 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_call0_cst : Ref sig .tc := ⟨.hbm, 72, rfl⟩
abbrev main_call0_v0 : Ref sig .tc := ⟨.hbm, 73, rfl⟩
abbrev main_call0_v1 : Ref sig .tc := ⟨.hbm, 74, rfl⟩
abbrev main_call0_cst_0 : Ref sig .tc := ⟨.hbm, 75, rfl⟩
abbrev main_call0_v2 : Ref sig .tc := ⟨.hbm, 76, rfl⟩
abbrev main_call0_v3 : Ref sig .tc := ⟨.hbm, 77, rfl⟩
abbrev main_call0_cst_1 : Ref sig .tc := ⟨.hbm, 78, rfl⟩
abbrev main_call0_call0_v0 : Ref sig .tc := ⟨.hbm, 79, rfl⟩
abbrev main_call0_call0_v1 : Ref sig .tc := ⟨.hbm, 80, rfl⟩
abbrev main_call0_v4 : Ref sig .tc := ⟨.hbm, 81, rfl⟩
abbrev main_call0_v5 : Ref sig .tc := ⟨.hbm, 82, rfl⟩
abbrev main_call0_cst_2 : Ref sig .tc := ⟨.hbm, 83, rfl⟩
abbrev main_call0_v6 : Ref sig .tc := ⟨.hbm, 84, rfl⟩
abbrev main_call0_v7 : Ref sig .tc := ⟨.hbm, 85, rfl⟩
abbrev main_v48 : Ref sig .tc := ⟨.hbm, 86, rfl⟩
abbrev main_v49 : Ref sig .tc := ⟨.hbm, 87, rfl⟩
abbrev main_cst_8 : Ref sig .tc := ⟨.hbm, 88, rfl⟩
abbrev main_v50 : Ref sig .tc := ⟨.hbm, 89, rfl⟩
abbrev main_cst_9 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_cst_10 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_c_11 : Ref sig .tc := ⟨.hbm, 98, rfl⟩
abbrev main_v57 : Ref sig .tc := ⟨.hbm, 99, rfl⟩
abbrev main_v58 : Ref sig .tc := ⟨.hbm, 100, rfl⟩
abbrev main_c_12 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_c_13 : Ref sig .tc := ⟨.hbm, 107, rfl⟩
abbrev main_v64 : Ref sig .tc := ⟨.hbm, 108, rfl⟩
abbrev main_v65 : Ref sig .tc := ⟨.hbm, 109, rfl⟩
abbrev main_c_14 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_c_15 : Ref sig .tc := ⟨.hbm, 117, rfl⟩
abbrev main_v72 : Ref sig .tc := ⟨.hbm, 118, rfl⟩
abbrev main_v73 : Ref sig .tc := ⟨.hbm, 119, rfl⟩
abbrev main_c_16 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_cst_17 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_call1_cst : Ref sig .tc := ⟨.hbm, 141, rfl⟩
abbrev main_call1_v0 : Ref sig .tc := ⟨.hbm, 142, rfl⟩
abbrev main_call1_v1 : Ref sig .tc := ⟨.hbm, 143, rfl⟩
abbrev main_call1_cst_0 : Ref sig .tc := ⟨.hbm, 144, rfl⟩
abbrev main_call1_v2 : Ref sig .tc := ⟨.hbm, 145, rfl⟩
abbrev main_call1_v3 : Ref sig .tc := ⟨.hbm, 146, rfl⟩
abbrev main_call1_cst_1 : Ref sig .tc := ⟨.hbm, 147, rfl⟩
abbrev main_call1_call0_v0 : Ref sig .tc := ⟨.hbm, 148, rfl⟩
abbrev main_call1_call0_v1 : Ref sig .tc := ⟨.hbm, 149, rfl⟩
abbrev main_call1_v4 : Ref sig .tc := ⟨.hbm, 150, rfl⟩
abbrev main_call1_v5 : Ref sig .tc := ⟨.hbm, 151, rfl⟩
abbrev main_call1_cst_2 : Ref sig .tc := ⟨.hbm, 152, rfl⟩
abbrev main_call1_v6 : Ref sig .tc := ⟨.hbm, 153, rfl⟩
abbrev main_call1_v7 : Ref sig .tc := ⟨.hbm, 154, rfl⟩
abbrev main_v93 : Ref sig .tc := ⟨.hbm, 155, rfl⟩
abbrev main_v94 : Ref sig .tc := ⟨.hbm, 156, rfl⟩
abbrev main_cst_18 : Ref sig .tc := ⟨.hbm, 157, rfl⟩
abbrev main_v95 : Ref sig .tc := ⟨.hbm, 158, rfl⟩
abbrev main_cst_19 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_cst_20 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_c_21 : Ref sig .tc := ⟨.hbm, 167, rfl⟩
abbrev main_v102 : Ref sig .tc := ⟨.hbm, 168, rfl⟩
abbrev main_v103 : Ref sig .tc := ⟨.hbm, 169, rfl⟩
abbrev main_c_22 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_c_23 : Ref sig .tc := ⟨.hbm, 176, rfl⟩
abbrev main_v109 : Ref sig .tc := ⟨.hbm, 177, rfl⟩
abbrev main_v110 : Ref sig .tc := ⟨.hbm, 178, rfl⟩
abbrev main_c_24 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_c_25 : Ref sig .tc := ⟨.hbm, 186, rfl⟩
abbrev main_v117 : Ref sig .tc := ⟨.hbm, 187, rfl⟩
abbrev main_v118 : Ref sig .tc := ⟨.hbm, 188, rfl⟩
abbrev main_c_26 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_cst_27 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩
abbrev main_call2_cst : Ref sig .tc := ⟨.hbm, 210, rfl⟩
abbrev main_call2_v0 : Ref sig .tc := ⟨.hbm, 211, rfl⟩
abbrev main_call2_v1 : Ref sig .tc := ⟨.hbm, 212, rfl⟩
abbrev main_call2_cst_0 : Ref sig .tc := ⟨.hbm, 213, rfl⟩
abbrev main_call2_v2 : Ref sig .tc := ⟨.hbm, 214, rfl⟩
abbrev main_call2_v3 : Ref sig .tc := ⟨.hbm, 215, rfl⟩
abbrev main_call2_cst_1 : Ref sig .tc := ⟨.hbm, 216, rfl⟩
abbrev main_call2_call0_v0 : Ref sig .tc := ⟨.hbm, 217, rfl⟩
abbrev main_call2_call0_v1 : Ref sig .tc := ⟨.hbm, 218, rfl⟩
abbrev main_call2_v4 : Ref sig .tc := ⟨.hbm, 219, rfl⟩
abbrev main_call2_v5 : Ref sig .tc := ⟨.hbm, 220, rfl⟩
abbrev main_call2_cst_2 : Ref sig .tc := ⟨.hbm, 221, rfl⟩
abbrev main_call2_v6 : Ref sig .tc := ⟨.hbm, 222, rfl⟩
abbrev main_call2_v7 : Ref sig .tc := ⟨.hbm, 223, rfl⟩
abbrev main_v138 : Ref sig .tc := ⟨.hbm, 224, rfl⟩
abbrev main_v139 : Ref sig .tc := ⟨.hbm, 225, rfl⟩
abbrev main_cst_28 : Ref sig .tc := ⟨.hbm, 226, rfl⟩
abbrev main_v140 : Ref sig .tc := ⟨.hbm, 227, rfl⟩
abbrev main_cst_29 : Ref sig .tc := ⟨.hbm, 228, rfl⟩
abbrev main_v141 : Ref sig .tc := ⟨.hbm, 229, rfl⟩
abbrev main_v142 : Ref sig .tc := ⟨.hbm, 230, rfl⟩
abbrev main_v143 : Ref sig .tc := ⟨.hbm, 231, rfl⟩
abbrev main_cst_30 : Ref sig .tc := ⟨.hbm, 232, rfl⟩
abbrev main_v144 : Ref sig .tc := ⟨.hbm, 233, rfl⟩
abbrev main_v145 : Ref sig .tc := ⟨.hbm, 234, rfl⟩
abbrev main_v146 : Ref sig .tc := ⟨.hbm, 235, rfl⟩
abbrev main_c_31 : Ref sig .tc := ⟨.hbm, 236, rfl⟩
abbrev main_v147 : Ref sig .tc := ⟨.hbm, 237, rfl⟩
abbrev main_v148 : Ref sig .tc := ⟨.hbm, 238, rfl⟩
abbrev main_c_32 : Ref sig .tc := ⟨.hbm, 239, rfl⟩
abbrev main_v149 : Ref sig .tc := ⟨.hbm, 240, rfl⟩
abbrev main_v150 : Ref sig .tc := ⟨.hbm, 241, rfl⟩
abbrev main_v151 : Ref sig .tc := ⟨.hbm, 242, rfl⟩
abbrev main_v152 : Ref sig .tc := ⟨.hbm, 243, rfl⟩
abbrev main_v153 : Ref sig .tc := ⟨.hbm, 244, rfl⟩
abbrev main_c_33 : Ref sig .tc := ⟨.hbm, 245, rfl⟩
abbrev main_v154 : Ref sig .tc := ⟨.hbm, 246, rfl⟩
abbrev main_v155 : Ref sig .tc := ⟨.hbm, 247, rfl⟩
abbrev main_c_34 : Ref sig .tc := ⟨.hbm, 248, rfl⟩
abbrev main_v156 : Ref sig .tc := ⟨.hbm, 249, rfl⟩
abbrev main_v157 : Ref sig .tc := ⟨.hbm, 250, rfl⟩
abbrev main_v158 : Ref sig .tc := ⟨.hbm, 251, rfl⟩
abbrev main_v159 : Ref sig .tc := ⟨.hbm, 252, rfl⟩
abbrev main_v160 : Ref sig .tc := ⟨.hbm, 253, rfl⟩
abbrev main_v161 : Ref sig .tc := ⟨.hbm, 254, rfl⟩
abbrev main_c_35 : Ref sig .tc := ⟨.hbm, 255, rfl⟩
abbrev main_v162 : Ref sig .tc := ⟨.hbm, 256, rfl⟩
abbrev main_v163 : Ref sig .tc := ⟨.hbm, 257, rfl⟩
abbrev main_c_36 : Ref sig .tc := ⟨.hbm, 258, rfl⟩
abbrev main_v164 : Ref sig .tc := ⟨.hbm, 259, rfl⟩
abbrev main_v165 : Ref sig .tc := ⟨.hbm, 260, rfl⟩
abbrev main_v166 : Ref sig .tc := ⟨.hbm, 261, rfl⟩
abbrev main_v167 : Ref sig .tc := ⟨.hbm, 262, rfl⟩
abbrev main_v168 : Ref sig .tc := ⟨.hbm, 263, rfl⟩
abbrev main_v169 : Ref sig .tc := ⟨.hbm, 264, rfl⟩
abbrev main_v170 : Ref sig .tc := ⟨.hbm, 265, rfl⟩
abbrev main_v171 : Ref sig .tc := ⟨.hbm, 266, rfl⟩
abbrev main_cst_37 : Ref sig .tc := ⟨.hbm, 267, rfl⟩
abbrev main_v172 : Ref sig .tc := ⟨.hbm, 268, rfl⟩
abbrev main_v173 : Ref sig .tc := ⟨.hbm, 269, rfl⟩
abbrev main_v174 : Ref sig .tc := ⟨.hbm, 270, rfl⟩
abbrev main_v175 : Ref sig .tc := ⟨.hbm, 271, rfl⟩
abbrev main_v176 : Ref sig .tc := ⟨.hbm, 272, rfl⟩
abbrev main_v177 : Ref sig .tc := ⟨.hbm, 273, rfl⟩
abbrev main_v178 : Ref sig .tc := ⟨.hbm, 274, rfl⟩
abbrev main_v179 : Ref sig .tc := ⟨.hbm, 275, rfl⟩
abbrev main_v180 : Ref sig .tc := ⟨.hbm, 276, rfl⟩
abbrev main_v181 : Ref sig .tc := ⟨.hbm, 277, rfl⟩
abbrev main_v182 : Ref sig .tc := ⟨.hbm, 278, rfl⟩
abbrev main_call3_cst : Ref sig .tc := ⟨.hbm, 279, rfl⟩
abbrev main_call3_v0 : Ref sig .tc := ⟨.hbm, 280, rfl⟩
abbrev main_call3_v1 : Ref sig .tc := ⟨.hbm, 281, rfl⟩
abbrev main_call3_cst_0 : Ref sig .tc := ⟨.hbm, 282, rfl⟩
abbrev main_call3_v2 : Ref sig .tc := ⟨.hbm, 283, rfl⟩
abbrev main_call3_v3 : Ref sig .tc := ⟨.hbm, 284, rfl⟩
abbrev main_call3_cst_1 : Ref sig .tc := ⟨.hbm, 285, rfl⟩
abbrev main_call3_call0_v0 : Ref sig .tc := ⟨.hbm, 286, rfl⟩
abbrev main_call3_call0_v1 : Ref sig .tc := ⟨.hbm, 287, rfl⟩
abbrev main_call3_v4 : Ref sig .tc := ⟨.hbm, 288, rfl⟩
abbrev main_call3_v5 : Ref sig .tc := ⟨.hbm, 289, rfl⟩
abbrev main_call3_cst_2 : Ref sig .tc := ⟨.hbm, 290, rfl⟩
abbrev main_call3_v6 : Ref sig .tc := ⟨.hbm, 291, rfl⟩
abbrev main_call3_v7 : Ref sig .tc := ⟨.hbm, 292, rfl⟩
abbrev main_v183 : Ref sig .tc := ⟨.hbm, 293, rfl⟩
abbrev main_v184 : Ref sig .tc := ⟨.hbm, 294, rfl⟩
abbrev main_v185 : Ref sig .tc := ⟨.hbm, 295, rfl⟩
abbrev main_v186 : Ref sig .tc := ⟨.hbm, 296, rfl⟩
abbrev main_v187 : Ref sig .tc := ⟨.hbm, 297, rfl⟩
abbrev main_call4_cst : Ref sig .tc := ⟨.hbm, 298, rfl⟩
abbrev main_call4_v0 : Ref sig .tc := ⟨.hbm, 299, rfl⟩
abbrev main_call4_v1 : Ref sig .tc := ⟨.hbm, 300, rfl⟩
abbrev main_call4_cst_0 : Ref sig .tc := ⟨.hbm, 301, rfl⟩
abbrev main_call4_v2 : Ref sig .tc := ⟨.hbm, 302, rfl⟩
abbrev main_call4_v3 : Ref sig .tc := ⟨.hbm, 303, rfl⟩
abbrev main_call4_cst_1 : Ref sig .tc := ⟨.hbm, 304, rfl⟩
abbrev main_call4_call0_v0 : Ref sig .tc := ⟨.hbm, 305, rfl⟩
abbrev main_call4_call0_v1 : Ref sig .tc := ⟨.hbm, 306, rfl⟩
abbrev main_call4_v4 : Ref sig .tc := ⟨.hbm, 307, rfl⟩
abbrev main_call4_v5 : Ref sig .tc := ⟨.hbm, 308, rfl⟩
abbrev main_call4_cst_2 : Ref sig .tc := ⟨.hbm, 309, rfl⟩
abbrev main_call4_v6 : Ref sig .tc := ⟨.hbm, 310, rfl⟩
abbrev main_call4_v7 : Ref sig .tc := ⟨.hbm, 311, rfl⟩
abbrev main_v188 : Ref sig .tc := ⟨.hbm, 312, rfl⟩
abbrev main_v189 : Ref sig .tc := ⟨.hbm, 313, rfl⟩
abbrev main_v190 : Ref sig .tc := ⟨.hbm, 314, rfl⟩
abbrev main_v191 : Ref sig .tc := ⟨.hbm, 315, rfl⟩
abbrev main_v192 : Ref sig .tc := ⟨.hbm, 316, rfl⟩
abbrev main_call5_cst : Ref sig .tc := ⟨.hbm, 317, rfl⟩
abbrev main_call5_v0 : Ref sig .tc := ⟨.hbm, 318, rfl⟩
abbrev main_call5_v1 : Ref sig .tc := ⟨.hbm, 319, rfl⟩
abbrev main_call5_cst_0 : Ref sig .tc := ⟨.hbm, 320, rfl⟩
abbrev main_call5_v2 : Ref sig .tc := ⟨.hbm, 321, rfl⟩
abbrev main_call5_v3 : Ref sig .tc := ⟨.hbm, 322, rfl⟩
abbrev main_call5_cst_1 : Ref sig .tc := ⟨.hbm, 323, rfl⟩
abbrev main_call5_call0_v0 : Ref sig .tc := ⟨.hbm, 324, rfl⟩
abbrev main_call5_call0_v1 : Ref sig .tc := ⟨.hbm, 325, rfl⟩
abbrev main_call5_v4 : Ref sig .tc := ⟨.hbm, 326, rfl⟩
abbrev main_call5_v5 : Ref sig .tc := ⟨.hbm, 327, rfl⟩
abbrev main_call5_cst_2 : Ref sig .tc := ⟨.hbm, 328, rfl⟩
abbrev main_call5_v6 : Ref sig .tc := ⟨.hbm, 329, rfl⟩
abbrev main_call5_v7 : Ref sig .tc := ⟨.hbm, 330, rfl⟩
abbrev main_v193 : Ref sig .tc := ⟨.hbm, 331, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  bcast_S_S50000x10 : S_.BroadcastsInDim S50000x10 (![] : Fin 0 → Fin S50000x10.rank)
  dot_S50000x128_S128x128_S50000x128_1_0_0_1_n_n_wf : DotDims.WF S50000x128 S128x128 S50000x128 [1] [0] [0] [1] [] []
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x10_S50000x10_1_0_0_1_n_n_wf : DotDims.WF S50000x128 S128x10 S50000x10 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x10_S50000x10_1_0_0_1_n_n : DotDims S50000x128 S128x10 S50000x10 where
  lhsContracting := [1]
  rhsContracting := [0]
  lhsNonContracting := [0]
  rhsNonContracting := [1]
  lhsBatch := []
  rhsBatch := []
  wf := dot_S50000x128_S128x10_S50000x10_1_0_0_1_n_n_wf

class Facts : Prop extends Facts₀ where

variable [Facts]
-- ==== Proof.KernelWhole.lean ====
/-
  The idealized kernel's whole run, with its two results named.

  @main of the kernel is sixteen segments in a row: seven stretches of host operations and nine kernel regions. The
  contents of every buffer at each boundary are a fold from the launch memory — a host stretch applies its operations
  in order, a region leaves each of its arrays at what its grid points wrote back — and the last boundary's contents
  are `Gen.W16`. Every weakly fair execution terminates with every unscoped buffer at those contents; read at the two
  result buffers (the fourth layer's activations and the sliced classifier output) and at the fourteen arguments, that
  is the statement below. What `Gen.W16` holds at the two results, as a function of the arguments, is read in the
  modules that import this one.
-/
import proofs.«147130_j78975858639084_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates, nothing faulting, with the two result buffers at the
    last boundary's contents and the argument arrays as launched. -/
theorem run_results : θ_run defs (onTc (τ := τ) (main (F := F))) ⟨m, fun _ => 0, ρ⟩ (fun r => ∀ c : Dev nD,
      r.2.mem ((c.tc : Thread nD τ).loc main_v102) = W16 m ρ c (Proc.devRef .tc main_v102)
      ∧ r.2.mem ((c.tc : Thread nD τ).loc main_v111) = W16 m ρ c (Proc.devRef .tc main_v111)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v102 (by decide)),
       h c _ (mem_uc main_v111 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c),
       (h c _ (mem_uc main_arg13 (by decide))).trans (W16_main_arg13 m ρ c)⟩)

end Cert.KernelIdeal.Whole

end
-- ==== Proof.KeepA.lean ====
/-
  Buffers of the idealized kernel's run that nothing overwrites between where they are made and where they are read.

  The run's sixteen boundaries are numbered as the generated frame numbers them. A host stretch leaves a buffer alone when
  none of its operations writes it; a region leaves alone every buffer that is not one of its arrays, and an array it only
  reads through an input window. Here: the two endpoint lists of the edges and the two degree factors (per edge, per node),
  all made by the first host stretch and read by the host glue of each of the four layers.
-/
import proofs.«147130_j78975858639084_1_alg».proof.Proof.Gen.KernelIdeal.Frame

set_option maxRecDepth 16384

noncomputable section

namespace Cert.KernelIdeal.KeepA

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## main_v1 -/

theorem s2_v1 (c : Dev nD) : W2 m ρ c (Proc.devRef .tc main_v1) = W1 m ρ c (Proc.devRef .tc main_v1) :=
  W2_of_ne m ρ c main_v1 (by decide)

theorem s3_v1 (c : Dev nD) : W3 m ρ c (Proc.devRef .tc main_v1) = W2 m ρ c (Proc.devRef .tc main_v1) :=
  StableHlo.after_of_forall_not_mem (b := Proc.devRef .tc main_v1) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem s4_v1 (c : Dev nD) : W4 m ρ c (Proc.devRef .tc main_v1) = W3 m ρ c (Proc.devRef .tc main_v1) :=
  W4_of_ne m ρ c main_v1 (by decide)

theorem s5_v1 (c : Dev nD) : W5 m ρ c (Proc.devRef .tc main_v1) = W4 m ρ c (Proc.devRef .tc main_v1) :=
  W5_of_ne m ρ c main_v1 (by decide)

theorem s6_v1 (c : Dev nD) : W6 m ρ c (Proc.devRef .tc main_v1) = W5 m ρ c (Proc.devRef .tc main_v1) :=
  StableHlo.after_of_forall_not_mem (b := Proc.devRef .tc main_v1) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem s7_v1 (c : Dev nD) : W7 m ρ c (Proc.devRef .tc main_v1) = W6 m ρ c (Proc.devRef .tc main_v1) :=
  W7_of_ne m ρ c main_v1 (by decide)

theorem s8_v1 (c : Dev nD) : W8 m ρ c (Proc.devRef .tc main_v1) = W7 m ρ c (Proc.devRef .tc main_v1) :=
  W8_of_ne m ρ c main_v1 (by decide)

theorem s9_v1 (c : Dev nD) : W9 m ρ c (Proc.devRef .tc main_v1) = W8 m ρ c (Proc.devRef .tc main_v1) :=
  StableHlo.after_of_forall_not_mem (b := Proc.devRef .tc main_v1) _ _ (List.forall_iff_forall_mem.mp (by
    simp only [hostOps5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem s10_v1 (c : Dev nD) : W10 m ρ c (Proc.devRef .tc main_v1) = W9 m ρ c (Proc.devRef .tc main_v1) :=
  W10_of_ne m ρ c main_v1 (by decide)

theorem s11_v1 (c : Dev nD) : W11 m ρ c (Proc.devRef .tc main_v1) = W10 m ρ c (Proc.devRef .tc main_v1) :=
  W11_of_ne m ρ c main_v1 (by decide)

/-- main_v1 holds at boundary 2 what it held at boundary 1. -/
theorem keep_v1_W2 (c : Dev nD) : W2 m ρ c (Proc.devRef .tc main_v1) = W1 m ρ c (Proc.devRef .tc main_v1) :=
  (s2_v1 m ρ c)

/-- main_v1 holds at boundary 5 what it held at boundary 1. -/
theorem keep_v1_W5 (c : Dev nD) : W5 m ρ c (Proc.devRef .tc main_v1) = W1 m ρ c (Proc.devRef .tc main_v1) :=
  ((s5_v1 m ρ c).trans ((s4_v1 m ρ c).trans ((s3_v1 m ρ c).trans (keep_v1_W2 m ρ c))))

/-- main_v1 holds at boundary 8 what it held at boundary 1. -/
theorem keep_v1_W8 (c : Dev nD) : W8 m ρ c (Proc.devRef .tc main_v1) = W1 m ρ c (Proc.devRef .tc main_v1) :=
  ((s8_v1 m ρ c).trans ((s7_v1 m ρ c).trans ((s6_v1 m ρ c).trans (keep_v1_W5 m ρ c))))

/-- main_v1 holds at boundary 11 what it held at boundary 1. -/
theorem keep_v1_W11 (c : Dev nD) : W11 m ρ c (Proc.devRef .tc main_v1) = W1 m ρ c (Proc.devRef .tc main_v1) :=
  ((s11_v1 m ρ c).trans ((s10_v1 m ρ c).trans ((s9_v1 m ρ c).trans (keep_v1_W8 m ρ c))))

/-! ## main_v3 -/

theorem s2_v3 (c : Dev nD) : W2 m ρ c (Proc.devRef .tc main_v3) = W1 m ρ c (Proc.devRef .tc main_v3) :=
  W2_of_ne m ρ c main_v3 (by decide)

theorem s3_v3 (c : Dev nD) : W3 m ρ c (Proc.devRef .tc main_v3) = W2 m ρ c (Proc.devRef .tc main_v3) :=
  StableHlo.after_of_forall_not_mem (b := Proc.devRef .tc main_v3) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem s4_v3 (c : Dev nD) : W4 m ρ c (Proc.devRef .tc main_v3) = W3 m ρ c (Proc.devRef .tc main_v3) :=
  W4_of_ne m ρ c main_v3 (by decide)

theorem s5_v3 (c : Dev nD) : W5 m ρ c (Proc.devRef .tc main_v3) = W4 m ρ c (Proc.devRef .tc main_v3) :=
  W5_of_ne m ρ c main_v3 (by decide)

theorem s6_v3 (c : Dev nD) : W6 m ρ c (Proc.devRef .tc main_v3) = W5 m ρ c (Proc.devRef .tc main_v3) :=
  StableHlo.after_of_forall_not_mem (b := Proc.devRef .tc main_v3) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem s7_v3 (c : Dev nD) : W7 m ρ c (Proc.devRef .tc main_v3) = W6 m ρ c (Proc.devRef .tc main_v3) :=
  W7_of_ne m ρ c main_v3 (by decide)

theorem s8_v3 (c : Dev nD) : W8 m ρ c (Proc.devRef .tc main_v3) = W7 m ρ c (Proc.devRef .tc main_v3) :=
  W8_of_ne m ρ c main_v3 (by decide)

theorem s9_v3 (c : Dev nD) : W9 m ρ c (Proc.devRef .tc main_v3) = W8 m ρ c (Proc.devRef .tc main_v3) :=
  StableHlo.after_of_forall_not_mem (b := Proc.devRef .tc main_v3) _ _ (List.forall_iff_forall_mem.mp (by
    simp only [hostOps5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem s10_v3 (c : Dev nD) : W10 m ρ c (Proc.devRef .tc main_v3) = W9 m ρ c (Proc.devRef .tc main_v3) :=
  W10_of_ne m ρ c main_v3 (by decide)

theorem s11_v3 (c : Dev nD) : W11 m ρ c (Proc.devRef .tc main_v3) = W10 m ρ c (Proc.devRef .tc main_v3) :=
  W11_of_ne m ρ c main_v3 (by decide)

/-- main_v3 holds at boundary 2 what it held at boundary 1. -/
theorem keep_v3_W2 (c : Dev nD) : W2 m ρ c (Proc.devRef .tc main_v3) = W1 m ρ c (Proc.devRef .tc main_v3) :=
  (s2_v3 m ρ c)

/-- main_v3 holds at boundary 5 what it held at boundary 1. -/
theorem keep_v3_W5 (c : Dev nD) : W5 m ρ c (Proc.devRef .tc main_v3) = W1 m ρ c (Proc.devRef .tc main_v3) :=
  ((s5_v3 m ρ c).trans ((s4_v3 m ρ c).trans ((s3_v3 m ρ c).trans (keep_v3_W2 m ρ c))))

/-- main_v3 holds at boundary 8 what it held at boundary 1. -/
theorem keep_v3_W8 (c : Dev nD) : W8 m ρ c (Proc.devRef .tc main_v3) = W1 m ρ c (Proc.devRef .tc main_v3) :=
  ((s8_v3 m ρ c).trans ((s7_v3 m ρ c).trans ((s6_v3 m ρ c).trans (keep_v3_W5 m ρ c))))

/-- main_v3 holds at boundary 11 what it held at boundary 1. -/
theorem keep_v3_W11 (c : Dev nD) : W11 m ρ c (Proc.devRef .tc main_v3) = W1 m ρ c (Proc.devRef .tc main_v3) :=
  ((s11_v3 m ρ c).trans ((s10_v3 m ρ c).trans ((s9_v3 m ρ c).trans (keep_v3_W8 m ρ c))))

/-! ## main_v25 -/

theorem s2_v25 (c : Dev nD) : W2 m ρ c (Proc.devRef .tc main_v25) = W1 m ρ c (Proc.devRef .tc main_v25) :=
  W2_of_ne m ρ c main_v25 (by decide)

theorem s3_v25 (c : Dev nD) : W3 m ρ c (Proc.devRef .tc main_v25) = W2 m ρ c (Proc.devRef .tc main_v25) :=
  StableHlo.after_of_forall_not_mem (b := Proc.devRef .tc main_v25) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem s4_v25 (c : Dev nD) : W4 m ρ c (Proc.devRef .tc main_v25) = W3 m ρ c (Proc.devRef .tc main_v25) :=
  W4_of_ne m ρ c main_v25 (by decide)

theorem s5_v25 (c : Dev nD) : W5 m ρ c (Proc.devRef .tc main_v25) = W4 m ρ c (Proc.devRef .tc main_v25) :=
  W5_of_ne m ρ c main_v25 (by decide)

theorem s6_v25 (c : Dev nD) : W6 m ρ c (Proc.devRef .tc main_v25) = W5 m ρ c (Proc.devRef .tc main_v25) :=
  StableHlo.after_of_forall_not_mem (b := Proc.devRef .tc main_v25) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem s7_v25 (c : Dev nD) : W7 m ρ c (Proc.devRef .tc main_v25) = W6 m ρ c (Proc.devRef .tc main_v25) :=
  W7_of_ne m ρ c main_v25 (by decide)

theorem s8_v25 (c : Dev nD) : W8 m ρ c (Proc.devRef .tc main_v25) = W7 m ρ c (Proc.devRef .tc main_v25) :=
  W8_of_ne m ρ c main_v25 (by decide)

theorem s9_v25 (c : Dev nD) : W9 m ρ c (Proc.devRef .tc main_v25) = W8 m ρ c (Proc.devRef .tc main_v25) :=
  StableHlo.after_of_forall_not_mem (b := Proc.devRef .tc main_v25) _ _ (List.forall_iff_forall_mem.mp (by
    simp only [hostOps5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem s10_v25 (c : Dev nD) : W10 m ρ c (Proc.devRef .tc main_v25) = W9 m ρ c (Proc.devRef .tc main_v25) :=
  W10_of_ne m ρ c main_v25 (by decide)

theorem s11_v25 (c : Dev nD) : W11 m ρ c (Proc.devRef .tc main_v25) = W10 m ρ c (Proc.devRef .tc main_v25) :=
  W11_of_ne m ρ c main_v25 (by decide)

/-- main_v25 holds at boundary 2 what it held at boundary 1. -/
theorem keep_v25_W2 (c : Dev nD) : W2 m ρ c (Proc.devRef .tc main_v25) = W1 m ρ c (Proc.devRef .tc main_v25) :=
  (s2_v25 m ρ c)

/-- main_v25 holds at boundary 5 what it held at boundary 1. -/
theorem keep_v25_W5 (c : Dev nD) : W5 m ρ c (Proc.devRef .tc main_v25) = W1 m ρ c (Proc.devRef .tc main_v25) :=
  ((s5_v25 m ρ c).trans ((s4_v25 m ρ c).trans ((s3_v25 m ρ c).trans (keep_v25_W2 m ρ c))))

/-- main_v25 holds at boundary 8 what it held at boundary 1. -/
theorem keep_v25_W8 (c : Dev nD) : W8 m ρ c (Proc.devRef .tc main_v25) = W1 m ρ c (Proc.devRef .tc main_v25) :=
  ((s8_v25 m ρ c).trans ((s7_v25 m ρ c).trans ((s6_v25 m ρ c).trans (keep_v25_W5 m ρ c))))

/-- main_v25 holds at boundary 11 what it held at boundary 1. -/
theorem keep_v25_W11 (c : Dev nD) : W11 m ρ c (Proc.devRef .tc main_v25) = W1 m ρ c (Proc.devRef .tc main_v25) :=
  ((s11_v25 m ρ c).trans ((s10_v25 m ρ c).trans ((s9_v25 m ρ c).trans (keep_v25_W8 m ρ c))))

/-! ## main_v26 -/

theorem s2_v26 (c : Dev nD) : W2 m ρ c (Proc.devRef .tc main_v26) = W1 m ρ c (Proc.devRef .tc main_v26) :=
  W2_of_ne m ρ c main_v26 (by decide)

theorem s3_v26 (c : Dev nD) : W3 m ρ c (Proc.devRef .tc main_v26) = W2 m ρ c (Proc.devRef .tc main_v26) :=
  StableHlo.after_of_forall_not_mem (b := Proc.devRef .tc main_v26) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem s4_v26 (c : Dev nD) : W4 m ρ c (Proc.devRef .tc main_v26) = W3 m ρ c (Proc.devRef .tc main_v26) :=
  W4_of_ne m ρ c main_v26 (by decide)

theorem s5_v26 (c : Dev nD) : W5 m ρ c (Proc.devRef .tc main_v26) = W4 m ρ c (Proc.devRef .tc main_v26) :=
  W5_of_ne m ρ c main_v26 (by decide)

theorem s6_v26 (c : Dev nD) : W6 m ρ c (Proc.devRef .tc main_v26) = W5 m ρ c (Proc.devRef .tc main_v26) :=
  StableHlo.after_of_forall_not_mem (b := Proc.devRef .tc main_v26) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem s7_v26 (c : Dev nD) : W7 m ρ c (Proc.devRef .tc main_v26) = W6 m ρ c (Proc.devRef .tc main_v26) :=
  W7_of_ne m ρ c main_v26 (by decide)

theorem s8_v26 (c : Dev nD) : W8 m ρ c (Proc.devRef .tc main_v26) = W7 m ρ c (Proc.devRef .tc main_v26) :=
  W8_of_ne m ρ c main_v26 (by decide)

theorem s9_v26 (c : Dev nD) : W9 m ρ c (Proc.devRef .tc main_v26) = W8 m ρ c (Proc.devRef .tc main_v26) :=
  StableHlo.after_of_forall_not_mem (b := Proc.devRef .tc main_v26) _ _ (List.forall_iff_forall_mem.mp (by
    simp only [hostOps5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem s10_v26 (c : Dev nD) : W10 m ρ c (Proc.devRef .tc main_v26) = W9 m ρ c (Proc.devRef .tc main_v26) :=
  W10_of_ne m ρ c main_v26 (by decide)

theorem s11_v26 (c : Dev nD) : W11 m ρ c (Proc.devRef .tc main_v26) = W10 m ρ c (Proc.devRef .tc main_v26) :=
  W11_of_ne m ρ c main_v26 (by decide)

/-- main_v26 holds at boundary 2 what it held at boundary 1. -/
theorem keep_v26_W2 (c : Dev nD) : W2 m ρ c (Proc.devRef .tc main_v26) = W1 m ρ c (Proc.devRef .tc main_v26) :=
  (s2_v26 m ρ c)

/-- main_v26 holds at boundary 5 what it held at boundary 1. -/
theorem keep_v26_W5 (c : Dev nD) : W5 m ρ c (Proc.devRef .tc main_v26) = W1 m ρ c (Proc.devRef .tc main_v26) :=
  ((s5_v26 m ρ c).trans ((s4_v26 m ρ c).trans ((s3_v26 m ρ c).trans (keep_v26_W2 m ρ c))))

/-- main_v26 holds at boundary 8 what it held at boundary 1. -/
theorem keep_v26_W8 (c : Dev nD) : W8 m ρ c (Proc.devRef .tc main_v26) = W1 m ρ c (Proc.devRef .tc main_v26) :=
  ((s8_v26 m ρ c).trans ((s7_v26 m ρ c).trans ((s6_v26 m ρ c).trans (keep_v26_W5 m ρ c))))

/-- main_v26 holds at boundary 11 what it held at boundary 1. -/
theorem keep_v26_W11 (c : Dev nD) : W11 m ρ c (Proc.devRef .tc main_v26) = W1 m ρ c (Proc.devRef .tc main_v26) :=
  ((s11_v26 m ρ c).trans ((s10_v26 m ρ c).trans ((s9_v26 m ρ c).trans (keep_v26_W8 m ρ c))))

end Cert.KernelIdeal.KeepA

end
-- ==== Proof.KeepB.lean ====
/-
  Buffers of the idealized kernel's run that nothing overwrites between where they are made and where they are read.

  The run's sixteen boundaries are numbered as the generated frame numbers them. A host stretch leaves a buffer alone when
  none of its operations writes it; a region leaves alone every buffer that is not one of its arrays, and an array it only
  reads through an input window. Here: the weight and bias arguments, each read at the boundary of the stage that uses it and
  equal there to the launch memory; and the fourth layer's activations, read again by the classifier and returned.
-/
import proofs.«147130_j78975858639084_1_alg».proof.Proof.Gen.KernelIdeal.Frame

set_option maxRecDepth 16384

noncomputable section

namespace Cert.KernelIdeal.KeepB

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## main_arg0 -/

theorem s1_arg0 (c : Dev nD) : W1 m ρ c (Proc.devRef .tc main_arg0) = W0 m ρ c (Proc.devRef .tc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- main_arg0 holds at boundary 1 what it held at launch. -/
theorem keep_arg0_W1 (c : Dev nD) : W1 m ρ c (Proc.devRef .tc main_arg0) = m ((c : Thread nD τ).loc main_arg0) :=
  (s1_arg0 m ρ c)

/-! ## main_arg2 -/

theorem s1_arg2 (c : Dev nD) : W1 m ρ c (Proc.devRef .tc main_arg2) = W0 m ρ c (Proc.devRef .tc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- main_arg2 holds at boundary 1 what it held at launch. -/
theorem keep_arg2_W1 (c : Dev nD) : W1 m ρ c (Proc.devRef .tc main_arg2) = m ((c : Thread nD τ).loc main_arg2) :=
  (s1_arg2 m ρ c)

/-! ## main_arg3 -/

theorem s1_arg3 (c : Dev nD) : W1 m ρ c (Proc.devRef .tc main_arg3) = W0 m ρ c (Proc.devRef .tc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem s2_arg3 (c : Dev nD) : W2 m ρ c (Proc.devRef .tc main_arg3) = W1 m ρ c (Proc.devRef .tc main_arg3) :=
  W2_of_ne m ρ c main_arg3 (by decide)

/-- main_arg3 holds at boundary 2 what it held at launch. -/
theorem keep_arg3_W2 (c : Dev nD) : W2 m ρ c (Proc.devRef .tc main_arg3) = m ((c : Thread nD τ).loc main_arg3) :=
  ((s2_arg3 m ρ c).trans (s1_arg3 m ρ c))

/-! ## main_arg4 -/

theorem s1_arg4 (c : Dev nD) : W1 m ρ c (Proc.devRef .tc main_arg4) = W0 m ρ c (Proc.devRef .tc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem s2_arg4 (c : Dev nD) : W2 m ρ c (Proc.devRef .tc main_arg4) = W1 m ρ c (Proc.devRef .tc main_arg4) :=
  W2_of_ne m ρ c main_arg4 (by decide)

theorem s3_arg4 (c : Dev nD) : W3 m ρ c (Proc.devRef .tc main_arg4) = W2 m ρ c (Proc.devRef .tc main_arg4) :=
  StableHlo.after_of_forall_not_mem (b := Proc.devRef .tc main_arg4) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem s4_arg4 (c : Dev nD) : W4 m ρ c (Proc.devRef .tc main_arg4) = W3 m ρ c (Proc.devRef .tc main_arg4) :=
  W4_of_ne m ρ c main_arg4 (by decide)

/-- main_arg4 holds at boundary 4 what it held at launch. -/
theorem keep_arg4_W4 (c : Dev nD) : W4 m ρ c (Proc.devRef .tc main_arg4) = m ((c : Thread nD τ).loc main_arg4) :=
  ((s4_arg4 m ρ c).trans ((s3_arg4 m ρ c).trans ((s2_arg4 m ρ c).trans (s1_arg4 m ρ c))))

/-! ## main_arg5 -/

theorem s1_arg5 (c : Dev nD) : W1 m ρ c (Proc.devRef .tc main_arg5) = W0 m ρ c (Proc.devRef .tc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem s2_arg5 (c : Dev nD) : W2 m ρ c (Proc.devRef .tc main_arg5) = W1 m ρ c (Proc.devRef .tc main_arg5) :=
  W2_of_ne m ρ c main_arg5 (by decide)

theorem s3_arg5 (c : Dev nD) : W3 m ρ c (Proc.devRef .tc main_arg5) = W2 m ρ c (Proc.devRef .tc main_arg5) :=
  StableHlo.after_of_forall_not_mem (b := Proc.devRef .tc main_arg5) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem s4_arg5 (c : Dev nD) : W4 m ρ c (Proc.devRef .tc main_arg5) = W3 m ρ c (Proc.devRef .tc main_arg5) :=
  W4_of_ne m ρ c main_arg5 (by decide)

theorem s5_arg5 (c : Dev nD) : W5 m ρ c (Proc.devRef .tc main_arg5) = W4 m ρ c (Proc.devRef .tc main_arg5) :=
  W5_of_ne m ρ c main_arg5 (by decide)

/-- main_arg5 holds at boundary 5 what it held at launch. -/
theorem keep_arg5_W5 (c : Dev nD) : W5 m ρ c (Proc.devRef .tc main_arg5) = m ((c : Thread nD τ).loc main_arg5) :=
  ((s5_arg5 m ρ c).trans ((s4_arg5 m ρ c).trans ((s3_arg5 m ρ c).trans ((s2_arg5 m ρ c).trans (s1_arg5 m ρ c)))))

/-! ## main_arg6 -/

theorem s1_arg6 (c : Dev nD) : W1 m ρ c (Proc.devRef .tc main_arg6) = W0 m ρ c (Proc.devRef .tc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem s2_arg6 (c : Dev nD) : W2 m ρ c (Proc.devRef .tc main_arg6) = W1 m ρ c (Proc.devRef .tc main_arg6) :=
  W2_of_ne m ρ c main_arg6 (by decide)

theorem s3_arg6 (c : Dev nD) : W3 m ρ c (Proc.devRef .tc main_arg6) = W2 m ρ c (Proc.devRef .tc main_arg6) :=
  StableHlo.after_of_forall_not_mem (b := Proc.devRef .tc main_arg6) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem s4_arg6 (c : Dev nD) : W4 m ρ c (Proc.devRef .tc main_arg6) = W3 m ρ c (Proc.devRef .tc main_arg6) :=
  W4_of_ne m ρ c main_arg6 (by decide)

theorem s5_arg6 (c : Dev nD) : W5 m ρ c (Proc.devRef .tc main_arg6) = W4 m ρ c (Proc.devRef .tc main_arg6) :=
  W5_of_ne m ρ c main_arg6 (by decide)

theorem s6_arg6 (c : Dev nD) : W6 m ρ c (Proc.devRef .tc main_arg6) = W5 m ρ c (Proc.devRef .tc main_arg6) :=
  StableHlo.after_of_forall_not_mem (b := Proc.devRef .tc main_arg6) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem s7_arg6 (c : Dev nD) : W7 m ρ c (Proc.devRef .tc main_arg6) = W6 m ρ c (Proc.devRef .tc main_arg6) :=
  W7_of_ne m ρ c main_arg6 (by decide)

/-- main_arg6 holds at boundary 7 what it held at launch. -/
theorem keep_arg6_W7 (c : Dev nD) : W7 m ρ c (Proc.devRef .tc main_arg6) = m ((c : Thread nD τ).loc main_arg6) :=
  ((s7_arg6 m ρ c).trans ((s6_arg6 m ρ c).trans ((s5_arg6 m ρ c).trans ((s4_arg6 m ρ c).trans ((s3_arg6 m ρ c).trans ((s2_arg6 m ρ c).trans (s1_arg6 m ρ c)))))))

/-! ## main_arg7 -/

theorem s1_arg7 (c : Dev nD) : W1 m ρ c (Proc.devRef .tc main_arg7) = W0 m ρ c (Proc.devRef .tc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem s2_arg7 (c : Dev nD) : W2 m ρ c (Proc.devRef .tc main_arg7) = W1 m ρ c (Proc.devRef .tc main_arg7) :=
  W2_of_ne m ρ c main_arg7 (by decide)

theorem s3_arg7 (c : Dev nD) : W3 m ρ c (Proc.devRef .tc main_arg7) = W2 m ρ c (Proc.devRef .tc main_arg7) :=
  StableHlo.after_of_forall_not_mem (b := Proc.devRef .tc main_arg7) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem s4_arg7 (c : Dev nD) : W4 m ρ c (Proc.devRef .tc main_arg7) = W3 m ρ c (Proc.devRef .tc main_arg7) :=
  W4_of_ne m ρ c main_arg7 (by decide)

theorem s5_arg7 (c : Dev nD) : W5 m ρ c (Proc.devRef .tc main_arg7) = W4 m ρ c (Proc.devRef .tc main_arg7) :=
  W5_of_ne m ρ c main_arg7 (by decide)

theorem s6_arg7 (c : Dev nD) : W6 m ρ c (Proc.devRef .tc main_arg7) = W5 m ρ c (Proc.devRef .tc main_arg7) :=
  StableHlo.after_of_forall_not_mem (b := Proc.devRef .tc main_arg7) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem s7_arg7 (c : Dev nD) : W7 m ρ c (Proc.devRef .tc main_arg7) = W6 m ρ c (Proc.devRef .tc main_arg7) :=
  W7_of_ne m ρ c main_arg7 (by decide)

theorem s8_arg7 (c : Dev nD) : W8 m ρ c (Proc.devRef .tc main_arg7) = W7 m ρ c (Proc.devRef .tc main_arg7) :=
  W8_of_ne m ρ c main_arg7 (by decide)

/-- main_arg7 holds at boundary 8 what it held at launch. -/
theorem keep_arg7_W8 (c : Dev nD) : W8 m ρ c (Proc.devRef .tc main_arg7) = m ((c : Thread nD τ).loc main_arg7) :=
  ((s8_arg7 m ρ c).trans ((s7_arg7 m ρ c).trans ((s6_arg7 m ρ c).trans ((s5_arg7 m ρ c).trans ((s4_arg7 m ρ c).trans ((s3_arg7 m ρ c).trans ((s2_arg7 m ρ c).trans (s1_arg7 m ρ c))))))))

/-! ## main_arg8 -/

theorem s1_arg8 (c : Dev nD) : W1 m ρ c (Proc.devRef .tc main_arg8) = W0 m ρ c (Proc.devRef .tc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem s2_arg8 (c : Dev nD) : W2 m ρ c (Proc.devRef .tc main_arg8) = W1 m ρ c (Proc.devRef .tc main_arg8) :=
  W2_of_ne m ρ c main_arg8 (by decide)

theorem s3_arg8 (c : Dev nD) : W3 m ρ c (Proc.devRef .tc main_arg8) = W2 m ρ c (Proc.devRef .tc main_arg8) :=
  StableHlo.after_of_forall_not_mem (b := Proc.devRef .tc main_arg8) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem s4_arg8 (c : Dev nD) : W4 m ρ c (Proc.devRef .tc main_arg8) = W3 m ρ c (Proc.devRef .tc main_arg8) :=
  W4_of_ne m ρ c main_arg8 (by decide)

theorem s5_arg8 (c : Dev nD) : W5 m ρ c (Proc.devRef .tc main_arg8) = W4 m ρ c (Proc.devRef .tc main_arg8) :=
  W5_of_ne m ρ c main_arg8 (by decide)

theorem s6_arg8 (c : Dev nD) : W6 m ρ c (Proc.devRef .tc main_arg8) = W5 m ρ c (Proc.devRef .tc main_arg8) :=
  StableHlo.after_of_forall_not_mem (b := Proc.devRef .tc main_arg8) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem s7_arg8 (c : Dev nD) : W7 m ρ c (Proc.devRef .tc main_arg8) = W6 m ρ c (Proc.devRef .tc main_arg8) :=
  W7_of_ne m ρ c main_arg8 (by decide)

theorem s8_arg8 (c : Dev nD) : W8 m ρ c (Proc.devRef .tc main_arg8) = W7 m ρ c (Proc.devRef .tc main_arg8) :=
  W8_of_ne m ρ c main_arg8 (by decide)

theorem s9_arg8 (c : Dev nD) : W9 m ρ c (Proc.devRef .tc main_arg8) = W8 m ρ c (Proc.devRef .tc main_arg8) :=
  StableHlo.after_of_forall_not_mem (b := Proc.devRef .tc main_arg8) _ _ (List.forall_iff_forall_mem.mp (by
    simp only [hostOps5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem s10_arg8 (c : Dev nD) : W10 m ρ c (Proc.devRef .tc main_arg8) = W9 m ρ c (Proc.devRef .tc main_arg8) :=
  W10_of_ne m ρ c main_arg8 (by decide)

/-- main_arg8 holds at boundary 10 what it held at launch. -/
theorem keep_arg8_W10 (c : Dev nD) : W10 m ρ c (Proc.devRef .tc main_arg8) = m ((c : Thread nD τ).loc main_arg8) :=
  ((s10_arg8 m ρ c).trans ((s9_arg8 m ρ c).trans ((s8_arg8 m ρ c).trans ((s7_arg8 m ρ c).trans ((s6_arg8 m ρ c).trans ((s5_arg8 m ρ c).trans ((s4_arg8 m ρ c).trans ((s3_arg8 m ρ c).trans ((s2_arg8 m ρ c).trans (s1_arg8 m ρ c))))))))))

/-! ## main_arg9 -/

theorem s1_arg9 (c : Dev nD) : W1 m ρ c (Proc.devRef .tc main_arg9) = W0 m ρ c (Proc.devRef .tc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem s2_arg9 (c : Dev nD) : W2 m ρ c (Proc.devRef .tc main_arg9) = W1 m ρ c (Proc.devRef .tc main_arg9) :=
  W2_of_ne m ρ c main_arg9 (by decide)

theorem s3_arg9 (c : Dev nD) : W3 m ρ c (Proc.devRef .tc main_arg9) = W2 m ρ c (Proc.devRef .tc main_arg9) :=
  StableHlo.after_of_forall_not_mem (b := Proc.devRef .tc main_arg9) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem s4_arg9 (c : Dev nD) : W4 m ρ c (Proc.devRef .tc main_arg9) = W3 m ρ c (Proc.devRef .tc main_arg9) :=
  W4_of_ne m ρ c main_arg9 (by decide)

theorem s5_arg9 (c : Dev nD) : W5 m ρ c (Proc.devRef .tc main_arg9) = W4 m ρ c (Proc.devRef .tc main_arg9) :=
  W5_of_ne m ρ c main_arg9 (by decide)

theorem s6_arg9 (c : Dev nD) : W6 m ρ c (Proc.devRef .tc main_arg9) = W5 m ρ c (Proc.devRef .tc main_arg9) :=
  StableHlo.after_of_forall_not_mem (b := Proc.devRef .tc main_arg9) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem s7_arg9 (c : Dev nD) : W7 m ρ c (Proc.devRef .tc main_arg9) = W6 m ρ c (Proc.devRef .tc main_arg9) :=
  W7_of_ne m ρ c main_arg9 (by decide)

theorem s8_arg9 (c : Dev nD) : W8 m ρ c (Proc.devRef .tc main_arg9) = W7 m ρ c (Proc.devRef .tc main_arg9) :=
  W8_of_ne m ρ c main_arg9 (by decide)

theorem s9_arg9 (c : Dev nD) : W9 m ρ c (Proc.devRef .tc main_arg9) = W8 m ρ c (Proc.devRef .tc main_arg9) :=
  StableHlo.after_of_forall_not_mem (b := Proc.devRef .tc main_arg9) _ _ (List.forall_iff_forall_mem.mp (by
    simp only [hostOps5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem s10_arg9 (c : Dev nD) : W10 m ρ c (Proc.devRef .tc main_arg9) = W9 m ρ c (Proc.devRef .tc main_arg9) :=
  W10_of_ne m ρ c main_arg9 (by decide)

theorem s11_arg9 (c : Dev nD) : W11 m ρ c (Proc.devRef .tc main_arg9) = W10 m ρ c (Proc.devRef .tc main_arg9) :=
  W11_of_ne m ρ c main_arg9 (by decide)

/-- main_arg9 holds at boundary 11 what it held at launch. -/
theorem keep_arg9_W11 (c : Dev nD) : W11 m ρ c (Proc.devRef .tc main_arg9) = m ((c : Thread nD τ).loc main_arg9) :=
  ((s11_arg9 m ρ c).trans ((s10_arg9 m ρ c).trans ((s9_arg9 m ρ c).trans ((s8_arg9 m ρ c).trans ((s7_arg9 m ρ c).trans ((s6_arg9 m ρ c).trans ((s5_arg9 m ρ c).trans ((s4_arg9 m ρ c).trans ((s3_arg9 m ρ c).trans ((s2_arg9 m ρ c).trans (s1_arg9 m ρ c)))))))))))

/-! ## main_arg12 -/

theorem s1_arg12 (c : Dev nD) : W1 m ρ c (Proc.devRef .tc main_arg12) = W0 m ρ c (Proc.devRef .tc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem s2_arg12 (c : Dev nD) : W2 m ρ c (Proc.devRef .tc main_arg12) = W1 m ρ c (Proc.devRef .tc main_arg12) :=
  W2_of_ne m ρ c main_arg12 (by decide)

theorem s3_arg12 (c : Dev nD) : W3 m ρ c (Proc.devRef .tc main_arg12) = W2 m ρ c (Proc.devRef .tc main_arg12) :=
  StableHlo.after_of_forall_not_mem (b := Proc.devRef .tc main_arg12) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem s4_arg12 (c : Dev nD) : W4 m ρ c (Proc.devRef .tc main_arg12) = W3 m ρ c (Proc.devRef .tc main_arg12) :=
  W4_of_ne m ρ c main_arg12 (by decide)

theorem s5_arg12 (c : Dev nD) : W5 m ρ c (Proc.devRef .tc main_arg12) = W4 m ρ c (Proc.devRef .tc main_arg12) :=
  W5_of_ne m ρ c main_arg12 (by decide)

theorem s6_arg12 (c : Dev nD) : W6 m ρ c (Proc.devRef .tc main_arg12) = W5 m ρ c (Proc.devRef .tc main_arg12) :=
  StableHlo.after_of_forall_not_mem (b := Proc.devRef .tc main_arg12) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem s7_arg12 (c : Dev nD) : W7 m ρ c (Proc.devRef .tc main_arg12) = W6 m ρ c (Proc.devRef .tc main_arg12) :=
  W7_of_ne m ρ c main_arg12 (by decide)

theorem s8_arg12 (c : Dev nD) : W8 m ρ c (Proc.devRef .tc main_arg12) = W7 m ρ c (Proc.devRef .tc main_arg12) :=
  W8_of_ne m ρ c main_arg12 (by decide)

theorem s9_arg12 (c : Dev nD) : W9 m ρ c (Proc.devRef .tc main_arg12) = W8 m ρ c (Proc.devRef .tc main_arg12) :=
  StableHlo.after_of_forall_not_mem (b := Proc.devRef .tc main_arg12) _ _ (List.forall_iff_forall_mem.mp (by
    simp only [hostOps5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem s10_arg12 (c : Dev nD) : W10 m ρ c (Proc.devRef .tc main_arg12) = W9 m ρ c (Proc.devRef .tc main_arg12) :=
  W10_of_ne m ρ c main_arg12 (by decide)

theorem s11_arg12 (c : Dev nD) : W11 m ρ c (Proc.devRef .tc main_arg12) = W10 m ρ c (Proc.devRef .tc main_arg12) :=
  W11_of_ne m ρ c main_arg12 (by decide)

theorem s12_arg12 (c : Dev nD) : W12 m ρ c (Proc.devRef .tc main_arg12) = W11 m ρ c (Proc.devRef .tc main_arg12) :=
  StableHlo.after_of_forall_not_mem (b := Proc.devRef .tc main_arg12) _ _ (List.forall_iff_forall_mem.mp (by
    simp only [hostOps7, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem s13_arg12 (c : Dev nD) : W13 m ρ c (Proc.devRef .tc main_arg12) = W12 m ρ c (Proc.devRef .tc main_arg12) :=
  W13_of_ne m ρ c main_arg12 (by decide)

/-- main_arg12 holds at boundary 13 what it held at launch. -/
theorem keep_arg12_W13 (c : Dev nD) : W13 m ρ c (Proc.devRef .tc main_arg12) = m ((c : Thread nD τ).loc main_arg12) :=
  ((s13_arg12 m ρ c).trans ((s12_arg12 m ρ c).trans ((s11_arg12 m ρ c).trans ((s10_arg12 m ρ c).trans ((s9_arg12 m ρ c).trans ((s8_arg12 m ρ c).trans ((s7_arg12 m ρ c).trans ((s6_arg12 m ρ c).trans ((s5_arg12 m ρ c).trans ((s4_arg12 m ρ c).trans ((s3_arg12 m ρ c).trans ((s2_arg12 m ρ c).trans (s1_arg12 m ρ c)))))))))))))

/-! ## main_arg13 -/

theorem s1_arg13 (c : Dev nD) : W1 m ρ c (Proc.devRef .tc main_arg13) = W0 m ρ c (Proc.devRef .tc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem s2_arg13 (c : Dev nD) : W2 m ρ c (Proc.devRef .tc main_arg13) = W1 m ρ c (Proc.devRef .tc main_arg13) :=
  W2_of_ne m ρ c main_arg13 (by decide)

theorem s3_arg13 (c : Dev nD) : W3 m ρ c (Proc.devRef .tc main_arg13) = W2 m ρ c (Proc.devRef .tc main_arg13) :=
  StableHlo.after_of_forall_not_mem (b := Proc.devRef .tc main_arg13) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem s4_arg13 (c : Dev nD) : W4 m ρ c (Proc.devRef .tc main_arg13) = W3 m ρ c (Proc.devRef .tc main_arg13) :=
  W4_of_ne m ρ c main_arg13 (by decide)

theorem s5_arg13 (c : Dev nD) : W5 m ρ c (Proc.devRef .tc main_arg13) = W4 m ρ c (Proc.devRef .tc main_arg13) :=
  W5_of_ne m ρ c main_arg13 (by decide)

theorem s6_arg13 (c : Dev nD) : W6 m ρ c (Proc.devRef .tc main_arg13) = W5 m ρ c (Proc.devRef .tc main_arg13) :=
  StableHlo.after_of_forall_not_mem (b := Proc.devRef .tc main_arg13) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem s7_arg13 (c : Dev nD) : W7 m ρ c (Proc.devRef .tc main_arg13) = W6 m ρ c (Proc.devRef .tc main_arg13) :=
  W7_of_ne m ρ c main_arg13 (by decide)

theorem s8_arg13 (c : Dev nD) : W8 m ρ c (Proc.devRef .tc main_arg13) = W7 m ρ c (Proc.devRef .tc main_arg13) :=
  W8_of_ne m ρ c main_arg13 (by decide)

theorem s9_arg13 (c : Dev nD) : W9 m ρ c (Proc.devRef .tc main_arg13) = W8 m ρ c (Proc.devRef .tc main_arg13) :=
  StableHlo.after_of_forall_not_mem (b := Proc.devRef .tc main_arg13) _ _ (List.forall_iff_forall_mem.mp (by
    simp only [hostOps5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem s10_arg13 (c : Dev nD) : W10 m ρ c (Proc.devRef .tc main_arg13) = W9 m ρ c (Proc.devRef .tc main_arg13) :=
  W10_of_ne m ρ c main_arg13 (by decide)

theorem s11_arg13 (c : Dev nD) : W11 m ρ c (Proc.devRef .tc main_arg13) = W10 m ρ c (Proc.devRef .tc main_arg13) :=
  W11_of_ne m ρ c main_arg13 (by decide)

theorem s12_arg13 (c : Dev nD) : W12 m ρ c (Proc.devRef .tc main_arg13) = W11 m ρ c (Proc.devRef .tc main_arg13) :=
  StableHlo.after_of_forall_not_mem (b := Proc.devRef .tc main_arg13) _ _ (List.forall_iff_forall_mem.mp (by
    simp only [hostOps7, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem s13_arg13 (c : Dev nD) : W13 m ρ c (Proc.devRef .tc main_arg13) = W12 m ρ c (Proc.devRef .tc main_arg13) :=
  W13_of_ne m ρ c main_arg13 (by decide)

/-- main_arg13 holds at boundary 13 what it held at launch. -/
theorem keep_arg13_W13 (c : Dev nD) : W13 m ρ c (Proc.devRef .tc main_arg13) = m ((c : Thread nD τ).loc main_arg13) :=
  ((s13_arg13 m ρ c).trans ((s12_arg13 m ρ c).trans ((s11_arg13 m ρ c).trans ((s10_arg13 m ρ c).trans ((s9_arg13 m ρ c).trans ((s8_arg13 m ρ c).trans ((s7_arg13 m ρ c).trans ((s6_arg13 m ρ c).trans ((s5_arg13 m ρ c).trans ((s4_arg13 m ρ c).trans ((s3_arg13 m ρ c).trans ((s2_arg13 m ρ c).trans (s1_arg13 m ρ c)))))))))))))

/-! ## main_v102 -/

theorem s14_v102 (c : Dev nD) : W14 m ρ c (Proc.devRef .tc main_v102) = W13 m ρ c (Proc.devRef .tc main_v102) :=
  StableHlo.after_of_forall_not_mem (b := Proc.devRef .tc main_v102) _ _ (List.forall_iff_forall_mem.mp (by
    simp only [hostOps8, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem s15_v102 (c : Dev nD) : W15 m ρ c (Proc.devRef .tc main_v102) = W14 m ρ c (Proc.devRef .tc main_v102) :=
  (W15_arr m ρ c 0).trans (((dat8 (V14 m ρ) c).arrAt_in 0 rfl _).trans (A_eq8 (V14 m ρ) c 0))

theorem s16_v102 (c : Dev nD) : W16 m ρ c (Proc.devRef .tc main_v102) = W15 m ρ c (Proc.devRef .tc main_v102) :=
  StableHlo.after_of_forall_not_mem (b := Proc.devRef .tc main_v102) _ _ (List.forall_iff_forall_mem.mp (by
    simp only [hostOps9, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- main_v102 holds at boundary 14 what it held at boundary 13. -/
theorem keep_v102_W14 (c : Dev nD) : W14 m ρ c (Proc.devRef .tc main_v102) = W13 m ρ c (Proc.devRef .tc main_v102) :=
  (s14_v102 m ρ c)

/-- main_v102 holds at boundary 16 what it held at boundary 13. -/
theorem keep_v102_W16 (c : Dev nD) : W16 m ρ c (Proc.devRef .tc main_v102) = W13 m ρ c (Proc.devRef .tc main_v102) :=
  ((s16_v102 m ρ c).trans ((s15_v102 m ρ c).trans (keep_v102_W14 m ρ c)))

end Cert.KernelIdeal.KeepB

end
-- ==== Proof.Layer.lean ====
/-
  The graph-convolution layer's host glue, as functions of arrays.

  Both programs surround their dense stages with the same host operations, on the same shapes with the same dimension
  numbers; here each group of them is ONE named function, stated with the reference program's shapes and records and
  never opened afterwards: the bridge between the two programs only ever needs that both apply the same function to equal
  arrays.
    srcOf e, dstOf e   the two rows of the edge list [2,600000], each as a vector [600000]
    idxCol s      the gather index column of an endpoint list s: an entry below zero is moved up by the node count 50000
                  (jnp's indexing rule), then the list is made a column [600000] → [600000,1]
    dinvOf d      deg^(-1/2), deg the number of edges arriving at each node (a scatter-add of ones along d) plus one
    normOf s d    per edge, dinv at its source times dinv at its destination
    aggOf xw n s d   the scatter-add along d of the rows of xw gathered at s, each scaled by the edge's n
    selfOf xw q   each row of xw scaled by that node's q (the self-loop message, q = dinv · dinv)
    biasRows b    the bias vector [128] as every row of a [50000,128] array
-/
import proofs.«147130_j78975858639084_1_alg».proof.ReferenceIdeal
import proofs.«147130_j78975858639084_1_alg».proof.Proof.Gen.ReferenceIdeal

noncomputable section

namespace Cert.ReferenceIdeal.Layer

open Cert.ReferenceIdeal Cert.ReferenceIdeal.Gen Idealize.ShloMosaic

variable {F : FTy → Type} [FloatOps F]

/-- The sources of the edges: row 0 of the edge list. -/
def srcOf (e : (⟨S2x600000, .i32⟩ : BufTy).Contents (Elt F)) : (⟨S600000, .i32⟩ : BufTy).Contents (Elt F) :=
  fun i => shapeCast S600000 (extractStridedSlice S1x600000 ![0, 0] e slices_S2x600000_S1x600000_0_0) shapeCasts_S1x600000_S600000 i

/-- The destinations of the edges: row 1 of the edge list. -/
def dstOf (e : (⟨S2x600000, .i32⟩ : BufTy).Contents (Elt F)) : (⟨S600000, .i32⟩ : BufTy).Contents (Elt F) :=
  fun i => shapeCast S600000 (extractStridedSlice S1x600000 ![1, 0] e slices_S2x600000_S1x600000_1_0) shapeCasts_S1x600000_S600000 i

/-- The gather index column of an endpoint list. -/
def idxCol (s : (⟨S600000, .i32⟩ : BufTy).Contents (Elt F)) : (⟨S600000x1, .i32⟩ : BufTy).Contents (Elt F) :=
  broadcastInDim S600000x1 ![0] bcast_S600000_S600000x1_0
    (select (cmpi .slt s (broadcastInDim S600000 ![] bcast_S_S600000 (constantI S_ 32 0#32)))
      (addi s (broadcastInDim S600000 ![] bcast_S_S600000 (constantI S_ 32 50000#32))) s)

/-- deg^(-1/2), deg the in-degree along d plus one. -/
def dinvOf (d : (⟨S600000, .i32⟩ : BufTy).Contents (Elt F)) : (⟨S50000, .f32⟩ : BufTy).Contents (Elt F) :=
  Host.rsqrt (addf
    (Host.scatterAdd scatter_S50000_S600000x1_S600000_n_0_0_1
      (broadcastInDim S50000 ![] bcast_S_S50000 (constant S_ .f32 0x00000000#32))
      (broadcastInDim S600000x1 ![0] bcast_S600000_S600000x1_0 d)
      (broadcastInDim S600000 ![] bcast_S_S600000 (constant S_ .f32 0x3F800000#32)))
    (broadcastInDim S50000 ![] bcast_S_S50000 (constant S_ .f32 0x3F800000#32)))

/-- Per edge, a per-node vector at its source times the same vector at its destination. -/
def normOf (v : (⟨S50000, .f32⟩ : BufTy).Contents (Elt F)) (s d : (⟨S600000, .i32⟩ : BufTy).Contents (Elt F)) :
    (⟨S600000, .f32⟩ : BufTy).Contents (Elt F) :=
  mulf (Host.gather gather_S50000_S600000x1_S600000_n_0_n_n_0_1_1 v (idxCol s))
    (Host.gather gather_S50000_S600000x1_S600000_n_0_n_n_0_1_1 v (idxCol d))

/-- The scatter-add along d of the rows of xw gathered at s, each scaled by its edge's factor. -/
def aggOf (xw : (⟨S50000x128, .f32⟩ : BufTy).Contents (Elt F)) (n : (⟨S600000, .f32⟩ : BufTy).Contents (Elt F))
    (s d : (⟨S600000, .i32⟩ : BufTy).Contents (Elt F)) : (⟨S50000x128, .f32⟩ : BufTy).Contents (Elt F) :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 d)
    (mulf (Host.gather gather_S50000x128_S600000x1_S600000x128_1_0_n_n_0_1_1128 xw (idxCol s))
      (broadcastInDim S600000x128 ![0, 1] bcast_S600000x1_S600000x128_0_1
        (broadcastInDim S600000x1 ![0] bcast_S600000_S600000x1_0 n)))

/-- Each row of xw scaled by its node's factor. -/
def selfOf (xw : (⟨S50000x128, .f32⟩ : BufTy).Contents (Elt F)) (q : (⟨S50000, .f32⟩ : BufTy).Contents (Elt F)) :
    (⟨S50000x128, .f32⟩ : BufTy).Contents (Elt F) :=
  mulf xw (broadcastInDim S50000x128 ![0, 1] bcast_S50000x1_S50000x128_0_1
    (broadcastInDim S50000x1 ![0] bcast_S50000_S50000x1_0 q))

/-- The bias vector as every row of a [50000,128] array. -/
def biasRows (b : (⟨S128, .f32⟩ : BufTy).Contents (Elt F)) : (⟨S50000x128, .f32⟩ : BufTy).Contents (Elt F) :=
  broadcastInDim S50000x128 ![0, 1] bcast_S1x128_S50000x128_0_1 (broadcastInDim S1x128 ![1] bcast_S128_S1x128_1 b)

end Cert.ReferenceIdeal.Layer

end
-- ==== Proof.EluAlgebra.lean ====
/-
  The exponential linear unit on the extended reals, in the two spellings the programs use, and their equality.

  The kernel computes, of a pre-activation v,   select (v > 0) v (exp v − 1.0).
  jax.nn.elu computes   select (v > 0) v (1.0 · expm1 (select (v > 0) 0.0 v)),
  with expm1 y = exp y − 1 on the extended reals (−∞ ↦ −1). Where v > 0 both pick v. Where not, the inner select is v
  itself, so the second reads 1 · (exp v − 1); the float pattern of 1.0 denotes the real 1 and 1 · y = y for every
  extended real y, infinite ones included. No finiteness of v is used.
-/
import Idealize.ShloMosaic.PureOps.Ideal
import Idealize.ShloMosaic.PureOps.Ideal.Laws
import Idealize.ShloMosaic.Lib.ValueIdx

noncomputable section

namespace Cert.GcnAlgebra

open Idealize.ShloMosaic Idealize.ShloMosaic.ValueIdx

/-- The float pattern of 1.0 denotes the real 1. -/
theorem one_f32 : Ideal.ofBits .f32 0x3F800000#32 = 1 := by
  simp [Ideal.ofBits, Ideal.ieee, -EReal.coe_mul]; norm_num

/-- ELU as the kernel spells it: v where v > 0, else exp v − 1.0. -/
def eluKer (v : EReal) : EReal :=
  Scalar.select (Ideal.cmp .ogt v (Ideal.ofBits .f32 0x00000000#32)) v (Ideal.exp v - Ideal.ofBits .f32 0x3F800000#32)

/-- ELU as jax.nn.elu spells it: v where v > 0, else 1.0 · expm1 of (0.0 where v > 0, else v). -/
def eluRef (v : EReal) : EReal :=
  Scalar.select (Ideal.cmp .ogt v (Ideal.ofBits .f32 0x00000000#32)) v
    (Ideal.ofBits .f32 0x3F800000#32 *
      (Ideal.exp (Scalar.select (Ideal.cmp .ogt v (Ideal.ofBits .f32 0x00000000#32)) (Ideal.ofBits .f32 0x00000000#32) v) - 1))

/-- The two spellings are one function of v. -/
theorem eluRef_eq_eluKer (v : EReal) : eluRef v = eluKer v := by
  unfold eluRef eluKer
  rcases BitVec.eq_zero_or_eq_one (Ideal.cmp .ogt v (Ideal.ofBits .f32 0x00000000#32)) with h | h
  · rw [h]; simp only [select_zero]; rw [one_f32, one_mul]
  · rw [h]; simp only [select_one]

end Cert.GcnAlgebra

end
-- ==== Proof.Arrays.lean ====
/-
  What the kernels' result arrays hold, as functions of whole arrays on the extended reals.

    projArr X W     the matrix product of X [50000,128] with W [128,128]: entry (n, q) is the sum over k of X (n,k) · W (k,q)
    combArr A S b   entry (n, q) is the exponential linear unit of (A (n,q) + S (n,q)) + b (0,q), b one row [1,128]
    headArr X W b   entry (n, q) is the unit of (sum over k of X (n,k) · W (k,q)) + b (0,q)

  Each comes with the remark that lets a block-level value be recognised as an entry of the whole-array function: if the
  indices the block reads are the row, the column, or the index itself of an array index i, the value is the function at i.
-/
import proofs.«147130_j78975858639084_1_alg».proof.KernelIdeal
import proofs.«147130_j78975858639084_1_alg».proof.Proof.EluAlgebra
import Idealize.ShloMosaic.Lib.ValueIdx

noncomputable section

namespace Cert.KernelIdeal.Arrays

open Cert.KernelIdeal Cert.GcnAlgebra Idealize.ShloMosaic Idealize.ShloMosaic.ValueIdx

/-- The matrix product of a [50000,128] array with a [128,128] one, entry by entry. -/
def projArr (X : S50000x128.Idx → EReal) (Wt : S128x128.Idx → EReal) : S50000x128.Idx → EReal :=
  fun i => ∑ k : Fin 128, X (ix2 (n0 := 50000) (i 0) k) * Wt (ix2 (n1 := 128) k (i 1))

/-- The unit of the sum of two [50000,128] arrays and a bias row. -/
def combArr (A S : S50000x128.Idx → EReal) (b : S1x128.Idx → EReal) : S50000x128.Idx → EReal :=
  fun i => eluKer ((A i + S i) + b (ix2 (n1 := 128) (0 : Fin 1) (i 1)))

/-- The unit of a matrix product plus a bias row. -/
def headArr (X : S50000x128.Idx → EReal) (Wt : S128x128.Idx → EReal) (b : S1x128.Idx → EReal) : S50000x128.Idx → EReal :=
  fun i => eluKer ((∑ k : Fin 128, X (ix2 (n0 := 50000) (i 0) k) * Wt (ix2 (n1 := 128) k (i 1))) + b (ix2 (n1 := 128) (0 : Fin 1) (i 1)))

/-- Zero offsets, however spelt. -/
theorem zero2 : (![0, 0] : Fin 2 → Nat) = fun _ => 0 := funext fun a => by fin_cases a <;> rfl

/-- A sum of products of entries read at index families that are row i of X and column i of Wt is the product's entry. -/
theorem sum_rows (X : S50000x128.Idx → EReal) (Wt : S128x128.Idx → EReal) (e0 : Fin 128 → S50000x128.Idx)
    (e1 : Fin 128 → S128x128.Idx) (i : S50000x128.Idx) (h0 : ∀ k, e0 k = ix2 (n0 := 50000) (i 0) k)
    (h1 : ∀ k, e1 k = ix2 (n1 := 128) k (i 1)) : (∑ k : Fin 128, X (e0 k) * Wt (e1 k)) = projArr X Wt i := by
  unfold projArr
  exact Finset.sum_congr rfl fun k _ => by rw [h0 k, h1 k]

/-- The unit of entries read at i, at i, and at the bias row's column of i is the combined array's entry. -/
theorem comb_pt (A S : S50000x128.Idx → EReal) (b : S1x128.Idx → EReal) (i0 i1 i : S50000x128.Idx) (j : S1x128.Idx)
    (h0 : i0 = i) (h1 : i1 = i) (h2 : j = ix2 (n1 := 128) (0 : Fin 1) (i 1)) :
    eluKer ((A i0 + S i1) + b j) = combArr A S b i := by
  subst h0 h1 h2; rfl

/-- The unit of a row-by-column sum plus the bias row's entry is the classifier array's entry. -/
theorem head_pt (X : S50000x128.Idx → EReal) (Wt : S128x128.Idx → EReal) (b : S1x128.Idx → EReal)
    (e0 : Fin 128 → S50000x128.Idx) (e1 : Fin 128 → S128x128.Idx) (i : S50000x128.Idx) (j : S1x128.Idx)
    (h0 : ∀ k, e0 k = ix2 (n0 := 50000) (i 0) k) (h1 : ∀ k, e1 k = ix2 (n1 := 128) k (i 1))
    (h2 : j = ix2 (n1 := 128) (0 : Fin 1) (i 1)) :
    eluKer ((∑ k : Fin 128, X (e0 k) * Wt (e1 k)) + b j) = headArr X Wt b i := by
  subst h2
  unfold headArr
  rw [Finset.sum_congr rfl fun k _ => by rw [h0 k, h1 k]]

end Cert.KernelIdeal.Arrays

end
-- ==== Proof.LibPlainDot.lean ====
/-
  A plain matrix product [M, K] × [K, N] → [M, N] (no batch axis, the left operand's axis 1 contracted with the right
  operand's axis 0), read at an index over the extended reals: the entry (r, q) is the sum over k of lhs (r, k) · rhs (k, q),
  for a kernel's `tpu.matmul` into a zero accumulator and for the host's `dot_general` alike. Stated for any M, K, N and any
  operand formats, over the library's dimension numbers `DotDims.plain`; a printed record with the same fields is that by `rfl`.
-/
import Idealize.ShloMosaic.PureOps.Ideal.Laws
import Idealize.ShloMosaic.Lib.ValueIdx

namespace Idealize.ShloMosaic.LibPlainDot

open Idealize.ShloMosaic.ValueIdx

variable {φ₁ φ₂ : FTy}

/-- The left operand's index at output (r, q) and contraction coordinate k is (r, k). -/
theorem plain_lhsIdx (M K N : Nat) (r : Fin M) (q : Fin N) (k : Fin K) :
    (DotDims.plain M K N).lhsIdx (ix2 r q) ((contrEquiv1 (DotDims.plain M K N) K rfl rfl).symm k) = ix2 r k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 r q) _).trans hk

/-- The right operand's index at output (r, q) and contraction coordinate k is (k, q). -/
theorem plain_rhsIdx (M K N : Nat) (r : Fin M) (q : Fin N) (k : Fin K) :
    (DotDims.plain M K N).rhsIdx (ix2 r q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 r q) _).trans hk
  | ⟨1, _⟩ => rfl

/-- A kernel's matrix product into a zero accumulator, at (r, q): the sum over k of lhs (r, k) · rhs (k, q). -/
theorem matmul_plain_apply (M K N : Nat) (prec : Option ContractPrecision)
    (lhs : FVec Ideal ⟨2, ![M, K]⟩ φ₁) (rhs : FVec Ideal ⟨2, ![K, N]⟩ φ₂) (r : Fin M) (q : Fin N) :
    FloatOps.matmul (DotDims.plain M K N) prec lhs rhs (constant ⟨2, ![M, N]⟩ .f32 0x00000000#32) (ix2 r q)
      = ∑ k : Fin K, lhs (ix2 r k) * rhs (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

/-- The host's `dot_general` of the same dimension numbers, at (r, q): the same sum. -/
theorem dotGeneral_plain_apply (M K N : Nat) (prec : Option ContractPrecision) (sched : HostSchedule)
    (lhs : FVec Ideal ⟨2, ![M, K]⟩ φ₁) (rhs : FVec Ideal ⟨2, ![K, N]⟩ φ₂) (r : Fin M) (q : Fin N) :
    FloatOps.dotGeneral (DotDims.plain M K N) prec sched lhs rhs (ix2 r q)
      = ∑ k : Fin K, lhs (ix2 r k) * rhs (ix2 k q) := by
  rw [Ideal.dotGeneral_apply, ← Equiv.sum_comp (contrEquiv1 (DotDims.plain M K N) K rfl rfl).symm]
  refine Finset.sum_congr rfl fun k _ => ?_
  rw [plain_lhsIdx, plain_rhsIdx]

end Idealize.ShloMosaic.LibPlainDot
-- ==== Proof.Bodies.lean ====
/-
  What each kernel body stores, read at an index of its block, on the extended reals.

  The nine kernels are of three kinds. A projection body stores the product of its row block [5000,128] with the whole
  weight matrix [128,128]: at (r, q) the sum over k of x (r,k) · w (k,q) — the narrowing to bf16 before the product is
  the identity on extended reals, and the accumulator starts at zero. A combine body stores, at (r, q), the exponential
  linear unit of (agg (r,q) + self (r,q)) + b (0,q), the bias being one row broadcast down the block. The classifier body
  stores the unit of (sum over k of x (r,k) · w (k,q)) + b (0,q).
-/
import proofs.«147130_j78975858639084_1_alg».proof.Proof.Gen.KernelIdeal.Skeleton
import proofs.«147130_j78975858639084_1_alg».proof.Proof.LibPlainDot
import proofs.«147130_j78975858639084_1_alg».proof.Proof.EluAlgebra
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Bodies

open Cert.KernelIdeal Cert.KernelIdeal.Gen Cert.GcnAlgebra
open Idealize.ShloMosaic Idealize.ShloMosaic.ValueIdx Idealize.ShloMosaic.LibPlainDot

/-- The printed dimension numbers of the kernels' matrix product are the plain ones. -/
theorem dot_plain : dot_S5000x128_S128x128_S5000x128_1_0_0_1_n_n = DotDims.plain 5000 128 128 := rfl

/-- Kernel 0 (a projection): its payload at (r, q) is the row of x against the column of w. -/
theorem proj0_at (x : Vec Ideal S5000x128 .f32) (w : Vec Ideal S128x128 .f32) (r : Fin 5000) (q : Fin 128) :
    k0_pay1 x w (ix2 r q) = ∑ k : Fin 128, x (ix2 r k) * w (ix2 k q) := by
  unfold k0_pay1
  exact matmul_plain_apply 5000 128 128 none (truncf .bf16 x bitsLt_bf16_f32) (truncf .bf16 w bitsLt_bf16_f32) r q

/-- Kernel 2 (a projection): its payload at (r, q) is the row of x against the column of w. -/
theorem proj2_at (x : Vec Ideal S5000x128 .f32) (w : Vec Ideal S128x128 .f32) (r : Fin 5000) (q : Fin 128) :
    k2_pay1 x w (ix2 r q) = ∑ k : Fin 128, x (ix2 r k) * w (ix2 k q) := by
  unfold k2_pay1
  simp only [shapeCast_self]
  exact matmul_plain_apply 5000 128 128 none (truncf .bf16 x bitsLt_bf16_f32) (truncf .bf16 w bitsLt_bf16_f32) r q

/-- Kernel 4 (a projection): its payload at (r, q) is the row of x against the column of w. -/
theorem proj4_at (x : Vec Ideal S5000x128 .f32) (w : Vec Ideal S128x128 .f32) (r : Fin 5000) (q : Fin 128) :
    k4_pay1 x w (ix2 r q) = ∑ k : Fin 128, x (ix2 r k) * w (ix2 k q) := by
  unfold k4_pay1
  simp only [shapeCast_self]
  exact matmul_plain_apply 5000 128 128 none (truncf .bf16 x bitsLt_bf16_f32) (truncf .bf16 w bitsLt_bf16_f32) r q

/-- Kernel 6 (a projection): its payload at (r, q) is the row of x against the column of w. -/
theorem proj6_at (x : Vec Ideal S5000x128 .f32) (w : Vec Ideal S128x128 .f32) (r : Fin 5000) (q : Fin 128) :
    k6_pay1 x w (ix2 r q) = ∑ k : Fin 128, x (ix2 r k) * w (ix2 k q) := by
  unfold k6_pay1
  simp only [shapeCast_self]
  exact matmul_plain_apply 5000 128 128 none (truncf .bf16 x bitsLt_bf16_f32) (truncf .bf16 w bitsLt_bf16_f32) r q

/-- Kernel 1 (a combine): its payload at (r, q) is the unit of (agg + self) + the bias row's entry q. -/
theorem comb1_at (a s : FVec Ideal S5000x128 .f32) (b : FVec Ideal S1x128 .f32) (r : Fin 5000) (q : Fin 128) :
    k1_pay1 (F := Ideal) a s b (ix2 r q) = eluKer ((a (ix2 r q) + s (ix2 r q)) + b (ix2 (0 : Fin 1) q)) := by
  have hv : (addf (F := Ideal) (addf (F := Ideal) a s) (broadcastTo S5000x128 b broadcasts_S1x128_S5000x128)) (ix2 r q)
      = a (ix2 r q) + s (ix2 r q) + b (ix2 (0 : Fin 1) q) := by
    rw [addf_apply, addf_apply, broadcastTo_1b_ab_apply]
  unfold k1_pay1
  simp only [shapeCast_self]
  show eluKer ((addf (F := Ideal) (addf (F := Ideal) a s) (broadcastTo S5000x128 b broadcasts_S1x128_S5000x128)) (ix2 r q)) = _
  rw [hv]

/-- Kernel 3 (a combine): its payload at (r, q) is the unit of (agg + self) + the bias row's entry q. -/
theorem comb3_at (a s : FVec Ideal S5000x128 .f32) (b : FVec Ideal S1x128 .f32) (r : Fin 5000) (q : Fin 128) :
    k3_pay1 (F := Ideal) a s b (ix2 r q) = eluKer ((a (ix2 r q) + s (ix2 r q)) + b (ix2 (0 : Fin 1) q)) := by
  have hv : (addf (F := Ideal) (addf (F := Ideal) a s) (broadcastTo S5000x128 b broadcasts_S1x128_S5000x128)) (ix2 r q)
      = a (ix2 r q) + s (ix2 r q) + b (ix2 (0 : Fin 1) q) := by
    rw [addf_apply, addf_apply, broadcastTo_1b_ab_apply]
  unfold k3_pay1
  simp only [shapeCast_self]
  show eluKer ((addf (F := Ideal) (addf (F := Ideal) a s) (broadcastTo S5000x128 b broadcasts_S1x128_S5000x128)) (ix2 r q)) = _
  rw [hv]

/-- Kernel 5 (a combine): its payload at (r, q) is the unit of (agg + self) + the bias row's entry q. -/
theorem comb5_at (a s : FVec Ideal S5000x128 .f32) (b : FVec Ideal S1x128 .f32) (r : Fin 5000) (q : Fin 128) :
    k5_pay1 (F := Ideal) a s b (ix2 r q) = eluKer ((a (ix2 r q) + s (ix2 r q)) + b (ix2 (0 : Fin 1) q)) := by
  have hv : (addf (F := Ideal) (addf (F := Ideal) a s) (broadcastTo S5000x128 b broadcasts_S1x128_S5000x128)) (ix2 r q)
      = a (ix2 r q) + s (ix2 r q) + b (ix2 (0 : Fin 1) q) := by
    rw [addf_apply, addf_apply, broadcastTo_1b_ab_apply]
  unfold k5_pay1
  simp only [shapeCast_self]
  show eluKer ((addf (F := Ideal) (addf (F := Ideal) a s) (broadcastTo S5000x128 b broadcasts_S1x128_S5000x128)) (ix2 r q)) = _
  rw [hv]

/-- Kernel 7 (a combine): its payload at (r, q) is the unit of (agg + self) + the bias row's entry q. -/
theorem comb7_at (a s : FVec Ideal S5000x128 .f32) (b : FVec Ideal S1x128 .f32) (r : Fin 5000) (q : Fin 128) :
    k7_pay1 (F := Ideal) a s b (ix2 r q) = eluKer ((a (ix2 r q) + s (ix2 r q)) + b (ix2 (0 : Fin 1) q)) := by
  have hv : (addf (F := Ideal) (addf (F := Ideal) a s) (broadcastTo S5000x128 b broadcasts_S1x128_S5000x128)) (ix2 r q)
      = a (ix2 r q) + s (ix2 r q) + b (ix2 (0 : Fin 1) q) := by
    rw [addf_apply, addf_apply, broadcastTo_1b_ab_apply]
  unfold k7_pay1
  simp only [shapeCast_self]
  show eluKer ((addf (F := Ideal) (addf (F := Ideal) a s) (broadcastTo S5000x128 b broadcasts_S1x128_S5000x128)) (ix2 r q)) = _
  rw [hv]

/-- Kernel 8 (the classifier): its payload at (r, q) is the unit of the row of x against the column of w, plus the bias
    row's entry q. -/
theorem head8_at (x : FVec Ideal S5000x128 .f32) (w : FVec Ideal S128x128 .f32) (b : FVec Ideal S1x128 .f32) (r : Fin 5000) (q : Fin 128) :
    k8_pay1 (F := Ideal) x w b (ix2 r q) = eluKer ((∑ k : Fin 128, x (ix2 r k) * w (ix2 k q)) + b (ix2 (0 : Fin 1) q)) := by
  have hm := matmul_plain_apply 5000 128 128 none (truncf .bf16 x bitsLt_bf16_f32) (truncf .bf16 w bitsLt_bf16_f32) r q
  have hv : (addf (F := Ideal) (matmul (F := Ideal) dot_S5000x128_S128x128_S5000x128_1_0_0_1_n_n none (truncf (F := Ideal) .bf16 x bitsLt_bf16_f32)
        (truncf (F := Ideal) .bf16 w bitsLt_bf16_f32) (constant (F := Ideal) S5000x128 .f32 0x00000000#32))
        (broadcastTo S5000x128 b broadcasts_S1x128_S5000x128)) (ix2 r q)
      = (∑ k : Fin 128, x (ix2 r k) * w (ix2 k q)) + b (ix2 (0 : Fin 1) q) := by
    rw [addf_apply, broadcastTo_1b_ab_apply]
    exact congrArg (· + b (ix2 (0 : Fin 1) q)) hm
  unfold k8_pay1
  simp only [shapeCast_self]
  show eluKer ((addf (F := Ideal) (matmul (F := Ideal) dot_S5000x128_S128x128_S5000x128_1_0_0_1_n_n none (truncf (F := Ideal) .bf16 x bitsLt_bf16_f32)
        (truncf (F := Ideal) .bf16 w bitsLt_bf16_f32) (constant (F := Ideal) S5000x128 .f32 0x00000000#32))
        (broadcastTo S5000x128 b broadcasts_S1x128_S5000x128)) (ix2 r q)) = _
  rw [hv]

end Cert.KernelIdeal.Bodies

end
-- ==== Proof.Region0.lean ====
/-
  Region 0, from blocks to the whole array.

  The grid has ten points. This region is a projection: point t stages rows 5000·t … 5000·t + 4999 of its input and the whole weight matrix, and writes back the same
  rows of the result. What it writes at row r of its block and column q is the sum over k of x (5000·t + r, k) · w (k, q): block t
  of ONE function of the two arrays, their matrix product.
  Every row of the array lies in the block of the point row / 5000, so the ten blocks cover it and it ends holding that function.
-/
import proofs.«147130_j78975858639084_1_alg».proof.Proof.Gen.KernelIdeal.Frame
import proofs.«147130_j78975858639084_1_alg».proof.Proof.Bodies
import proofs.«147130_j78975858639084_1_alg».proof.Proof.Arrays

set_option maxRecDepth 16384

noncomputable section

namespace Cert.KernelIdeal.Regions

open Cert.KernelIdeal Cert.KernelIdeal.Gen Cert.KernelIdeal.Bodies Cert.KernelIdeal.Arrays
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The region's index maps over the grid: the row blocks move with the point, the whole-array windows stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the function of the arrays as the region finds them. -/
theorem flushed0_eq (c : Dev nD) (t : Fin cfg0.N) :
    (dat0 V c).flushed 2 t = ((cfg0.win 2).blk t).view.read (Elt Ideal) (projArr (V c main_arg0) (V c main_arg2)) := by
  show (cfg0.win 2).cut (grid0.coords t) ((dat0 V c).after 2 t) = _
  rw [after0_2]
  unfold out0_2
  rw [View.canon_unit_zero zero2]
  simp only [View.ld_unit_zero (S := S5000x128) zero2, View.ld_unit_zero (S := S128x128) zero2]
  obtain ⟨e00, e01, e10, e11, e20, e21⟩ := idx0 t
  funext j
  obtain ⟨r, q, rfl⟩ : ∃ (r : Fin 5000) (q : Fin 128), j = ix2 r q := ⟨j 0, j 1, eq_ix2 j⟩
  have h0 : ∀ k : Fin 128, ((cfg0.win 0).blk t).view.emb (ix2 r k) = ix2 (n0 := 50000) ((((cfg0.win 2).blk t).view.emb (ix2 r q)) 0) k := by
    intro k; funext a; apply Fin.ext
    match a with
    | ⟨0, _⟩ => show win0_0.index t (0 : Fin 2) * 5000 + 1 * r.val = win0_2.index t (0 : Fin 2) * 5000 + 1 * r.val; omega
    | ⟨1, _⟩ => show win0_0.index t (1 : Fin 2) * 128 + 1 * k.val = k.val; omega
  have h1 : ∀ k : Fin 128, ((cfg0.win 1).blk t).view.emb (ix2 k q) = ix2 (n1 := 128) k ((((cfg0.win 2).blk t).view.emb (ix2 r q)) 1) := by
    intro k; funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  refine (proj0_at (iblk0 V c 0 t) (iblk0 V c 1 t) r q).trans ?_
  exact sum_rows (V c main_arg0) (V c main_arg2) (fun k => ((cfg0.win 0).blk t).view.emb (ix2 r k))
    (fun k => ((cfg0.win 1).blk t).view.emb (ix2 k q)) (((cfg0.win 2).blk t).view.emb (ix2 r q)) h0 h1

/-- An index is in point t's block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v27).slice (win0_2.rect t)).set ↔ _
  rw [View.set_slice_whole, Rect.mem_set_unit]
  exact Iff.rfl

/-- Every index of the array is in the block of the point its row falls in. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨e00, e01, e10, e11, e20, e21⟩ := idx0 ⟨(i 0).val / 5000, ht⟩
  refine ⟨⟨(i 0).val / 5000, ht⟩, flush0_2 _, ?_⟩
  rw [mem_blk0]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e20]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    rw [e21]; omega

/-- The array the region writes ends holding the function of the arrays it reads. -/
theorem final0 (c : Dev nD) : (dat0 V c).arrAt 2 cfg0.N = projArr (V c main_arg0) (V c main_arg2) :=
  (dat0 V c).arrAt_eq_of_cover 2 _ (fun t _ => flushed0_eq V c t) cover0

end Cert.KernelIdeal.Regions

end
-- ==== Proof.Region1.lean ====
/-
  Region 1, from blocks to the whole array.

  The grid has ten points. This region is a combine: point t stages rows 5000·t … 5000·t + 4999 of the aggregated messages and of the self-loop messages, and the
  one bias row, and writes back the same rows of the result. What it writes at row r of its block and column q is the exponential
  linear unit of (agg + self) at that array entry plus the bias row's entry q: block t of ONE function of the three arrays.
  Every row of the array lies in the block of the point row / 5000, so the ten blocks cover it and it ends holding that function.
-/
import proofs.«147130_j78975858639084_1_alg».proof.Proof.Gen.KernelIdeal.Frame
import proofs.«147130_j78975858639084_1_alg».proof.Proof.Bodies
import proofs.«147130_j78975858639084_1_alg».proof.Proof.Arrays

set_option maxRecDepth 16384

noncomputable section

namespace Cert.KernelIdeal.Regions

open Cert.KernelIdeal Cert.KernelIdeal.Gen Cert.KernelIdeal.Bodies Cert.KernelIdeal.Arrays
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The region's index maps over the grid: the row blocks move with the point, the whole-array windows stay. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the function of the arrays as the region finds them. -/
theorem flushed1_eq (c : Dev nD) (t : Fin cfg1.N) :
    (dat1 V c).flushed 3 t = ((cfg1.win 3).blk t).view.read (Elt Ideal) (combArr (V c main_v40) (V c main_v43) (V c main_v44)) := by
  show (cfg1.win 3).cut (grid1.coords t) ((dat1 V c).after 3 t) = _
  rw [after1_3]
  unfold out1_3
  rw [View.canon_unit_zero zero2]
  simp only [View.ld_unit_zero (S := S5000x128) zero2, View.ld_unit_zero (S := S1x128) zero2]
  obtain ⟨e00, e01, e10, e11, e20, e21, e30, e31⟩ := idx1 t
  funext j
  obtain ⟨r, q, rfl⟩ : ∃ (r : Fin 5000) (q : Fin 128), j = ix2 r q := ⟨j 0, j 1, eq_ix2 j⟩
  have h0 : ((cfg1.win 0).blk t).view.emb (ix2 r q) = ((cfg1.win 3).blk t).view.emb (ix2 r q) := by
    funext a; apply Fin.ext
    match a with
    | ⟨0, _⟩ => show win1_0.index t (0 : Fin 2) * 5000 + 1 * r.val = win1_3.index t (0 : Fin 2) * 5000 + 1 * r.val; omega
    | ⟨1, _⟩ => show win1_0.index t (1 : Fin 2) * 128 + 1 * q.val = win1_3.index t (1 : Fin 2) * 128 + 1 * q.val; omega
  have h1 : ((cfg1.win 1).blk t).view.emb (ix2 r q) = ((cfg1.win 3).blk t).view.emb (ix2 r q) := by
    funext a; apply Fin.ext
    match a with
    | ⟨0, _⟩ => show win1_1.index t (0 : Fin 2) * 5000 + 1 * r.val = win1_3.index t (0 : Fin 2) * 5000 + 1 * r.val; omega
    | ⟨1, _⟩ => show win1_1.index t (1 : Fin 2) * 128 + 1 * q.val = win1_3.index t (1 : Fin 2) * 128 + 1 * q.val; omega
  have h2 : ((cfg1.win 2).blk t).view.emb (ix2 (0 : Fin 1) q) = ix2 (n1 := 128) (0 : Fin 1) ((((cfg1.win 3).blk t).view.emb (ix2 r q)) 1) := by
    funext a; apply Fin.ext
    match a with
    | ⟨0, _⟩ => show win1_2.index t (0 : Fin 2) * 1 + 1 * 0 = 0; omega
    | ⟨1, _⟩ => show win1_2.index t (1 : Fin 2) * 128 + 1 * q.val = win1_3.index t (1 : Fin 2) * 128 + 1 * q.val; omega
  refine (comb1_at (iblk1 V c 0 t) (iblk1 V c 1 t) (iblk1 V c 2 t) r q).trans ?_
  exact comb_pt (V c main_v40) (V c main_v43) (V c main_v44) (((cfg1.win 0).blk t).view.emb (ix2 r q)) (((cfg1.win 1).blk t).view.emb (ix2 r q))
    (((cfg1.win 3).blk t).view.emb (ix2 r q)) (((cfg1.win 2).blk t).view.emb (ix2 (0 : Fin 1) q)) h0 h1 h2

/-- An index is in point t's block iff each coordinate is in the block's range on its axis. -/
theorem mem_blk1 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v45).slice (win1_3.rect t)).set ↔ _
  rw [View.set_slice_whole, Rect.mem_set_unit]
  exact Iff.rfl

/-- Every index of the array is in the block of the point its row falls in. -/
theorem cover1 (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  have ht : (i 0).val / 5000 < cfg1.N := by rw [hN]; omega
  obtain ⟨e00, e01, e10, e11, e20, e21, e30, e31⟩ := idx1 ⟨(i 0).val / 5000, ht⟩
  refine ⟨⟨(i 0).val / 5000, ht⟩, flush1_3 _, ?_⟩
  rw [mem_blk1]
  intro a
  match a with
  | ⟨0, _⟩ =>
    show win1_3.index ⟨(i 0).val / 5000, ht⟩ (0 : Fin 2) * 5000 ≤ (i 0).val ∧ (i 0).val < win1_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win1_3.index ⟨(i 0).val / 5000, ht⟩ (1 : Fin 2) * 128 ≤ (i 1).val ∧ (i 1).val < win1_3.index ⟨(i 0).val / 5000, ht⟩ (1 : Fin 2) * 128 + 128
    rw [e31]; omega

/-- The array the region writes ends holding the function of the arrays it reads. -/
theorem final1 (c : Dev nD) : (dat1 V c).arrAt 3 cfg1.N = combArr (V c main_v40) (V c main_v43) (V c main_v44) :=
  (dat1 V c).arrAt_eq_of_cover 3 _ (fun t _ => flushed1_eq V c t) cover1

end Cert.KernelIdeal.Regions

end
-- ==== Proof.Region2.lean ====
/-
  Region 2, from blocks to the whole array.

  The grid has ten points. This region is a projection: point t stages rows 5000·t … 5000·t + 4999 of its input and the whole weight matrix, and writes back the same
  rows of the result. What it writes at row r of its block and column q is the sum over k of x (5000·t + r, k) · w (k, q): block t
  of ONE function of the two arrays, their matrix product.
  Every row of the array lies in the block of the point row / 5000, so the ten blocks cover it and it ends holding that function.
-/
import proofs.«147130_j78975858639084_1_alg».proof.Proof.Gen.KernelIdeal.Frame
import proofs.«147130_j78975858639084_1_alg».proof.Proof.Bodies
import proofs.«147130_j78975858639084_1_alg».proof.Proof.Arrays

set_option maxRecDepth 16384

noncomputable section

namespace Cert.KernelIdeal.Regions

open Cert.KernelIdeal Cert.KernelIdeal.Gen Cert.KernelIdeal.Bodies Cert.KernelIdeal.Arrays
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The region's index maps over the grid: the row blocks move with the point, the whole-array windows stay. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the function of the arrays as the region finds them. -/
theorem flushed2_eq (c : Dev nD) (t : Fin cfg2.N) :
    (dat2 V c).flushed 2 t = ((cfg2.win 2).blk t).view.read (Elt Ideal) (projArr (V c main_v45) (V c main_arg4)) := by
  show (cfg2.win 2).cut (grid2.coords t) ((dat2 V c).after 2 t) = _
  rw [after2_2]
  unfold out2_2
  rw [View.canon_unit_zero zero2]
  simp only [View.ld_unit_zero (S := S5000x128) zero2, View.ld_unit_zero (S := S128x128) zero2]
  obtain ⟨e00, e01, e10, e11, e20, e21⟩ := idx2 t
  funext j
  obtain ⟨r, q, rfl⟩ : ∃ (r : Fin 5000) (q : Fin 128), j = ix2 r q := ⟨j 0, j 1, eq_ix2 j⟩
  have h0 : ∀ k : Fin 128, ((cfg2.win 0).blk t).view.emb (ix2 r k) = ix2 (n0 := 50000) ((((cfg2.win 2).blk t).view.emb (ix2 r q)) 0) k := by
    intro k; funext a; apply Fin.ext
    match a with
    | ⟨0, _⟩ => show win2_0.index t (0 : Fin 2) * 5000 + 1 * r.val = win2_2.index t (0 : Fin 2) * 5000 + 1 * r.val; omega
    | ⟨1, _⟩ => show win2_0.index t (1 : Fin 2) * 128 + 1 * k.val = k.val; omega
  have h1 : ∀ k : Fin 128, ((cfg2.win 1).blk t).view.emb (ix2 k q) = ix2 (n1 := 128) k ((((cfg2.win 2).blk t).view.emb (ix2 r q)) 1) := by
    intro k; funext a; apply Fin.ext
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega
  refine (proj2_at (iblk2 V c 0 t) (iblk2 V c 1 t) r q).trans ?_
  exact sum_rows (V c main_v45) (V c main_arg4) (fun k => ((cfg2.win 0).blk t).view.emb (ix2 r k))
    (fun k => ((cfg2.win 1).blk t).view.emb (ix2 k q)) (((cfg2.win 2).blk t).view.emb (ix2 r q)) h0 h1

/-- An index is in point t's block iff each coordinate is in the block's range on its axis. -/
theorem mem_blk2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v46).slice (win2_2.rect t)).set ↔ _
  rw [View.set_slice_whole, Rect.mem_set_unit]
  exact Iff.rfl

/-- Every index of the array is in the block of the point its row falls in. -/
theorem cover2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  have ht : (i 0).val / 5000 < cfg2.N := by rw [hN]; omega
  obtain ⟨e00, e01, e10, e11, e20, e21⟩ := idx2 ⟨(i 0).val / 5000, ht⟩
  refine ⟨⟨(i 0).val / 5000, ht⟩, flush2_2 _, ?_⟩
  rw [mem_blk2]
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    rw [e20]; show (i 0).val / 5000 * 5000 ≤ (i 0).val ∧ (i 0).val < (i 0).val / 5000 * 5000 + 5000; omega
  | ⟨1, _⟩ =>
    show win2_2.index ⟨(i 0).val / 5000, ht⟩ (1 : Fin 2) * 128 ≤ (i 1).val ∧ (i 1).val < win2_2.index ⟨(i 0).val / 5000, ht⟩ (1 : Fin 2) * 128 + 128
    rw [e21]; omega

/-- The array the region writes ends holding the function of the arrays it reads. -/
theorem final2 (c : Dev nD) : (dat2 V c).arrAt 2 cfg2.N = projArr (V c main_v45) (V c main_arg4) :=
  (dat2 V c).arrAt_eq_of_cover 2 _ (fun t _ => flushed2_eq V c t) cover2

end Cert.KernelIdeal.Regions

end
-- ==== Proof.Region3.lean ====
/-
  Region 3, from blocks to the whole array.

  The grid has ten points. This region is a combine: point t stages rows 5000·t … 5000·t + 4999 of the aggregated messages and of the self-loop messages, and the
  one bias row, and writes back the same rows of the result. What it writes at row r of its block and column q is the exponential
  linear unit of (agg + self) at that array entry plus the bias row's entry q: block t of ONE function of the three arrays.
  Every row of the array lies in the block of the point row / 5000, so the ten blocks cover it and it ends holding that function.
-/
import proofs.«147130_j78975858639084_1_alg».proof.Proof.Gen.KernelIdeal.Frame
import proofs.«147130_j78975858639084_1_alg».proof.Proof.Bodies
import proofs.«147130_j78975858639084_1_alg».proof.Proof.Arrays

set_option maxRecDepth 16384

noncomputable section

namespace Cert.KernelIdeal.Regions

open Cert.KernelIdeal Cert.KernelIdeal.Gen Cert.KernelIdeal.Bodies Cert.KernelIdeal.Arrays
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The region's index maps over the grid: the row blocks move with the point, the whole-array windows stay. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point t writes back is block t of the function of the arrays as the region finds them. -/
theorem flushed3_eq (c : Dev nD) (t : Fin cfg3.N) :
    (dat3 V c).flushed 3 t = ((cfg3.win 3).blk t).view.read (Elt Ideal) (combArr (V c main_v59) (V c main_v62) (V c main_v63)) := by
  show (cfg3.win 3).cut (grid3.coords t) ((dat3 V c).after 3 t) = _
  rw [after3_3]
  unfold out3_3
  rw [View.canon_unit_zero zero2]
  simp only [View.ld_unit_zero (S := S5000x128) zero2, View.ld_unit_zero (S := S1x128) zero2]
  obtain ⟨e00, e01, e10, e11, e20, e21, e30, e31⟩ := idx3 t
  funext j
  obtain ⟨r, q, rfl⟩ : ∃ (r : Fin 5000) (q : Fin 128), j = ix2 r q := ⟨j 0, j 1, eq_ix2 j⟩
  have h0 : ((cfg3.win 0).blk t).view.emb (ix2 r q) = ((cfg3.win 3).blk t).view.emb (ix2 r q) := by
    funext a; apply Fin.ext
    match a with
    | ⟨0, _⟩ => show win3_0.index t (0 : Fin 2) * 5000 + 1 * r.val = win3_3.index t (0 : Fin 2) * 5000 + 1 * r.val; omega
    | ⟨1, _⟩ => show win3_0.index t (1 : Fin 2) * 128 + 1 * q.val = win3_3.index t (1 : Fin 2) * 128 + 1 * q.val; omega
  have h1 : ((cfg3.win 1).blk t).view.emb (ix2 r q) = ((cfg3.win 3).blk t).view.emb (ix2 r q) := by
    funext a; apply Fin.ext
    match a with
    | ⟨0, _⟩ => show win3_1.index t (0 : Fin 2) * 5000 + 1 * r.val = win3_3.index t (0 : Fin 2) * 5000 + 1 * r.val; omega
    | ⟨1, _⟩ => show win3_1.index t (1 : Fin 2) * 128 + 1 * q.val = win3_3.index t (1 : Fin 2) * 128 + 1 * q.val; omega
  have h2 : ((cfg3.win 2).blk t).view.emb (ix2 (0 : Fin 1) q) = ix2 (n1 := 128) (0 : Fin 1) ((((cfg3.win 3).blk t).view.emb (ix2 r q)) 1) := by
    funext a; apply Fin.ext
    match a with
    | ⟨0, _⟩ => show win3_2.index t (0 : Fin 2) * 1 + 1 * 0 = 0; omega
    | ⟨1, _⟩ => show win3_2.index t (1 : Fin 2) * 128 + 1 * q.val = win3_3.index t (1 : Fin 2) * 128 + 1 * q.val; omega
  refine (comb3_at (iblk3 V c 0 t) (iblk3 V c 1 t) (iblk3 V c 2 t) r q).trans ?_
  exact comb_pt (V c main_v59) (V c main_v62) (V c main_v63) (((cfg3.win 0).blk t).view.emb (ix2 r q)) (((cfg3.win 1).blk t).view.emb (ix2 r q))
    (((cfg3.win 3).blk t).view.emb (ix2 r q)) (((cfg3.win 2).blk t).view.emb (ix2 (0 : Fin 1) q)) h0 h1 h2

/-- An index is in point t's block iff each coordinate is in the block's range on its axis. -/
theorem mem_blk3 (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v64).slice (win3_3.rect t)).set ↔ _
  rw [View.set_slice_whole, Rect.mem_set_unit]
  exact Iff.rfl

/-- Every index of the array is in the block of the point its row falls in. -/
theorem cover3 (i : S50000x128.Idx) : ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 10 := N_3
  have ht : (i 0).val / 5000 < cfg3.N := by rw [hN]; omega
  obtain ⟨e00, e01, e10, e11, e20, e21, e30, e31⟩ := idx3 ⟨(i 0).val / 5000, ht⟩
  refine ⟨⟨(i 0).val / 5000, ht⟩, flush3_3 _, ?_⟩
  rw [mem_blk3]
  intro a
  match a with
  | ⟨0, _⟩ =>
    show win3_3.index ⟨(i 0).val / 5000, ht⟩ (0 : Fin 2) * 5000 ≤ (i 0).val ∧ (i 0).val < win3_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win3_3.index ⟨(i 0).val / 5000, ht⟩ (1 : Fin 2) * 128 ≤ (i 1).val ∧ (i 1).val < win3_3.index ⟨(i 0).val / 5000, ht⟩ (1 : Fin 2) * 128 + 128
    rw [e31]; omega

/-- The array the region writes ends holding the function of the arrays it reads. -/
theorem final3 (c : Dev nD) : (dat3 V c).arrAt 3 cfg3.N = combArr (V c main_v59) (V c main_v62) (V c main_v63) :=
  (dat3 V c).arrAt_eq_of_cover 3 _ (fun t _ => flushed3_eq V c t) cover3

end Cert.KernelIdeal.Regions

end
-- ==== Proof.Region4.lean ====
/-
  Region 4, from blocks to the whole array.

  The grid has ten points. This region is a projection: point t stages rows 5000·t … 5000·t + 4999 of its input and the whole weight matrix, and writes back the same
  rows of the result. What it writes at row r of its block and column q is the sum over k of x (5000·t + r, k) · w (k, q): block t
  of ONE function of the two arrays, their matrix product.
  Every row of the array lies in the block of the point row / 5000, so the ten blocks cover it and it ends holding that function.
-/
import proofs.«147130_j78975858639084_1_alg».proof.Proof.Gen.KernelIdeal.Frame
import proofs.«147130_j78975858639084_1_alg».proof.Proof.Bodies
import proofs.«147130_j78975858639084_1_alg».proof.Proof.Arrays

set_option maxRecDepth 16384

noncomputable section

namespace Cert.KernelIdeal.Regions

open Cert.KernelIdeal Cert.KernelIdeal.Gen Cert.KernelIdeal.Bodies Cert.KernelIdeal.Arrays
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The region's index maps over the grid: the row blocks move with the point, the whole-array windows stay. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the function of the arrays as the region finds them. -/
theorem flushed4_eq (c : Dev nD) (t : Fin cfg4.N) :
    (dat4 V c).flushed 2 t = ((cfg4.win 2).blk t).view.read (Elt Ideal) (projArr (V c main_v64) (V c main_arg6)) := by
  show (cfg4.win 2).cut (grid4.coords t) ((dat4 V c).after 2 t) = _
  rw [after4_2]
  unfold out4_2
  rw [View.canon_unit_zero zero2]
  simp only [View.ld_unit_zero (S := S5000x128) zero2, View.ld_unit_zero (S := S128x128) zero2]
  obtain ⟨e00, e01, e10, e11, e20, e21⟩ := idx4 t
  funext j
  obtain ⟨r, q, rfl⟩ : ∃ (r : Fin 5000) (q : Fin 128), j = ix2 r q := ⟨j 0, j 1, eq_ix2 j⟩
  have h0 : ∀ k : Fin 128, ((cfg4.win 0).blk t).view.emb (ix2 r k) = ix2 (n0 := 50000) ((((cfg4.win 2).blk t).view.emb (ix2 r q)) 0) k := by
    intro k; funext a; apply Fin.ext
    match a with
    | ⟨0, _⟩ => show win4_0.index t (0 : Fin 2) * 5000 + 1 * r.val = win4_2.index t (0 : Fin 2) * 5000 + 1 * r.val; omega
    | ⟨1, _⟩ => show win4_0.index t (1 : Fin 2) * 128 + 1 * k.val = k.val; omega
  have h1 : ∀ k : Fin 128, ((cfg4.win 1).blk t).view.emb (ix2 k q) = ix2 (n1 := 128) k ((((cfg4.win 2).blk t).view.emb (ix2 r q)) 1) := by
    intro k; funext a; apply Fin.ext
    match a with
    | ⟨0, _⟩ => show win4_1.index t (0 : Fin 2) * 128 + 1 * k.val = k.val; omega
    | ⟨1, _⟩ => show win4_1.index t (1 : Fin 2) * 128 + 1 * q.val = win4_2.index t (1 : Fin 2) * 128 + 1 * q.val; omega
  refine (proj4_at (iblk4 V c 0 t) (iblk4 V c 1 t) r q).trans ?_
  exact sum_rows (V c main_v64) (V c main_arg6) (fun k => ((cfg4.win 0).blk t).view.emb (ix2 r k))
    (fun k => ((cfg4.win 1).blk t).view.emb (ix2 k q)) (((cfg4.win 2).blk t).view.emb (ix2 r q)) h0 h1

/-- An index is in point t's block iff each coordinate is in the block's range on its axis. -/
theorem mem_blk4 (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v65).slice (win4_2.rect t)).set ↔ _
  rw [View.set_slice_whole, Rect.mem_set_unit]
  exact Iff.rfl

/-- Every index of the array is in the block of the point its row falls in. -/
theorem cover4 (i : S50000x128.Idx) : ∃ t : Fin cfg4.N, (cfg4.win 2).flush t = true ∧ i ∈ ((cfg4.win 2).blk t).view.set := by
  have hi0 : (i 0).val < 50000 := (i 0).isLt
  have hi1 : (i 1).val < 128 := (i 1).isLt
  have hN : cfg4.N = 10 := N_4
  have ht : (i 0).val / 5000 < cfg4.N := by rw [hN]; omega
  obtain ⟨e00, e01, e10, e11, e20, e21⟩ := idx4 ⟨(i 0).val / 5000, ht⟩
  refine ⟨⟨(i 0).val / 5000, ht⟩, flush4_2 _, ?_⟩
  rw [mem_blk4]
  intro a
  match a with
  | ⟨0, _⟩ =>
    show win4_2.index ⟨(i 0).val / 5000, ht⟩ (0 : Fin 2) * 5000 ≤ (i 0).val ∧ (i 0).val < win4_2.index ⟨(i 0).val / 5000, ht⟩ (0 : Fin 2) * 5000 + 5000
    rw [e20]; show (i 0).val / 5000 * 5000 ≤ (i 0).val ∧ (i 0).val < (i 0).val / 5000 * 5000 + 5000; omega
  | ⟨1, _⟩ =>
    show win4_2.index ⟨(i 0).val / 5000, ht⟩ (1 : Fin 2) * 128 ≤ (i 1).val ∧ (i 1).val < win4_2.index ⟨(i 0).val / 5000, ht⟩ (1 : Fin 2) * 128 + 128
    rw [e21]; omega

/-- The array the region writes ends holding the function of the arrays it reads. -/
theorem final4 (c : Dev nD) : (dat4 V c).arrAt 2 cfg4.N = projArr (V c main_v64) (V c main_arg6) :=
  (dat4 V c).arrAt_eq_of_cover 2 _ (fun t _ => flushed4_eq V c t) cover4

end Cert.KernelIdeal.Regions

end
-- ==== Proof.Region5.lean ====
/-
  Region 5, from blocks to the whole array.

  The grid has ten points. This region is a combine: point t stages rows 5000·t … 5000·t + 4999 of the aggregated messages and of the self-loop messages, and the
  one bias row, and writes back the same rows of the result. What it writes at row r of its block and column q is the exponential
  linear unit of (agg + self) at that array entry plus the bias row's entry q: block t of ONE function of the three arrays.
  Every row of the array lies in the block of the point row / 5000, so the ten blocks cover it and it ends holding that function.
-/
import proofs.«147130_j78975858639084_1_alg».proof.Proof.Gen.KernelIdeal.Frame
import proofs.«147130_j78975858639084_1_alg».proof.Proof.Bodies
import proofs.«147130_j78975858639084_1_alg».proof.Proof.Arrays

set_option maxRecDepth 16384

noncomputable section

namespace Cert.KernelIdeal.Regions

open Cert.KernelIdeal Cert.KernelIdeal.Gen Cert.KernelIdeal.Bodies Cert.KernelIdeal.Arrays
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The region's index maps over the grid: the row blocks move with the point, the whole-array windows stay. -/
theorem idx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- What point t writes back is block t of the function of the arrays as the region finds them. -/
theorem flushed5_eq (c : Dev nD) (t : Fin cfg5.N) :
    (dat5 V c).flushed 3 t = ((cfg5.win 3).blk t).view.read (Elt Ideal) (combArr (V c main_v78) (V c main_v81) (V c main_v82)) := by
  show (cfg5.win 3).cut (grid5.coords t) ((dat5 V c).after 3 t) = _
  rw [after5_3]
  unfold out5_3
  rw [View.canon_unit_zero zero2]
  simp only [View.ld_unit_zero (S := S5000x128) zero2, View.ld_unit_zero (S := S1x128) zero2]
  obtain ⟨e00, e01, e10, e11, e20, e21, e30, e31⟩ := idx5 t
  funext j
  obtain ⟨r, q, rfl⟩ : ∃ (r : Fin 5000) (q : Fin 128), j = ix2 r q := ⟨j 0, j 1, eq_ix2 j⟩
  have h0 : ((cfg5.win 0).blk t).view.emb (ix2 r q) = ((cfg5.win 3).blk t).view.emb (ix2 r q) := by
    funext a; apply Fin.ext
    match a with
    | ⟨0, _⟩ => show win5_0.index t (0 : Fin 2) * 5000 + 1 * r.val = win5_3.index t (0 : Fin 2) * 5000 + 1 * r.val; omega
    | ⟨1, _⟩ => show win5_0.index t (1 : Fin 2) * 128 + 1 * q.val = win5_3.index t (1 : Fin 2) * 128 + 1 * q.val; omega
  have h1 : ((cfg5.win 1).blk t).view.emb (ix2 r q) = ((cfg5.win 3).blk t).view.emb (ix2 r q) := by
    funext a; apply Fin.ext
    match a with
    | ⟨0, _⟩ => show win5_1.index t (0 : Fin 2) * 5000 + 1 * r.val = win5_3.index t (0 : Fin 2) * 5000 + 1 * r.val; omega
    | ⟨1, _⟩ => show win5_1.index t (1 : Fin 2) * 128 + 1 * q.val = win5_3.index t (1 : Fin 2) * 128 + 1 * q.val; omega
  have h2 : ((cfg5.win 2).blk t).view.emb (ix2 (0 : Fin 1) q) = ix2 (n1 := 128) (0 : Fin 1) ((((cfg5.win 3).blk t).view.emb (ix2 r q)) 1) := by
    funext a; apply Fin.ext
    match a with
    | ⟨0, _⟩ => show win5_2.index t (0 : Fin 2) * 1 + 1 * 0 = 0; omega
    | ⟨1, _⟩ => show win5_2.index t (1 : Fin 2) * 128 + 1 * q.val = win5_3.index t (1 : Fin 2) * 128 + 1 * q.val; omega
  refine (comb5_at (iblk5 V c 0 t) (iblk5 V c 1 t) (iblk5 V c 2 t) r q).trans ?_
  exact comb_pt (V c main_v78) (V c main_v81) (V c main_v82) (((cfg5.win 0).blk t).view.emb (ix2 r q)) (((cfg5.win 1).blk t).view.emb (ix2 r q))
    (((cfg5.win 3).blk t).view.emb (ix2 r q)) (((cfg5.win 2).blk t).view.emb (ix2 (0 : Fin 1) q)) h0 h1 h2

/-- An index is in point t's block iff each coordinate is in the block's range on its axis. -/
theorem mem_blk5 (t : Fin cfg5.N) (i : S50000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole main_v83).slice (win5_3.rect t)).set ↔ _
  rw [View.set_slice_whole, Rect.mem_set_unit]
  exact Iff.rfl

/-- Every index of the array is in the block of the point its row falls in. -/
theorem cover5 (i : S50000x128.Idx) : ∃ t : Fin cfg5.N, (cfg5.win 3).flush t = true ∧ i ∈ ((cfg5.win 3).blk t).view.set := by
  have hi0 : (i 0).val < 50000 := (i 0).isLt
  have hi1 : (i 1).val < 128 := (i 1).isLt
  have hN : cfg5.N = 10 := N_5
  have ht : (i 0).val / 5000 < cfg5.N := by rw [hN]; omega
  obtain ⟨e00, e01, e10, e11, e20, e21, e30, e31⟩ := idx5 ⟨(i 0).val / 5000, ht⟩
  refine ⟨⟨(i 0).val / 5000, ht⟩, flush5_3 _, ?_⟩
  rw [mem_blk5]
  intro a
  match a with
  | ⟨0, _⟩ =>
    show win5_3.index ⟨(i 0).val / 5000, ht⟩ (0 : Fin 2) * 5000 ≤ (i 0).val ∧ (i 0).val < win5_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win5_3.index ⟨(i 0).val / 5000, ht⟩ (1 : Fin 2) * 128 ≤ (i 1).val ∧ (i 1).val < win5_3.index ⟨(i 0).val / 5000, ht⟩ (1 : Fin 2) * 128 + 128
    rw [e31]; omega

/-- The array the region writes ends holding the function of the arrays it reads. -/
theorem final5 (c : Dev nD) : (dat5 V c).arrAt 3 cfg5.N = combArr (V c main_v78) (V c main_v81) (V c main_v82) :=
  (dat5 V c).arrAt_eq_of_cover 3 _ (fun t _ => flushed5_eq V c t) cover5

end Cert.KernelIdeal.Regions

end
-- ==== Proof.Region6.lean ====
/-
  Region 6, from blocks to the whole array.

  The grid has ten points. This region is a projection: point t stages rows 5000·t … 5000·t + 4999 of its input and the whole weight matrix, and writes back the same
  rows of the result. What it writes at row r of its block and column q is the sum over k of x (5000·t + r, k) · w (k, q): block t
  of ONE function of the two arrays, their matrix product.
  Every row of the array lies in the block of the point row / 5000, so the ten blocks cover it and it ends holding that function.
-/
import proofs.«147130_j78975858639084_1_alg».proof.Proof.Gen.KernelIdeal.Frame
import proofs.«147130_j78975858639084_1_alg».proof.Proof.Bodies
import proofs.«147130_j78975858639084_1_alg».proof.Proof.Arrays

set_option maxRecDepth 16384

noncomputable section

namespace Cert.KernelIdeal.Regions

open Cert.KernelIdeal Cert.KernelIdeal.Gen Cert.KernelIdeal.Bodies Cert.KernelIdeal.Arrays
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The region's index maps over the grid: the row blocks move with the point, the whole-array windows stay. -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point t writes back is block t of the function of the arrays as the region finds them. -/
theorem flushed6_eq (c : Dev nD) (t : Fin cfg6.N) :
    (dat6 V c).flushed 2 t = ((cfg6.win 2).blk t).view.read (Elt Ideal) (projArr (V c main_v83) (V c main_arg8)) := by
  show (cfg6.win 2).cut (grid6.coords t) ((dat6 V c).after 2 t) = _
  rw [after6_2]
  unfold out6_2
  rw [View.canon_unit_zero zero2]
  simp only [View.ld_unit_zero (S := S5000x128) zero2, View.ld_unit_zero (S := S128x128) zero2]
  obtain ⟨e00, e01, e10, e11, e20, e21⟩ := idx6 t
  funext j
  obtain ⟨r, q, rfl⟩ : ∃ (r : Fin 5000) (q : Fin 128), j = ix2 r q := ⟨j 0, j 1, eq_ix2 j⟩
  have h0 : ∀ k : Fin 128, ((cfg6.win 0).blk t).view.emb (ix2 r k) = ix2 (n0 := 50000) ((((cfg6.win 2).blk t).view.emb (ix2 r q)) 0) k := by
    intro k; funext a; apply Fin.ext
    match a with
    | ⟨0, _⟩ => show win6_0.index t (0 : Fin 2) * 5000 + 1 * r.val = win6_2.index t (0 : Fin 2) * 5000 + 1 * r.val; omega
    | ⟨1, _⟩ => show win6_0.index t (1 : Fin 2) * 128 + 1 * k.val = k.val; omega
  have h1 : ∀ k : Fin 128, ((cfg6.win 1).blk t).view.emb (ix2 k q) = ix2 (n1 := 128) k ((((cfg6.win 2).blk t).view.emb (ix2 r q)) 1) := by
    intro k; funext a; apply Fin.ext
    match a with
    | ⟨0, _⟩ => show win6_1.index t (0 : Fin 2) * 128 + 1 * k.val = k.val; omega
    | ⟨1, _⟩ => show win6_1.index t (1 : Fin 2) * 128 + 1 * q.val = win6_2.index t (1 : Fin 2) * 128 + 1 * q.val; omega
  refine (proj6_at (iblk6 V c 0 t) (iblk6 V c 1 t) r q).trans ?_
  exact sum_rows (V c main_v83) (V c main_arg8) (fun k => ((cfg6.win 0).blk t).view.emb (ix2 r k))
    (fun k => ((cfg6.win 1).blk t).view.emb (ix2 k q)) (((cfg6.win 2).blk t).view.emb (ix2 r q)) h0 h1

/-- An index is in point t's block iff each coordinate is in the block's range on its axis. -/
theorem mem_blk6 (t : Fin cfg6.N) (i : S50000x128.Idx) :
    i ∈ ((cfg6.win 2).blk t).view.set ↔ ∀ a : Fin 2, win6_2.index t a * S5000x128.size a ≤ (i a).val ∧ (i a).val < win6_2.index t a * S5000x128.size a + S5000x128.size a := by
  show i ∈ ((View.whole main_v84).slice (win6_2.rect t)).set ↔ _
  rw [View.set_slice_whole, Rect.mem_set_unit]
  exact Iff.rfl

/-- Every index of the array is in the block of the point its row falls in. -/
theorem cover6 (i : S50000x128.Idx) : ∃ t : Fin cfg6.N, (cfg6.win 2).flush t = true ∧ i ∈ ((cfg6.win 2).blk t).view.set := by
  have hi0 : (i 0).val < 50000 := (i 0).isLt
  have hi1 : (i 1).val < 128 := (i 1).isLt
  have hN : cfg6.N = 10 := N_6
  have ht : (i 0).val / 5000 < cfg6.N := by rw [hN]; omega
  obtain ⟨e00, e01, e10, e11, e20, e21⟩ := idx6 ⟨(i 0).val / 5000, ht⟩
  refine ⟨⟨(i 0).val / 5000, ht⟩, flush6_2 _, ?_⟩
  rw [mem_blk6]
  intro a
  match a with
  | ⟨0, _⟩ =>
    show win6_2.index ⟨(i 0).val / 5000, ht⟩ (0 : Fin 2) * 5000 ≤ (i 0).val ∧ (i 0).val < win6_2.index ⟨(i 0).val / 5000, ht⟩ (0 : Fin 2) * 5000 + 5000
    rw [e20]; show (i 0).val / 5000 * 5000 ≤ (i 0).val ∧ (i 0).val < (i 0).val / 5000 * 5000 + 5000; omega
  | ⟨1, _⟩ =>
    show win6_2.index ⟨(i 0).val / 5000, ht⟩ (1 : Fin 2) * 128 ≤ (i 1).val ∧ (i 1).val < win6_2.index ⟨(i 0).val / 5000, ht⟩ (1 : Fin 2) * 128 + 128
    rw [e21]; omega

/-- The array the region writes ends holding the function of the arrays it reads. -/
theorem final6 (c : Dev nD) : (dat6 V c).arrAt 2 cfg6.N = projArr (V c main_v83) (V c main_arg8) :=
  (dat6 V c).arrAt_eq_of_cover 2 _ (fun t _ => flushed6_eq V c t) cover6

end Cert.KernelIdeal.Regions

end
-- ==== Proof.Region7.lean ====
/-
  Region 7, from blocks to the whole array.

  The grid has ten points. This region is a combine: point t stages rows 5000·t … 5000·t + 4999 of the aggregated messages and of the self-loop messages, and the
  one bias row, and writes back the same rows of the result. What it writes at row r of its block and column q is the exponential
  linear unit of (agg + self) at that array entry plus the bias row's entry q: block t of ONE function of the three arrays.
  Every row of the array lies in the block of the point row / 5000, so the ten blocks cover it and it ends holding that function.
-/
import proofs.«147130_j78975858639084_1_alg».proof.Proof.Gen.KernelIdeal.Frame
import proofs.«147130_j78975858639084_1_alg».proof.Proof.Bodies
import proofs.«147130_j78975858639084_1_alg».proof.Proof.Arrays

set_option maxRecDepth 16384

noncomputable section

namespace Cert.KernelIdeal.Regions

open Cert.KernelIdeal Cert.KernelIdeal.Gen Cert.KernelIdeal.Bodies Cert.KernelIdeal.Arrays
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The region's index maps over the grid: the row blocks move with the point, the whole-array windows stay. -/
theorem idx7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- What point t writes back is block t of the function of the arrays as the region finds them. -/
theorem flushed7_eq (c : Dev nD) (t : Fin cfg7.N) :
    (dat7 V c).flushed 3 t = ((cfg7.win 3).blk t).view.read (Elt Ideal) (combArr (V c main_v97) (V c main_v100) (V c main_v101)) := by
  show (cfg7.win 3).cut (grid7.coords t) ((dat7 V c).after 3 t) = _
  rw [after7_3]
  unfold out7_3
  rw [View.canon_unit_zero zero2]
  simp only [View.ld_unit_zero (S := S5000x128) zero2, View.ld_unit_zero (S := S1x128) zero2]
  obtain ⟨e00, e01, e10, e11, e20, e21, e30, e31⟩ := idx7 t
  funext j
  obtain ⟨r, q, rfl⟩ : ∃ (r : Fin 5000) (q : Fin 128), j = ix2 r q := ⟨j 0, j 1, eq_ix2 j⟩
  have h0 : ((cfg7.win 0).blk t).view.emb (ix2 r q) = ((cfg7.win 3).blk t).view.emb (ix2 r q) := by
    funext a; apply Fin.ext
    match a with
    | ⟨0, _⟩ => show win7_0.index t (0 : Fin 2) * 5000 + 1 * r.val = win7_3.index t (0 : Fin 2) * 5000 + 1 * r.val; omega
    | ⟨1, _⟩ => show win7_0.index t (1 : Fin 2) * 128 + 1 * q.val = win7_3.index t (1 : Fin 2) * 128 + 1 * q.val; omega
  have h1 : ((cfg7.win 1).blk t).view.emb (ix2 r q) = ((cfg7.win 3).blk t).view.emb (ix2 r q) := by
    funext a; apply Fin.ext
    match a with
    | ⟨0, _⟩ => show win7_1.index t (0 : Fin 2) * 5000 + 1 * r.val = win7_3.index t (0 : Fin 2) * 5000 + 1 * r.val; omega
    | ⟨1, _⟩ => show win7_1.index t (1 : Fin 2) * 128 + 1 * q.val = win7_3.index t (1 : Fin 2) * 128 + 1 * q.val; omega
  have h2 : ((cfg7.win 2).blk t).view.emb (ix2 (0 : Fin 1) q) = ix2 (n1 := 128) (0 : Fin 1) ((((cfg7.win 3).blk t).view.emb (ix2 r q)) 1) := by
    funext a; apply Fin.ext
    match a with
    | ⟨0, _⟩ => show win7_2.index t (0 : Fin 2) * 1 + 1 * 0 = 0; omega
    | ⟨1, _⟩ => show win7_2.index t (1 : Fin 2) * 128 + 1 * q.val = win7_3.index t (1 : Fin 2) * 128 + 1 * q.val; omega
  refine (comb7_at (iblk7 V c 0 t) (iblk7 V c 1 t) (iblk7 V c 2 t) r q).trans ?_
  exact comb_pt (V c main_v97) (V c main_v100) (V c main_v101) (((cfg7.win 0).blk t).view.emb (ix2 r q)) (((cfg7.win 1).blk t).view.emb (ix2 r q))
    (((cfg7.win 3).blk t).view.emb (ix2 r q)) (((cfg7.win 2).blk t).view.emb (ix2 (0 : Fin 1) q)) h0 h1 h2

/-- An index is in point t's block iff each coordinate is in the block's range on its axis. -/
theorem mem_blk7 (t : Fin cfg7.N) (i : S50000x128.Idx) :
    i ∈ ((cfg7.win 3).blk t).view.set ↔ ∀ a : Fin 2, win7_3.index t a * S5000x128.size a ≤ (i a).val ∧ (i a).val < win7_3.index t a * S5000x128.size a + S5000x128.size a := by
  show i ∈ ((View.whole main_v102).slice (win7_3.rect t)).set ↔ _
  rw [View.set_slice_whole, Rect.mem_set_unit]
  exact Iff.rfl

/-- Every index of the array is in the block of the point its row falls in. -/
theorem cover7 (i : S50000x128.Idx) : ∃ t : Fin cfg7.N, (cfg7.win 3).flush t = true ∧ i ∈ ((cfg7.win 3).blk t).view.set := by
  have hi0 : (i 0).val < 50000 := (i 0).isLt
  have hi1 : (i 1).val < 128 := (i 1).isLt
  have hN : cfg7.N = 10 := N_7
  have ht : (i 0).val / 5000 < cfg7.N := by rw [hN]; omega
  obtain ⟨e00, e01, e10, e11, e20, e21, e30, e31⟩ := idx7 ⟨(i 0).val / 5000, ht⟩
  refine ⟨⟨(i 0).val / 5000, ht⟩, flush7_3 _, ?_⟩
  rw [mem_blk7]
  intro a
  match a with
  | ⟨0, _⟩ =>
    show win7_3.index ⟨(i 0).val / 5000, ht⟩ (0 : Fin 2) * 5000 ≤ (i 0).val ∧ (i 0).val < win7_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win7_3.index ⟨(i 0).val / 5000, ht⟩ (1 : Fin 2) * 128 ≤ (i 1).val ∧ (i 1).val < win7_3.index ⟨(i 0).val / 5000, ht⟩ (1 : Fin 2) * 128 + 128
    rw [e31]; omega

/-- The array the region writes ends holding the function of the arrays it reads. -/
theorem final7 (c : Dev nD) : (dat7 V c).arrAt 3 cfg7.N = combArr (V c main_v97) (V c main_v100) (V c main_v101) :=
  (dat7 V c).arrAt_eq_of_cover 3 _ (fun t _ => flushed7_eq V c t) cover7

end Cert.KernelIdeal.Regions

end
-- ==== Proof.KernelRead.lean ====
/-
  The idealized kernel's run read at the fourth layer's activations, as a function of the arguments.

  The first host stretch makes, from the edge list, the two endpoint lists and the two degree factors (per edge, the
  normalisation; per node, dinv squared); nothing overwrites them, and each layer's host stretch reads them where it
  runs. A layer is: the projection region (the matrix product of the previous activations with the layer's weights), the host
  stretch (the messages gathered at the sources, scaled, and added up at the destinations; the self-loop term; the bias as a
  row), and the combine region (the exponential linear unit of their sum). Each step's array is read at the boundary after
  it, and the four layers compose.
-/
import proofs.«147130_j78975858639084_1_alg».proof.Proof.Gen.KernelIdeal.Frame
import proofs.«147130_j78975858639084_1_alg».proof.Proof.KeepA
import proofs.«147130_j78975858639084_1_alg».proof.Proof.KeepB
import proofs.«147130_j78975858639084_1_alg».proof.Proof.Layer
import proofs.«147130_j78975858639084_1_alg».proof.Proof.Arrays
import proofs.«147130_j78975858639084_1_alg».proof.Proof.Region0
import proofs.«147130_j78975858639084_1_alg».proof.Proof.Region1
import proofs.«147130_j78975858639084_1_alg».proof.Proof.Region2
import proofs.«147130_j78975858639084_1_alg».proof.Proof.Region3
import proofs.«147130_j78975858639084_1_alg».proof.Proof.Region4
import proofs.«147130_j78975858639084_1_alg».proof.Proof.Region5
import proofs.«147130_j78975858639084_1_alg».proof.Proof.Region6
import proofs.«147130_j78975858639084_1_alg».proof.Proof.Region7
import Idealize.ShloMosaic.Lib.StableHlo.Run

set_option maxRecDepth 16384

noncomputable section

namespace Cert.KernelIdeal.Read

open Cert.KernelIdeal Cert.KernelIdeal.Gen Cert.KernelIdeal.Arrays Cert.KernelIdeal.Regions Cert.KernelIdeal.KeepA Cert.KernelIdeal.KeepB
open Idealize.ShloMosaic Idealize.ShloMosaic.TcCoe Idealize.SL.Sem Idealize.ShloMosaic.StableHlo
open Cert.ReferenceIdeal.Layer (srcOf dstOf idxCol dinvOf normOf aggOf selfOf)

-- the gathers, the scatter-adds and the reciprocal square root are never opened: both programs apply the same ones
attribute [local irreducible] Host.gather Host.scatterAdd Host.rsqrt

/-- A bias vector [128] as one row [1,128]. -/
def rowOf (b : (⟨S128, .f32⟩ : BufTy).Contents (Elt Ideal)) : (⟨S1x128, .f32⟩ : BufTy).Contents (Elt Ideal) :=
  fun i => shapeCast S1x128 b shapeCasts_S128_S1x128 i

/-- One layer as the kernel computes it, from the previous activations X, the weights, the bias, the two degree factors and
    the endpoint lists. -/
def kLayer (X : S50000x128.Idx → EReal) (Wt : S128x128.Idx → EReal) (b : (⟨S128, .f32⟩ : BufTy).Contents (Elt Ideal))
    (n : (⟨S600000, .f32⟩ : BufTy).Contents (Elt Ideal)) (q : (⟨S50000, .f32⟩ : BufTy).Contents (Elt Ideal))
    (s d : (⟨S600000, .i32⟩ : BufTy).Contents (Elt Ideal)) : S50000x128.Idx → EReal :=
  combArr (aggOf (projArr X Wt) n s d) (selfOf (projArr X Wt) q) (rowOf b)

variable (m : (ℓ : Loc nD τ sig) → Buf (Elt Ideal) ℓ) (ρ : Dev nD → PrngReg)

/-- The endpoint lists and the degree factors, as the first host stretch leaves them. -/
abbrev src (c : Dev nD) := W1 m ρ c (Proc.devRef .tc main_v1)
abbrev dst (c : Dev nD) := W1 m ρ c (Proc.devRef .tc main_v3)
abbrev nrm (c : Dev nD) := W1 m ρ c (Proc.devRef .tc main_v25)
abbrev dsq (c : Dev nD) := W1 m ρ c (Proc.devRef .tc main_v26)

/-! ## Layer 1 -/

/-- The layer's activations, as a function of the arguments. -/
def act1 (c : Dev nD) : S50000x128.Idx → EReal :=
  kLayer (m ((c : Thread nD τ).loc main_arg0)) (m ((c : Thread nD τ).loc main_arg2)) (m ((c : Thread nD τ).loc main_arg3)) (nrm m ρ c) (dsq m ρ c) (src m ρ c) (dst m ρ c)

/-- The layer's host stretch from any contents: the aggregate, the self-loop term and the bias row are the shared functions
    of the projection's result, the per-edge and per-node degree factors, the endpoint lists and the bias. -/
theorem glue1_agg (W : Valuation τ sig (Elt Ideal)) :
    after hostOps1 W (Proc.devRef .tc main_v40) = aggOf (W (Proc.devRef .tc main_v27)) (W (Proc.devRef .tc main_v25)) (W (Proc.devRef .tc main_v1)) (W (Proc.devRef .tc main_v3)) := by
  after_results_simp
  rfl
theorem glue1_self (W : Valuation τ sig (Elt Ideal)) :
    after hostOps1 W (Proc.devRef .tc main_v43) = selfOf (W (Proc.devRef .tc main_v27)) (W (Proc.devRef .tc main_v26)) := by
  after_results_simp
  rfl
theorem glue1_row (W : Valuation τ sig (Elt Ideal)) :
    after hostOps1 W (Proc.devRef .tc main_v44) = rowOf (W (Proc.devRef .tc main_arg3)) := by
  after_results_simp
  rfl

/-- The projection's result at the boundary after it. -/
theorem proj1 (c : Dev nD) : W2 m ρ c (Proc.devRef .tc main_v27) = projArr (m ((c : Thread nD τ).loc main_arg0)) (m ((c : Thread nD τ).loc main_arg2)) := by
  refine (W2_arr m ρ c 2).trans ((final0 (V1 m ρ) c).trans ?_)
  show projArr (W1 m ρ c (Proc.devRef .tc main_arg0)) (W1 m ρ c (Proc.devRef .tc main_arg2)) = _
  rw [keep_arg0_W1 m ρ c, keep_arg2_W1 m ρ c]

/-- The layer's activations at the boundary after its combine region. -/
theorem layer1 (c : Dev nD) : W4 m ρ c (Proc.devRef .tc main_v45) = act1 m ρ c := by
  refine (W4_arr m ρ c 3).trans ((final1 (V3 m ρ) c).trans ?_)
  show combArr (after hostOps1 (W2 m ρ c) (Proc.devRef .tc main_v40)) (after hostOps1 (W2 m ρ c) (Proc.devRef .tc main_v43))
      (after hostOps1 (W2 m ρ c) (Proc.devRef .tc main_v44)) = _
  rw [glue1_agg, glue1_self, glue1_row, proj1 m ρ c, keep_v25_W2 m ρ c, keep_v26_W2 m ρ c,
    keep_v1_W2 m ρ c, keep_v3_W2 m ρ c, keep_arg3_W2 m ρ c]
  rfl

/-! ## Layer 2 -/

/-- The layer's activations, as a function of the arguments. -/
def act2 (c : Dev nD) : S50000x128.Idx → EReal :=
  kLayer (act1 m ρ c) (m ((c : Thread nD τ).loc main_arg4)) (m ((c : Thread nD τ).loc main_arg5)) (nrm m ρ c) (dsq m ρ c) (src m ρ c) (dst m ρ c)

/-- The layer's host stretch from any contents: the aggregate, the self-loop term and the bias row are the shared functions
    of the projection's result, the per-edge and per-node degree factors, the endpoint lists and the bias. -/
theorem glue2_agg (W : Valuation τ sig (Elt Ideal)) :
    after hostOps3 W (Proc.devRef .tc main_v59) = aggOf (W (Proc.devRef .tc main_v46)) (W (Proc.devRef .tc main_v25)) (W (Proc.devRef .tc main_v1)) (W (Proc.devRef .tc main_v3)) := by
  after_results_simp
  rfl
theorem glue2_self (W : Valuation τ sig (Elt Ideal)) :
    after hostOps3 W (Proc.devRef .tc main_v62) = selfOf (W (Proc.devRef .tc main_v46)) (W (Proc.devRef .tc main_v26)) := by
  after_results_simp
  rfl
theorem glue2_row (W : Valuation τ sig (Elt Ideal)) :
    after hostOps3 W (Proc.devRef .tc main_v63) = rowOf (W (Proc.devRef .tc main_arg5)) := by
  after_results_simp
  rfl

/-- The projection's result at the boundary after it. -/
theorem proj2 (c : Dev nD) : W5 m ρ c (Proc.devRef .tc main_v46) = projArr (act1 m ρ c) (m ((c : Thread nD τ).loc main_arg4)) := by
  refine (W5_arr m ρ c 2).trans ((final2 (V4 m ρ) c).trans ?_)
  show projArr (W4 m ρ c (Proc.devRef .tc main_v45)) (W4 m ρ c (Proc.devRef .tc main_arg4)) = _
  rw [layer1 m ρ c, keep_arg4_W4 m ρ c]

/-- The layer's activations at the boundary after its combine region. -/
theorem layer2 (c : Dev nD) : W7 m ρ c (Proc.devRef .tc main_v64) = act2 m ρ c := by
  refine (W7_arr m ρ c 3).trans ((final3 (V6 m ρ) c).trans ?_)
  show combArr (after hostOps3 (W5 m ρ c) (Proc.devRef .tc main_v59)) (after hostOps3 (W5 m ρ c) (Proc.devRef .tc main_v62))
      (after hostOps3 (W5 m ρ c) (Proc.devRef .tc main_v63)) = _
  rw [glue2_agg, glue2_self, glue2_row, proj2 m ρ c, keep_v25_W5 m ρ c, keep_v26_W5 m ρ c,
    keep_v1_W5 m ρ c, keep_v3_W5 m ρ c, keep_arg5_W5 m ρ c]
  rfl

/-! ## Layer 3 -/

/-- The layer's activations, as a function of the arguments. -/
def act3 (c : Dev nD) : S50000x128.Idx → EReal :=
  kLayer (act2 m ρ c) (m ((c : Thread nD τ).loc main_arg6)) (m ((c : Thread nD τ).loc main_arg7)) (nrm m ρ c) (dsq m ρ c) (src m ρ c) (dst m ρ c)

/-- The layer's host stretch from any contents: the aggregate, the self-loop term and the bias row are the shared functions
    of the projection's result, the per-edge and per-node degree factors, the endpoint lists and the bias. -/
theorem glue3_agg (W : Valuation τ sig (Elt Ideal)) :
    after hostOps5 W (Proc.devRef .tc main_v78) = aggOf (W (Proc.devRef .tc main_v65)) (W (Proc.devRef .tc main_v25)) (W (Proc.devRef .tc main_v1)) (W (Proc.devRef .tc main_v3)) := by
  after_results_simp
  rfl
theorem glue3_self (W : Valuation τ sig (Elt Ideal)) :
    after hostOps5 W (Proc.devRef .tc main_v81) = selfOf (W (Proc.devRef .tc main_v65)) (W (Proc.devRef .tc main_v26)) := by
  after_results_simp
  rfl
theorem glue3_row (W : Valuation τ sig (Elt Ideal)) :
    after hostOps5 W (Proc.devRef .tc main_v82) = rowOf (W (Proc.devRef .tc main_arg7)) := by
  after_results_simp
  rfl

/-- The projection's result at the boundary after it. -/
theorem proj3 (c : Dev nD) : W8 m ρ c (Proc.devRef .tc main_v65) = projArr (act2 m ρ c) (m ((c : Thread nD τ).loc main_arg6)) := by
  refine (W8_arr m ρ c 2).trans ((final4 (V7 m ρ) c).trans ?_)
  show projArr (W7 m ρ c (Proc.devRef .tc main_v64)) (W7 m ρ c (Proc.devRef .tc main_arg6)) = _
  rw [layer2 m ρ c, keep_arg6_W7 m ρ c]

/-- The layer's activations at the boundary after its combine region. -/
theorem layer3 (c : Dev nD) : W10 m ρ c (Proc.devRef .tc main_v83) = act3 m ρ c := by
  refine (W10_arr m ρ c 3).trans ((final5 (V9 m ρ) c).trans ?_)
  show combArr (after hostOps5 (W8 m ρ c) (Proc.devRef .tc main_v78)) (after hostOps5 (W8 m ρ c) (Proc.devRef .tc main_v81))
      (after hostOps5 (W8 m ρ c) (Proc.devRef .tc main_v82)) = _
  rw [glue3_agg, glue3_self, glue3_row, proj3 m ρ c, keep_v25_W8 m ρ c, keep_v26_W8 m ρ c,
    keep_v1_W8 m ρ c, keep_v3_W8 m ρ c, keep_arg7_W8 m ρ c]
  rfl

/-! ## Layer 4 -/

/-- The layer's activations, as a function of the arguments. -/
def act4 (c : Dev nD) : S50000x128.Idx → EReal :=
  kLayer (act3 m ρ c) (m ((c : Thread nD τ).loc main_arg8)) (m ((c : Thread nD τ).loc main_arg9)) (nrm m ρ c) (dsq m ρ c) (src m ρ c) (dst m ρ c)

/-- The layer's host stretch from any contents: the aggregate, the self-loop term and the bias row are the shared functions
    of the projection's result, the per-edge and per-node degree factors, the endpoint lists and the bias. -/
theorem glue4_agg (W : Valuation τ sig (Elt Ideal)) :
    after hostOps7 W (Proc.devRef .tc main_v97) = aggOf (W (Proc.devRef .tc main_v84)) (W (Proc.devRef .tc main_v25)) (W (Proc.devRef .tc main_v1)) (W (Proc.devRef .tc main_v3)) := by
  after_results_simp
  rfl
theorem glue4_self (W : Valuation τ sig (Elt Ideal)) :
    after hostOps7 W (Proc.devRef .tc main_v100) = selfOf (W (Proc.devRef .tc main_v84)) (W (Proc.devRef .tc main_v26)) := by
  after_results_simp
  rfl
theorem glue4_row (W : Valuation τ sig (Elt Ideal)) :
    after hostOps7 W (Proc.devRef .tc main_v101) = rowOf (W (Proc.devRef .tc main_arg9)) := by
  after_results_simp
  rfl

/-- The projection's result at the boundary after it. -/
theorem proj4 (c : Dev nD) : W11 m ρ c (Proc.devRef .tc main_v84) = projArr (act3 m ρ c) (m ((c : Thread nD τ).loc main_arg8)) := by
  refine (W11_arr m ρ c 2).trans ((final6 (V10 m ρ) c).trans ?_)
  show projArr (W10 m ρ c (Proc.devRef .tc main_v83)) (W10 m ρ c (Proc.devRef .tc main_arg8)) = _
  rw [layer3 m ρ c, keep_arg8_W10 m ρ c]

/-- The layer's activations at the boundary after its combine region. -/
theorem layer4 (c : Dev nD) : W13 m ρ c (Proc.devRef .tc main_v102) = act4 m ρ c := by
  refine (W13_arr m ρ c 3).trans ((final7 (V12 m ρ) c).trans ?_)
  show combArr (after hostOps7 (W11 m ρ c) (Proc.devRef .tc main_v97)) (after hostOps7 (W11 m ρ c) (Proc.devRef .tc main_v100))
      (after hostOps7 (W11 m ρ c) (Proc.devRef .tc main_v101)) = _
  rw [glue4_agg, glue4_self, glue4_row, proj4 m ρ c, keep_v25_W11 m ρ c, keep_v26_W11 m ρ c,
    keep_v1_W11 m ρ c, keep_v3_W11 m ρ c, keep_arg9_W11 m ρ c]
  rfl

/-! ## The first result -/

/-- At the last boundary the first result buffer holds the fourth layer's activations. -/
theorem result0 (c : Dev nD) : W16 m ρ c (Proc.devRef .tc main_v102) = act4 m ρ c :=
  (keep_v102_W16 m ρ c).trans (layer4 m ρ c)

end Cert.KernelIdeal.Read

end
-- ==== Proof.Region8.lean ====
/-
  Region 8, from blocks to the whole array.

  The grid has ten points. This region is the classifier: point t stages rows 5000·t … 5000·t + 4999 of the last activations, the whole padded weight matrix and the
  one padded bias row, and writes back the same rows of the result. What it writes at row r of its block and column q is the unit
  of (sum over k of x (5000·t + r, k) · w (k, q)) plus the bias row's entry q: block t of ONE function of the three arrays.
  Every row of the array lies in the block of the point row / 5000, so the ten blocks cover it and it ends holding that function.
-/
import proofs.«147130_j78975858639084_1_alg».proof.Proof.Gen.KernelIdeal.Frame
import proofs.«147130_j78975858639084_1_alg».proof.Proof.Bodies
import proofs.«147130_j78975858639084_1_alg».proof.Proof.Arrays

set_option maxRecDepth 16384

noncomputable section

namespace Cert.KernelIdeal.Regions

open Cert.KernelIdeal Cert.KernelIdeal.Gen Cert.KernelIdeal.Bodies Cert.KernelIdeal.Arrays
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The region's index maps over the grid: the row blocks move with the point, the whole-array windows stay. -/
theorem idx8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

/-- What point t writes back is block t of the function of the arrays as the region finds them. -/
theorem flushed8_eq (c : Dev nD) (t : Fin cfg8.N) :
    (dat8 V c).flushed 3 t = ((cfg8.win 3).blk t).view.read (Elt Ideal) (headArr (V c main_v102) (V c main_v105) (V c main_v109)) := by
  show (cfg8.win 3).cut (grid8.coords t) ((dat8 V c).after 3 t) = _
  rw [after8_3]
  unfold out8_3
  rw [View.canon_unit_zero zero2]
  simp only [View.ld_unit_zero (S := S5000x128) zero2, View.ld_unit_zero (S := S128x128) zero2, View.ld_unit_zero (S := S1x128) zero2]
  obtain ⟨e00, e01, e10, e11, e20, e21, e30, e31⟩ := idx8 t
  funext j
  obtain ⟨r, q, rfl⟩ : ∃ (r : Fin 5000) (q : Fin 128), j = ix2 r q := ⟨j 0, j 1, eq_ix2 j⟩
  have h0 : ∀ k : Fin 128, ((cfg8.win 0).blk t).view.emb (ix2 r k) = ix2 (n0 := 50000) ((((cfg8.win 3).blk t).view.emb (ix2 r q)) 0) k := by
    intro k; funext a; apply Fin.ext
    match a with
    | ⟨0, _⟩ => show win8_0.index t (0 : Fin 2) * 5000 + 1 * r.val = win8_3.index t (0 : Fin 2) * 5000 + 1 * r.val; omega
    | ⟨1, _⟩ => show win8_0.index t (1 : Fin 2) * 128 + 1 * k.val = k.val; omega
  have h1 : ∀ k : Fin 128, ((cfg8.win 1).blk t).view.emb (ix2 k q) = ix2 (n1 := 128) k ((((cfg8.win 3).blk t).view.emb (ix2 r q)) 1) := by
    intro k; funext a; apply Fin.ext
    match a with
    | ⟨0, _⟩ => show win8_1.index t (0 : Fin 2) * 128 + 1 * k.val = k.val; omega
    | ⟨1, _⟩ => show win8_1.index t (1 : Fin 2) * 128 + 1 * q.val = win8_3.index t (1 : Fin 2) * 128 + 1 * q.val; omega
  have h2 : ((cfg8.win 2).blk t).view.emb (ix2 (0 : Fin 1) q) = ix2 (n1 := 128) (0 : Fin 1) ((((cfg8.win 3).blk t).view.emb (ix2 r q)) 1) := by
    funext a; apply Fin.ext
    match a with
    | ⟨0, _⟩ => show win8_2.index t (0 : Fin 2) * 1 + 1 * 0 = 0; omega
    | ⟨1, _⟩ => show win8_2.index t (1 : Fin 2) * 128 + 1 * q.val = win8_3.index t (1 : Fin 2) * 128 + 1 * q.val; omega
  refine (head8_at (iblk8 V c 0 t) (iblk8 V c 1 t) (iblk8 V c 2 t) r q).trans ?_
  exact head_pt (V c main_v102) (V c main_v105) (V c main_v109) (fun k => ((cfg8.win 0).blk t).view.emb (ix2 r k))
    (fun k => ((cfg8.win 1).blk t).view.emb (ix2 k q)) (((cfg8.win 3).blk t).view.emb (ix2 r q)) (((cfg8.win 2).blk t).view.emb (ix2 (0 : Fin 1) q)) h0 h1 h2

/-- An index is in point t's block iff each coordinate is in the block's range on its axis. -/
theorem mem_blk8 (t : Fin cfg8.N) (i : S50000x128.Idx) :
    i ∈ ((cfg8.win 3).blk t).view.set ↔ ∀ a : Fin 2, win8_3.index t a * S5000x128.size a ≤ (i a).val ∧ (i a).val < win8_3.index t a * S5000x128.size a + S5000x128.size a := by
  show i ∈ ((View.whole main_v110).slice (win8_3.rect t)).set ↔ _
  rw [View.set_slice_whole, Rect.mem_set_unit]
  exact Iff.rfl

/-- Every index of the array is in the block of the point its row falls in. -/
theorem cover8 (i : S50000x128.Idx) : ∃ t : Fin cfg8.N, (cfg8.win 3).flush t = true ∧ i ∈ ((cfg8.win 3).blk t).view.set := by
  have hi0 : (i 0).val < 50000 := (i 0).isLt
  have hi1 : (i 1).val < 128 := (i 1).isLt
  have hN : cfg8.N = 10 := N_8
  have ht : (i 0).val / 5000 < cfg8.N := by rw [hN]; omega
  obtain ⟨e00, e01, e10, e11, e20, e21, e30, e31⟩ := idx8 ⟨(i 0).val / 5000, ht⟩
  refine ⟨⟨(i 0).val / 5000, ht⟩, flush8_3 _, ?_⟩
  rw [mem_blk8]
  intro a
  match a with
  | ⟨0, _⟩ =>
    show win8_3.index ⟨(i 0).val / 5000, ht⟩ (0 : Fin 2) * 5000 ≤ (i 0).val ∧ (i 0).val < win8_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win8_3.index ⟨(i 0).val / 5000, ht⟩ (1 : Fin 2) * 128 ≤ (i 1).val ∧ (i 1).val < win8_3.index ⟨(i 0).val / 5000, ht⟩ (1 : Fin 2) * 128 + 128
    rw [e31]; omega

/-- The array the region writes ends holding the function of the arrays it reads. -/
theorem final8 (c : Dev nD) : (dat8 V c).arrAt 3 cfg8.N = headArr (V c main_v102) (V c main_v105) (V c main_v109) :=
  (dat8 V c).arrAt_eq_of_cover 3 _ (fun t _ => flushed8_eq V c t) cover8

end Cert.KernelIdeal.Regions

end
-- ==== Proof.LibScatterSet.lean ====
/-
  A host scatter whose body returns the update (jnp's `x.at[idx].set(v)`) is, as printed, a LEFT FOLD of point
  updates over the update indices in row-major order: each update index that lands inside the operand replaces the
  element it lands on, one that lands outside is dropped. Two facts read such a fold at an operand index i:
    · if exactly one update index lands on i, the result at i is that update's element — whatever the order, and
      whatever the other updates do elsewhere;
    · if no update index lands on i, the result at i is the operand's element.
  So a scatter at pairwise distinct in-range positions is a permutation-style placement, with no appeal to the order
  of the fold. Stated first for a fold over any list, then for `Host.scatter` at any dimension numbers.
-/
import Idealize.ShloMosaic.PureOps.ShapeOps

namespace Idealize.ShloMosaic.LibScatterSet

/-! ## A fold of point updates -/

section Fold

variable {ι κ α : Type} [DecidableEq κ]

/-- One point update: update `n` replaces the value at the index it lands on, if it lands. -/
def step (g : ι → Option κ) (v : ι → α) (r : κ → α) (n : ι) : κ → α :=
  match g n with
  | some i => fun i' => if i' = i then v n else r i'
  | none => r

/-- An index no update of the list lands on keeps its value. -/
theorem foldl_step_of_forall_ne (g : ι → Option κ) (v : ι → α) (L : List ι) (x : κ → α) (i₀ : κ)
    (h : ∀ n ∈ L, g n ≠ some i₀) : L.foldl (step g v) x i₀ = x i₀ := by
  induction L generalizing x with
  | nil => rfl
  | cons n L ih =>
    rw [List.foldl_cons, ih _ (fun n' hn' => h n' (List.mem_cons_of_mem _ hn'))]
    have hn := h n List.mem_cons_self
    unfold step
    cases hg : g n with
    | none => rfl
    | some i =>
      show (if i₀ = i then v n else x i₀) = x i₀
      rw [if_neg]
      intro e
      exact hn (by rw [hg, e])

/-- An index exactly one update of the list lands on holds that update's value. -/
theorem foldl_step_of_unique (g : ι → Option κ) (v : ι → α) (L : List ι) (x : κ → α) (i₀ : κ) (n₀ : ι)
    (hmem : n₀ ∈ L) (hg : g n₀ = some i₀) (huniq : ∀ n ∈ L, g n = some i₀ → n = n₀) :
    L.foldl (step g v) x i₀ = v n₀ := by
  induction L generalizing x with
  | nil => exact absurd hmem List.not_mem_nil
  | cons n L ih =>
    rw [List.foldl_cons]
    by_cases hL : n₀ ∈ L
    · exact ih _ hL (fun n' hn' => huniq n' (List.mem_cons_of_mem _ hn'))
    · have hn : n = n₀ := by
        rcases List.mem_cons.mp hmem with h | h
        · exact h.symm
        · exact absurd h hL
      subst hn
      rw [foldl_step_of_forall_ne g v L _ i₀ (fun n' hn' e => hL (huniq n' (List.mem_cons_of_mem _ hn') e ▸ hn'))]
      unfold step
      rw [hg]
      exact if_pos rfl

end Fold

/-! ## The host scatter with the "set" body -/

section Scatter

variable {s si u : Shape} {α : Type} {w : Nat}

/-- The printed scatter with the body "return the update" is the fold of point updates over the update indices. -/
theorem scatter_set_eq_foldl (d : ScatterDims s si u) (x : s.Idx → α) (idx : IVec si w) (upd : u.Idx → α) :
    Host.scatter d (fun _ b => b) x idx upd
      = (List.finRange u.numel).foldl (step (fun n => d.resultIdx? (u.rowMajor.symm n) idx) (fun n => upd (u.rowMajor.symm n))) x := by
  unfold Host.scatter
  refine congrArg (fun F => (List.finRange u.numel).foldl F x) ?_
  funext r n
  unfold step
  dsimp only
  cases h : d.resultIdx? (u.rowMajor.symm n) idx <;> rfl

/-- WHERE EXACTLY ONE UPDATE LANDS: the scatter's result at i₀ is the update's element at the one update index j₀ that
    lands on i₀. -/
theorem scatter_set_apply_of_unique (d : ScatterDims s si u) (x : s.Idx → α) (idx : IVec si w) (upd : u.Idx → α)
    (i₀ : s.Idx) (j₀ : u.Idx) (h₀ : d.resultIdx? j₀ idx = some i₀) (huniq : ∀ j, d.resultIdx? j idx = some i₀ → j = j₀) :
    Host.scatter d (fun _ b => b) x idx upd i₀ = upd j₀ := by
  rw [scatter_set_eq_foldl]
  refine (foldl_step_of_unique _ _ _ x i₀ (u.rowMajor j₀) (List.mem_finRange _) ?_ ?_).trans ?_
  · show d.resultIdx? (u.rowMajor.symm (u.rowMajor j₀)) idx = some i₀
    rw [Equiv.symm_apply_apply]; exact h₀
  · intro n _ hn
    have := huniq _ hn
    rw [← this, Equiv.apply_symm_apply]
  · show upd (u.rowMajor.symm (u.rowMajor j₀)) = upd j₀
    rw [Equiv.symm_apply_apply]

/-- WHERE NO UPDATE LANDS: the scatter's result at i₀ is the operand's element. -/
theorem scatter_set_apply_of_miss (d : ScatterDims s si u) (x : s.Idx → α) (idx : IVec si w) (upd : u.Idx → α)
    (i₀ : s.Idx) (h : ∀ j, d.resultIdx? j idx ≠ some i₀) :
    Host.scatter d (fun _ b => b) x idx upd i₀ = x i₀ := by
  rw [scatter_set_eq_foldl]
  exact foldl_step_of_forall_ne _ _ _ x i₀ (fun n _ => h _)

end Scatter

end Idealize.ShloMosaic.LibScatterSet
-- ==== Proof.Pad.lean ====
/-
  Placing the classifier's weights and bias into zero arrays.

  The kernel pads the [128,10] weights to [128,128] and the [10] bias to [128] by jnp's zeros.at[..., :10].set(·): a scatter
  whose body returns the update, with ONE start index, zero. An update element's window coordinates are its own coordinates
  and the start is zero on every axis, so update (k, j) lands at (k, j) and update j at j; distinct updates land on distinct
  places. Hence the padded array holds the update at every index inside the update's range, whatever the zeros around it.
-/
import proofs.«147130_j78975858639084_1_alg».proof.KernelIdeal
import proofs.«147130_j78975858639084_1_alg».proof.Proof.Gen.KernelIdeal
import proofs.«147130_j78975858639084_1_alg».proof.Proof.LibScatterSet
import Idealize.ShloMosaic.Lib.ValueIdx

noncomputable section

namespace Cert.KernelIdeal.Pad

open Cert.KernelIdeal Cert.KernelIdeal.Gen Idealize.ShloMosaic Idealize.ShloMosaic.ValueIdx Idealize.ShloMosaic.LibScatterSet

/-- The one start index of both placements: zero. -/
def zeroIdx : IVec S1 32 := broadcastInDim S1 ![] bcast_S_S1 (constantI S_ 32 0#32)

variable {α : Type}

/-- The weights placed into a [128,128] array z at column 0. -/
def padW (z : S128x128.Idx → α) (Wm : S128x10.Idx → α) : S128x128.Idx → α :=
  Host.scatter scatter_S128x128_S1_S128x10_01_n_1_0 (fun _ b => b) z zeroIdx Wm

/-- The bias placed into a [128] vector z at position 0. -/
def padB (z : S128.Idx → α) (bm : S10.Idx → α) : S128.Idx → α :=
  Host.scatter scatter_S128_S1_S10_0_n_0_0 (fun _ b => b) z zeroIdx bm

/-! ## The weights -/

theorem startW (jj : S128x10.Idx) (a : Fin 2) : scatter_S128x128_S1_S128x10_01_n_1_0.start jj zeroIdx a = 0 := by
  match a with
  | ⟨0, _⟩ => rfl
  | ⟨1, _⟩ => rfl

theorem windowW0 (jj : S128x10.Idx) : scatter_S128x128_S1_S128x10_01_n_1_0.window jj (0 : Fin 2) = (jj 0).val := rfl
theorem windowW1 (jj : S128x10.Idx) : scatter_S128x128_S1_S128x10_01_n_1_0.window jj (1 : Fin 2) = (jj 1).val := rfl

/-- Update (k, j) lands at (k, j). -/
theorem landsW (jj : S128x10.Idx) : scatter_S128x128_S1_S128x10_01_n_1_0.resultIdx? jj zeroIdx
    = some (ix2 (n0 := 128) (n1 := 128) (jj 0) ⟨(jj 1).val, by have := idx2_lt1 jj; omega⟩) := by
  have h0 : (jj 0).val < 128 := idx2_lt0 jj
  have h1 : (jj 1).val < 10 := idx2_lt1 jj
  unfold ScatterDims.resultIdx?
  rw [dif_pos (by
    intro a
    rw [startW jj a]
    match a with
    | ⟨0, _⟩ => show 0 ≤ (0 : Int) + ((jj 0).val : Int) ∧ (0 : Int) + ((jj 0).val : Int) < 128; omega
    | ⟨1, _⟩ => show 0 ≤ (0 : Int) + ((jj 1).val : Int) ∧ (0 : Int) + ((jj 1).val : Int) < 128; omega)]
  refine congrArg some (funext fun a => Fin.ext ?_)
  match a with
  | ⟨0, _⟩ =>
    show (scatter_S128x128_S1_S128x10_01_n_1_0.start jj zeroIdx (0 : Fin 2) + ((scatter_S128x128_S1_S128x10_01_n_1_0.window jj (0 : Fin 2) : Nat) : Int)).toNat = (jj 0).val
    rw [startW, windowW0]; omega
  | ⟨1, _⟩ =>
    show (scatter_S128x128_S1_S128x10_01_n_1_0.start jj zeroIdx (1 : Fin 2) + ((scatter_S128x128_S1_S128x10_01_n_1_0.window jj (1 : Fin 2) : Nat) : Int)).toNat = (jj 1).val
    rw [startW, windowW1]; omega

/-- The padded weights at (k, j), j below 10, are the weights at (k, j). -/
theorem padW_hit (z : S128x128.Idx → α) (Wm : S128x10.Idx → α) (k : Fin 128) (j : Fin 10) (j' : Fin 128) (hj : j'.val = j.val) :
    padW z Wm (ix2 k j') = Wm (ix2 k j) := by
  unfold padW
  refine scatter_set_apply_of_unique _ z zeroIdx Wm (ix2 k j') (ix2 k j) ?_ ?_
  · rw [landsW]
    refine congrArg some (funext fun a => Fin.ext ?_)
    match a with
    | ⟨0, _⟩ => rfl
    | ⟨1, _⟩ => exact hj.symm
  · intro jj hjj
    rw [landsW] at hjj
    have e := Option.some.inj hjj
    have e0 : (jj 0).val = k.val := congrArg (fun i : S128x128.Idx => (i 0).val) e
    have e1 : (jj 1).val = j'.val := congrArg (fun i : S128x128.Idx => (i 1).val) e
    rw [eq_ix2 jj]
    funext a
    match a with
    | ⟨0, _⟩ => exact Fin.ext e0
    | ⟨1, _⟩ => exact Fin.ext (e1.trans hj)

/-! ## The bias -/

theorem startB (jj : S10.Idx) (a : Fin 1) : scatter_S128_S1_S10_0_n_0_0.start jj zeroIdx a = 0 := by
  match a with
  | ⟨0, _⟩ => rfl

theorem windowB0 (jj : S10.Idx) : scatter_S128_S1_S10_0_n_0_0.window jj (0 : Fin 1) = (jj 0).val := rfl

/-- Update j lands at j. -/
theorem landsB (jj : S10.Idx) : scatter_S128_S1_S10_0_n_0_0.resultIdx? jj zeroIdx
    = some (ix1 (n := 128) ⟨(jj 0).val, by have : (jj 0).val < 10 := (jj 0).isLt; omega⟩) := by
  have h0 : (jj 0).val < 10 := (jj 0).isLt
  unfold ScatterDims.resultIdx?
  rw [dif_pos (by
    intro a
    rw [startB jj a]
    match a with
    | ⟨0, _⟩ => show 0 ≤ (0 : Int) + ((jj 0).val : Int) ∧ (0 : Int) + ((jj 0).val : Int) < 128; omega)]
  refine congrArg some (funext fun a => Fin.ext ?_)
  match a with
  | ⟨0, _⟩ =>
    show (scatter_S128_S1_S10_0_n_0_0.start jj zeroIdx (0 : Fin 1) + ((scatter_S128_S1_S10_0_n_0_0.window jj (0 : Fin 1) : Nat) : Int)).toNat = (jj 0).val
    rw [startB, windowB0]; omega

/-- The padded bias at j, j below 10, is the bias at j. -/
theorem padB_hit (z : S128.Idx → α) (bm : S10.Idx → α) (j : Fin 10) (j' : Fin 128) (hj : j'.val = j.val) :
    padB z bm (ix1 j') = bm (ix1 j) := by
  unfold padB
  refine scatter_set_apply_of_unique _ z zeroIdx bm (ix1 j') (ix1 j) ?_ ?_
  · rw [landsB]
    refine congrArg some (funext fun a => Fin.ext ?_)
    match a with
    | ⟨0, _⟩ => exact hj.symm
  · intro jj hjj
    rw [landsB] at hjj
    have e := Option.some.inj hjj
    have e0 : (jj 0).val = j'.val := congrArg (fun i : S128.Idx => (i 0).val) e
    rw [eq_ix1 jj]
    funext a
    match a with
    | ⟨0, _⟩ => exact Fin.ext (e0.trans hj)

end Cert.KernelIdeal.Pad

end
-- ==== Proof.KernelHead.lean ====
/-
  The idealized kernel's run read at its second result.

  After the fourth layer a host stretch pads the classifier's weights [128,10] and bias [10] with zeros to [128,128] and [128]
  (and lays the bias out as one row), the last region computes on every row block the exponential linear unit of the
  activations' product with the padded weights plus the padded bias, and a last host operation keeps the first ten columns.
  Read at the last boundary, the second result buffer holds that slice of that array of the fourth layer's activations and
  the two arguments.
-/
import proofs.«147130_j78975858639084_1_alg».proof.Proof.Gen.KernelIdeal.Frame
import proofs.«147130_j78975858639084_1_alg».proof.Proof.KeepB
import proofs.«147130_j78975858639084_1_alg».proof.Proof.Region8
import proofs.«147130_j78975858639084_1_alg».proof.Proof.KernelRead
import proofs.«147130_j78975858639084_1_alg».proof.Proof.Pad
import proofs.«147130_j78975858639084_1_alg».proof.Proof.Arrays
import Idealize.ShloMosaic.Lib.StableHlo.Run

set_option maxRecDepth 16384

noncomputable section

namespace Cert.KernelIdeal.Head

open Cert.KernelIdeal Cert.KernelIdeal.Gen Cert.KernelIdeal.Arrays Cert.KernelIdeal.Regions Cert.KernelIdeal.KeepB Cert.KernelIdeal.Pad
open Cert.KernelIdeal.Read (rowOf act4 layer4)
open Idealize.ShloMosaic Idealize.ShloMosaic.TcCoe Idealize.SL.Sem Idealize.ShloMosaic.StableHlo

-- the placements are read through their hit lemmas, never opened
attribute [local irreducible] Host.scatter

/-- The zero array the weights are placed into. -/
def zerosW : S128x128.Idx → EReal := broadcastInDim S128x128 ![] bcast_S_S128x128 (constant (F := Ideal) S_ .f32 0x00000000#32)
/-- The zero vector the bias is placed into. -/
def zerosB : S128.Idx → EReal := broadcastInDim S128 ![] bcast_S_S128 (constant (F := Ideal) S_ .f32 0x00000000#32)
/-- The first ten columns of a [50000,128] array. -/
def sliceOf (Y : S50000x128.Idx → EReal) : S50000x10.Idx → EReal :=
  extractStridedSlice S50000x10 ![0, 0] Y slices_S50000x128_S50000x10_0_0

theorem glue8_W (W : Valuation τ sig (Elt Ideal)) :
    after hostOps8 W (Proc.devRef .tc main_v105) = padW zerosW (W (Proc.devRef .tc main_arg12)) := by
  after_results_simp
  rfl
theorem glue8_b (W : Valuation τ sig (Elt Ideal)) :
    after hostOps8 W (Proc.devRef .tc main_v109) = rowOf (padB zerosB (W (Proc.devRef .tc main_arg13))) := by
  after_results_simp
  rfl
theorem glue9 (W : Valuation τ sig (Elt Ideal)) :
    after hostOps9 W (Proc.devRef .tc main_v111) = sliceOf (W (Proc.devRef .tc main_v110)) := by
  after_results_simp
  rfl

variable (m : (ℓ : Loc nD τ sig) → Buf (Elt Ideal) ℓ) (ρ : Dev nD → PrngReg)

/-- The classifier region's array at the boundary after it. -/
theorem head15 (c : Dev nD) : W15 m ρ c (Proc.devRef .tc main_v110)
    = headArr (act4 m ρ c) (padW zerosW (m ((c : Thread nD τ).loc main_arg12))) (rowOf (padB zerosB (m ((c : Thread nD τ).loc main_arg13)))) := by
  refine (W15_arr m ρ c 3).trans ((final8 (V14 m ρ) c).trans ?_)
  show headArr (W14 m ρ c (Proc.devRef .tc main_v102)) (after hostOps8 (W13 m ρ c) (Proc.devRef .tc main_v105))
      (after hostOps8 (W13 m ρ c) (Proc.devRef .tc main_v109)) = _
  rw [glue8_W, glue8_b, keep_v102_W14 m ρ c, layer4 m ρ c, keep_arg12_W13 m ρ c, keep_arg13_W13 m ρ c]

/-- At the last boundary the second result buffer holds the first ten columns of the classifier's array. -/
theorem result1 (c : Dev nD) : W16 m ρ c (Proc.devRef .tc main_v111)
    = sliceOf (headArr (act4 m ρ c) (padW zerosW (m ((c : Thread nD τ).loc main_arg12)))
        (rowOf (padB zerosB (m ((c : Thread nD τ).loc main_arg13))))) := by
  show after hostOps9 (W15 m ρ c) (Proc.devRef .tc main_v111) = _
  rw [glue9, head15 m ρ c]

end Cert.KernelIdeal.Head

end
-- ==== Proof.KernelStable.lean ====
/-
  What the kernel's first host stretch makes of the edge list.

  From the edge list [2,600000] the stretch makes the sources and the destinations (its two rows), dinv = deg^(-1/2) with deg
  the in-degree plus one, the per-edge factor dinv at the source times dinv at the destination, and the per-node factor
  dinv · dinv. These are the same operations, on the same shapes with the same dimension numbers, as the reference applies in
  each of its layers: read back, they are the shared functions of the edge list.
-/
import proofs.«147130_j78975858639084_1_alg».proof.Proof.Gen.KernelIdeal.Frame
import proofs.«147130_j78975858639084_1_alg».proof.Proof.Layer
import Idealize.ShloMosaic.Lib.StableHlo.Run

set_option maxRecDepth 16384

noncomputable section

namespace Cert.KernelIdeal.Stable

open Cert.KernelIdeal Cert.KernelIdeal.Gen
open Idealize.ShloMosaic Idealize.ShloMosaic.TcCoe Idealize.SL.Sem Idealize.ShloMosaic.StableHlo
open Cert.ReferenceIdeal.Layer (srcOf dstOf idxCol dinvOf normOf)

attribute [local irreducible] Host.gather Host.scatterAdd Host.rsqrt

variable {F : FTy → Type} [FloatOps F]
variable (m : (ℓ : Loc nD τ sig) → Buf (Elt F) ℓ) (ρ : Dev nD → PrngReg)

/-- The sources of the edges. -/
theorem src_eq (c : Dev nD) : W1 m ρ c (Proc.devRef .tc main_v1) = srcOf (m ((c : Thread nD τ).loc main_arg1)) := by
  show after hostOps0 (W0 m ρ c) (Proc.devRef .tc main_v1) = _
  after_results_simp
  rfl

/-- The destinations of the edges. -/
theorem dst_eq (c : Dev nD) : W1 m ρ c (Proc.devRef .tc main_v3) = dstOf (m ((c : Thread nD τ).loc main_arg1)) := by
  show after hostOps0 (W0 m ρ c) (Proc.devRef .tc main_v3) = _
  after_results_simp
  rfl

/-- The per-edge factor: dinv at the source times dinv at the destination. -/
theorem nrm_eq (c : Dev nD) : W1 m ρ c (Proc.devRef .tc main_v25)
    = normOf (dinvOf (dstOf (m ((c : Thread nD τ).loc main_arg1)))) (srcOf (m ((c : Thread nD τ).loc main_arg1)))
        (dstOf (m ((c : Thread nD τ).loc main_arg1))) := by
  show after hostOps0 (W0 m ρ c) (Proc.devRef .tc main_v25) = _
  after_results_simp
  rfl

/-- The per-node factor: dinv squared. -/
theorem dsq_eq (c : Dev nD) : W1 m ρ c (Proc.devRef .tc main_v26)
    = mulf (dinvOf (dstOf (m ((c : Thread nD τ).loc main_arg1)))) (dinvOf (dstOf (m ((c : Thread nD τ).loc main_arg1)))) := by
  show after hostOps0 (W0 m ρ c) (Proc.devRef .tc main_v26) = _
  after_results_simp
  rfl

end Cert.KernelIdeal.Stable

end
-- ==== Proof.RefOps.lean ====
/-
  The reference program as one straight line of host operations, and its run.

  The reference's @main is 234 statements and a return; six of them call the exponential linear unit, whose body calls a
  select twice. Written out with every call's body in place over that call's own buffers it is a line of 318 operations.
  The line is cut here where a layer of the network ends and where the printed program's windows end: a prelude (the two
  rows of the edge list), four graph-convolution layers of 69 operations each, and the two classifier heads of 19. Each
  printed window is a concatenation of whole pieces, so @main is the line run in order, and by the library's theorem for a
  straight line every weakly fair execution terminates with every buffer at the line's fold over the launch contents.
-/
import proofs.«147130_j78975858639084_1_alg».proof.ReferenceIdeal
import proofs.«147130_j78975858639084_1_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- A property of every operation of two lines holds of every operation of their concatenation. -/
theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

/-! ## The pieces -/

abbrev opsP : List (HloOp τ sig (Elt F)) :=
  [
    StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000 ]

theorem opsP_sub : (opsP : List (HloOp τ sig (Elt F))).Forall fun op => op.bufs ⊆ tcRefs τ sig :=
  ⟨unary_bufs_sub .., reshape_bufs_sub .., unary_bufs_sub .., reshape_bufs_sub ..⟩

abbrev opsL1 : List (HloOp τ sig (Elt F)) :=
  [
    StableHlo.binary main_arg0 main_arg2 main_v4 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_cst (constant S_ .f32 0x3F800000#32),
    StableHlo.unary main_cst main_v5 (broadcastInDim S600000 ![] bcast_S_S600000 : (⟨S_, .f32⟩ : BufTy).Contents (Elt F) → (⟨S600000, .f32⟩ : BufTy).Contents (Elt F)),
    StableHlo.nullary main_cst_0 (constant S_ .f32 0x00000000#32),
    StableHlo.unary main_cst_0 main_v6 (broadcastInDim S50000 ![] bcast_S_S50000 : (⟨S_, .f32⟩ : BufTy).Contents (Elt F) → (⟨S50000, .f32⟩ : BufTy).Contents (Elt F)),
    StableHlo.unary main_v3 main_v7 (broadcastInDim S600000x1 ![0] bcast_S600000_S600000x1_0 : (⟨S600000, .i32⟩ : BufTy).Contents (Elt F) → (⟨S600000x1, .i32⟩ : BufTy).Contents (Elt F)),
    StableHlo.ternary main_v6 main_v7 main_v5 main_v8 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    StableHlo.nullary main_cst_1 (constant S_ .f32 0x3F800000#32),
    StableHlo.unary main_cst_1 main_v9 (broadcastInDim S50000 ![] bcast_S_S50000 : (⟨S_, .f32⟩ : BufTy).Contents (Elt F) → (⟨S50000, .f32⟩ : BufTy).Contents (Elt F)),
    StableHlo.binary main_v8 main_v9 main_v10 (addf : (⟨S50000, .f32⟩ : BufTy).Contents (Elt F) → (⟨S50000, .f32⟩ : BufTy).Contents (Elt F) → (⟨S50000, .f32⟩ : BufTy).Contents (Elt F)),
    StableHlo.unary main_v10 main_v11 (Host.rsqrt : (⟨S50000, .f32⟩ : BufTy).Contents (Elt F) → (⟨S50000, .f32⟩ : BufTy).Contents (Elt F)),
    StableHlo.nullary main_c (constantI S_ 32 0#32),
    StableHlo.unary main_c main_v12 (broadcastInDim S600000 ![] bcast_S_S600000 : (⟨S_, .i32⟩ : BufTy).Contents (Elt F) → (⟨S600000, .i32⟩ : BufTy).Contents (Elt F)),
    StableHlo.binary main_v1 main_v12 main_v13 (cmpi .slt : (⟨S600000, .i32⟩ : BufTy).Contents (Elt F) → (⟨S600000, .i32⟩ : BufTy).Contents (Elt F) → (⟨S600000, .i1⟩ : BufTy).Contents (Elt F)),
    StableHlo.nullary main_c_2 (constantI S_ 32 50000#32),
    StableHlo.unary main_c_2 main_v14 (broadcastInDim S600000 ![] bcast_S_S600000 : (⟨S_, .i32⟩ : BufTy).Contents (Elt F) → (⟨S600000, .i32⟩ : BufTy).Contents (Elt F)),
    StableHlo.binary main_v1 main_v14 main_v15 (addi : (⟨S600000, .i32⟩ : BufTy).Contents (Elt F) → (⟨S600000, .i32⟩ : BufTy).Contents (Elt F) → (⟨S600000, .i32⟩ : BufTy).Contents (Elt F)),
    StableHlo.ternary main_v13 main_v15 main_v1 main_v16 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v16 main_v17 (broadcastInDim S600000x1 ![0] bcast_S600000_S600000x1_0 : (⟨S600000, .i32⟩ : BufTy).Contents (Elt F) → (⟨S600000x1, .i32⟩ : BufTy).Contents (Elt F)),
    StableHlo.binary main_v11 main_v17 main_v18 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    StableHlo.nullary main_c_3 (constantI S_ 32 0#32),
    StableHlo.unary main_c_3 main_v19 (broadcastInDim S600000 ![] bcast_S_S600000 : (⟨S_, .i32⟩ : BufTy).Contents (Elt F) → (⟨S600000, .i32⟩ : BufTy).Contents (Elt F)),
    StableHlo.binary main_v3 main_v19 main_v20 (cmpi .slt : (⟨S600000, .i32⟩ : BufTy).Contents (Elt F) → (⟨S600000, .i32⟩ : BufTy).Contents (Elt F) → (⟨S600000, .i1⟩ : BufTy).Contents (Elt F)),
    StableHlo.nullary main_c_4 (constantI S_ 32 50000#32),
    StableHlo.unary main_c_4 main_v21 (broadcastInDim S600000 ![] bcast_S_S600000 : (⟨S_, .i32⟩ : BufTy).Contents (Elt F) → (⟨S600000, .i32⟩ : BufTy).Contents (Elt F)),
    StableHlo.binary main_v3 main_v21 main_v22 (addi : (⟨S600000, .i32⟩ : BufTy).Contents (Elt F) → (⟨S600000, .i32⟩ : BufTy).Contents (Elt F) → (⟨S600000, .i32⟩ : BufTy).Contents (Elt F)),
    StableHlo.ternary main_v20 main_v22 main_v3 main_v23 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v23 main_v24 (broadcastInDim S600000x1 ![0] bcast_S600000_S600000x1_0 : (⟨S600000, .i32⟩ : BufTy).Contents (Elt F) → (⟨S600000x1, .i32⟩ : BufTy).Contents (Elt F)),
    StableHlo.binary main_v11 main_v24 main_v25 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    StableHlo.binary main_v18 main_v25 main_v26 (mulf : (⟨S600000, .f32⟩ : BufTy).Contents (Elt F) → (⟨S600000, .f32⟩ : BufTy).Contents (Elt F) → (⟨S600000, .f32⟩ : BufTy).Contents (Elt F)),
    StableHlo.nullary main_c_5 (constantI S_ 32 0#32),
    StableHlo.unary main_c_5 main_v27 (broadcastInDim S600000 ![] bcast_S_S600000 : (⟨S_, .i32⟩ : BufTy).Contents (Elt F) → (⟨S600000, .i32⟩ : BufTy).Contents (Elt F)),
    StableHlo.binary main_v1 main_v27 main_v28 (cmpi .slt : (⟨S600000, .i32⟩ : BufTy).Contents (Elt F) → (⟨S600000, .i32⟩ : BufTy).Contents (Elt F) → (⟨S600000, .i1⟩ : BufTy).Contents (Elt F)),
    StableHlo.nullary main_c_6 (constantI S_ 32 50000#32),
    StableHlo.unary main_c_6 main_v29 (broadcastInDim S600000 ![] bcast_S_S600000 : (⟨S_, .i32⟩ : BufTy).Contents (Elt F) → (⟨S600000, .i32⟩ : BufTy).Contents (Elt F)),
    StableHlo.binary main_v1 main_v29 main_v30 (addi : (⟨S600000, .i32⟩ : BufTy).Contents (Elt F) → (⟨S600000, .i32⟩ : BufTy).Contents (Elt F) → (⟨S600000, .i32⟩ : BufTy).Contents (Elt F)),
    StableHlo.ternary main_v28 main_v30 main_v1 main_v31 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v31 main_v32 (broadcastInDim S600000x1 ![0] bcast_S600000_S600000x1_0 : (⟨S600000, .i32⟩ : BufTy).Contents (Elt F) → (⟨S600000x1, .i32⟩ : BufTy).Contents (Elt F)),
    StableHlo.binary main_v4 main_v32 main_v33 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.unary main_v26 main_v34 (broadcastInDim S600000x1 ![0] bcast_S600000_S600000x1_0 : (⟨S600000, .f32⟩ : BufTy).Contents (Elt F) → (⟨S600000x1, .f32⟩ : BufTy).Contents (Elt F)),
    StableHlo.unary main_v34 main_v35 (broadcastInDim S600000x128 ![0, 1] bcast_S600000x1_S600000x128_0_1 : (⟨S600000x1, .f32⟩ : BufTy).Contents (Elt F) → (⟨S600000x128, .f32⟩ : BufTy).Contents (Elt F)),
    StableHlo.binary main_v33 main_v35 main_v36 (mulf : (⟨S600000x128, .f32⟩ : BufTy).Contents (Elt F) → (⟨S600000x128, .f32⟩ : BufTy).Contents (Elt F) → (⟨S600000x128, .f32⟩ : BufTy).Contents (Elt F)),
    StableHlo.nullary main_cst_7 (constant S_ .f32 0x00000000#32),
    StableHlo.unary main_cst_7 main_v37 (broadcastInDim S50000x128 ![] bcast_S_S50000x128 : (⟨S_, .f32⟩ : BufTy).Contents (Elt F) → (⟨S50000x128, .f32⟩ : BufTy).Contents (Elt F)),
    StableHlo.unary main_v3 main_v38 (broadcastInDim S600000x1 ![0] bcast_S600000_S600000x1_0 : (⟨S600000, .i32⟩ : BufTy).Contents (Elt F) → (⟨S600000x1, .i32⟩ : BufTy).Contents (Elt F)),
    StableHlo.ternary main_v37 main_v38 main_v36 main_v39 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v11 main_v11 main_v40 (mulf : (⟨S50000, .f32⟩ : BufTy).Contents (Elt F) → (⟨S50000, .f32⟩ : BufTy).Contents (Elt F) → (⟨S50000, .f32⟩ : BufTy).Contents (Elt F)),
    StableHlo.unary main_v40 main_v41 (broadcastInDim S50000x1 ![0] bcast_S50000_S50000x1_0 : (⟨S50000, .f32⟩ : BufTy).Contents (Elt F) → (⟨S50000x1, .f32⟩ : BufTy).Contents (Elt F)),
    StableHlo.unary main_v41 main_v42 (broadcastInDim S50000x128 ![0, 1] bcast_S50000x1_S50000x128_0_1 : (⟨S50000x1, .f32⟩ : BufTy).Contents (Elt F) → (⟨S50000x128, .f32⟩ : BufTy).Contents (Elt F)),
    StableHlo.binary main_v4 main_v42 main_v43 (mulf : (⟨S50000x128, .f32⟩ : BufTy).Contents (Elt F) → (⟨S50000x128, .f32⟩ : BufTy).Contents (Elt F) → (⟨S50000x128, .f32⟩ : BufTy).Contents (Elt F)),
    StableHlo.binary main_v39 main_v43 main_v44 (addf : (⟨S50000x128, .f32⟩ : BufTy).Contents (Elt F) → (⟨S50000x128, .f32⟩ : BufTy).Contents (Elt F) → (⟨S50000x128, .f32⟩ : BufTy).Contents (Elt F)),
    StableHlo.unary main_arg3 main_v45 (broadcastInDim S1x128 ![1] bcast_S128_S1x128_1 : (⟨S128, .f32⟩ : BufTy).Contents (Elt F) → (⟨S1x128, .f32⟩ : BufTy).Contents (Elt F)),
    StableHlo.unary main_v45 main_v46 (broadcastInDim S50000x128 ![0, 1] bcast_S1x128_S50000x128_0_1 : (⟨S1x128, .f32⟩ : BufTy).Contents (Elt F) → (⟨S50000x128, .f32⟩ : BufTy).Contents (Elt F)),
    StableHlo.binary main_v44 main_v46 main_v47 (addf : (⟨S50000x128, .f32⟩ : BufTy).Contents (Elt F) → (⟨S50000x128, .f32⟩ : BufTy).Contents (Elt F) → (⟨S50000x128, .f32⟩ : BufTy).Contents (Elt F)),
    StableHlo.TRef.nullary main_call0.cst (constant S_ .f32 0x00000000#32),
    StableHlo.TRef.unary main_call0.cst main_call0.v0 (broadcastInDim S50000x128 ![] bcast_S_S50000x128),
    StableHlo.TRef.binary (StableHlo.TRef.of main_v47 : StableHlo.TRef sig ⟨S50000x128, .f32⟩) main_call0.v0 main_call0.v1 (cmpf .ogt),
    StableHlo.TRef.nullary main_call0.cst_0 (constant S_ .f32 0x00000000#32),
    StableHlo.TRef.unary main_call0.cst_0 main_call0.v2 (broadcastInDim S50000x128 ![] bcast_S_S50000x128),
    StableHlo.TRef.binary (StableHlo.TRef.of main_v47 : StableHlo.TRef sig ⟨S50000x128, .f32⟩) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S50000x128 ![] bcast_S_S50000x128),
    StableHlo.TRef.ternary main_call0.v3 main_call0.call0.v1 (StableHlo.TRef.of main_v47 : StableHlo.TRef sig ⟨S50000x128, .f32⟩) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S50000x128 ![] bcast_S_S50000x128),
    StableHlo.TRef.binary main_call0.v6 main_call0.v5 main_call0.v7 mulf,
    StableHlo.TRef.ternary main_call0.v1 (StableHlo.TRef.of main_v47 : StableHlo.TRef sig ⟨S50000x128, .f32⟩) main_call0.v7 main_call0.call1.v0 select ]

theorem opsL1_sub : (opsL1 : List (HloOp τ sig (Elt F))).Forall fun op => op.bufs ⊆ tcRefs τ sig :=
  ⟨binary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub .., binary_bufs_sub .., unary_bufs_sub ..,
    unary_bufs_sub .., binary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..⟩

abbrev opsL2a : List (HloOp τ sig (Elt F)) :=
  [
    StableHlo.binary main_v48 main_arg4 main_v49 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

theorem opsL2a_sub : (opsL2a : List (HloOp τ sig (Elt F))).Forall fun op => op.bufs ⊆ tcRefs τ sig :=
  binary_bufs_sub ..

abbrev opsL2b : List (HloOp τ sig (Elt F)) :=
  [
    StableHlo.nullary main_cst_8 (constant S_ .f32 0x3F800000#32),
    StableHlo.unary main_cst_8 main_v50 (broadcastInDim S600000 ![] bcast_S_S600000 : (⟨S_, .f32⟩ : BufTy).Contents (Elt F) → (⟨S600000, .f32⟩ : BufTy).Contents (Elt F)),
    StableHlo.nullary main_cst_9 (constant S_ .f32 0x00000000#32),
    StableHlo.unary main_cst_9 main_v51 (broadcastInDim S50000 ![] bcast_S_S50000 : (⟨S_, .f32⟩ : BufTy).Contents (Elt F) → (⟨S50000, .f32⟩ : BufTy).Contents (Elt F)),
    StableHlo.unary main_v3 main_v52 (broadcastInDim S600000x1 ![0] bcast_S600000_S600000x1_0 : (⟨S600000, .i32⟩ : BufTy).Contents (Elt F) → (⟨S600000x1, .i32⟩ : BufTy).Contents (Elt F)),
    StableHlo.ternary main_v51 main_v52 main_v50 main_v53 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    StableHlo.nullary main_cst_10 (constant S_ .f32 0x3F800000#32),
    StableHlo.unary main_cst_10 main_v54 (broadcastInDim S50000 ![] bcast_S_S50000 : (⟨S_, .f32⟩ : BufTy).Contents (Elt F) → (⟨S50000, .f32⟩ : BufTy).Contents (Elt F)),
    StableHlo.binary main_v53 main_v54 main_v55 (addf : (⟨S50000, .f32⟩ : BufTy).Contents (Elt F) → (⟨S50000, .f32⟩ : BufTy).Contents (Elt F) → (⟨S50000, .f32⟩ : BufTy).Contents (Elt F)),
    StableHlo.unary main_v55 main_v56 (Host.rsqrt : (⟨S50000, .f32⟩ : BufTy).Contents (Elt F) → (⟨S50000, .f32⟩ : BufTy).Contents (Elt F)),
    StableHlo.nullary main_c_11 (constantI S_ 32 0#32),
    StableHlo.unary main_c_11 main_v57 (broadcastInDim S600000 ![] bcast_S_S600000 : (⟨S_, .i32⟩ : BufTy).Contents (Elt F) → (⟨S600000, .i32⟩ : BufTy).Contents (Elt F)),
    StableHlo.binary main_v1 main_v57 main_v58 (cmpi .slt : (⟨S600000, .i32⟩ : BufTy).Contents (Elt F) → (⟨S600000, .i32⟩ : BufTy).Contents (Elt F) → (⟨S600000, .i1⟩ : BufTy).Contents (Elt F)),
    StableHlo.nullary main_c_12 (constantI S_ 32 50000#32),
    StableHlo.unary main_c_12 main_v59 (broadcastInDim S600000 ![] bcast_S_S600000 : (⟨S_, .i32⟩ : BufTy).Contents (Elt F) → (⟨S600000, .i32⟩ : BufTy).Contents (Elt F)),
    StableHlo.binary main_v1 main_v59 main_v60 (addi : (⟨S600000, .i32⟩ : BufTy).Contents (Elt F) → (⟨S600000, .i32⟩ : BufTy).Contents (Elt F) → (⟨S600000, .i32⟩ : BufTy).Contents (Elt F)),
    StableHlo.ternary main_v58 main_v60 main_v1 main_v61 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v61 main_v62 (broadcastInDim S600000x1 ![0] bcast_S600000_S600000x1_0 : (⟨S600000, .i32⟩ : BufTy).Contents (Elt F) → (⟨S600000x1, .i32⟩ : BufTy).Contents (Elt F)),
    StableHlo.binary main_v56 main_v62 main_v63 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    StableHlo.nullary main_c_13 (constantI S_ 32 0#32),
    StableHlo.unary main_c_13 main_v64 (broadcastInDim S600000 ![] bcast_S_S600000 : (⟨S_, .i32⟩ : BufTy).Contents (Elt F) → (⟨S600000, .i32⟩ : BufTy).Contents (Elt F)),
    StableHlo.binary main_v3 main_v64 main_v65 (cmpi .slt : (⟨S600000, .i32⟩ : BufTy).Contents (Elt F) → (⟨S600000, .i32⟩ : BufTy).Contents (Elt F) → (⟨S600000, .i1⟩ : BufTy).Contents (Elt F)),
    StableHlo.nullary main_c_14 (constantI S_ 32 50000#32),
    StableHlo.unary main_c_14 main_v66 (broadcastInDim S600000 ![] bcast_S_S600000 : (⟨S_, .i32⟩ : BufTy).Contents (Elt F) → (⟨S600000, .i32⟩ : BufTy).Contents (Elt F)),
    StableHlo.binary main_v3 main_v66 main_v67 (addi : (⟨S600000, .i32⟩ : BufTy).Contents (Elt F) → (⟨S600000, .i32⟩ : BufTy).Contents (Elt F) → (⟨S600000, .i32⟩ : BufTy).Contents (Elt F)),
    StableHlo.ternary main_v65 main_v67 main_v3 main_v68 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v68 main_v69 (broadcastInDim S600000x1 ![0] bcast_S600000_S600000x1_0 : (⟨S600000, .i32⟩ : BufTy).Contents (Elt F) → (⟨S600000x1, .i32⟩ : BufTy).Contents (Elt F)),
    StableHlo.binary main_v56 main_v69 main_v70 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    StableHlo.binary main_v63 main_v70 main_v71 (mulf : (⟨S600000, .f32⟩ : BufTy).Contents (Elt F) → (⟨S600000, .f32⟩ : BufTy).Contents (Elt F) → (⟨S600000, .f32⟩ : BufTy).Contents (Elt F)),
    StableHlo.nullary main_c_15 (constantI S_ 32 0#32),
    StableHlo.unary main_c_15 main_v72 (broadcastInDim S600000 ![] bcast_S_S600000 : (⟨S_, .i32⟩ : BufTy).Contents (Elt F) → (⟨S600000, .i32⟩ : BufTy).Contents (Elt F)),
    StableHlo.binary main_v1 main_v72 main_v73 (cmpi .slt : (⟨S600000, .i32⟩ : BufTy).Contents (Elt F) → (⟨S600000, .i32⟩ : BufTy).Contents (Elt F) → (⟨S600000, .i1⟩ : BufTy).Contents (Elt F)),
    StableHlo.nullary main_c_16 (constantI S_ 32 50000#32),
    StableHlo.unary main_c_16 main_v74 (broadcastInDim S600000 ![] bcast_S_S600000 : (⟨S_, .i32⟩ : BufTy).Contents (Elt F) → (⟨S600000, .i32⟩ : BufTy).Contents (Elt F)),
    StableHlo.binary main_v1 main_v74 main_v75 (addi : (⟨S600000, .i32⟩ : BufTy).Contents (Elt F) → (⟨S600000, .i32⟩ : BufTy).Contents (Elt F) → (⟨S600000, .i32⟩ : BufTy).Contents (Elt F)),
    StableHlo.ternary main_v73 main_v75 main_v1 main_v76 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v76 main_v77 (broadcastInDim S600000x1 ![0] bcast_S600000_S600000x1_0 : (⟨S600000, .i32⟩ : BufTy).Contents (Elt F) → (⟨S600000x1, .i32⟩ : BufTy).Contents (Elt F)),
    StableHlo.binary main_v49 main_v77 main_v78 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.unary main_v71 main_v79 (broadcastInDim S600000x1 ![0] bcast_S600000_S600000x1_0 : (⟨S600000, .f32⟩ : BufTy).Contents (Elt F) → (⟨S600000x1, .f32⟩ : BufTy).Contents (Elt F)),
    StableHlo.unary main_v79 main_v80 (broadcastInDim S600000x128 ![0, 1] bcast_S600000x1_S600000x128_0_1 : (⟨S600000x1, .f32⟩ : BufTy).Contents (Elt F) → (⟨S600000x128, .f32⟩ : BufTy).Contents (Elt F)),
    StableHlo.binary main_v78 main_v80 main_v81 (mulf : (⟨S600000x128, .f32⟩ : BufTy).Contents (Elt F) → (⟨S600000x128, .f32⟩ : BufTy).Contents (Elt F) → (⟨S600000x128, .f32⟩ : BufTy).Contents (Elt F)),
    StableHlo.nullary main_cst_17 (constant S_ .f32 0x00000000#32),
    StableHlo.unary main_cst_17 main_v82 (broadcastInDim S50000x128 ![] bcast_S_S50000x128 : (⟨S_, .f32⟩ : BufTy).Contents (Elt F) → (⟨S50000x128, .f32⟩ : BufTy).Contents (Elt F)),
    StableHlo.unary main_v3 main_v83 (broadcastInDim S600000x1 ![0] bcast_S600000_S600000x1_0 : (⟨S600000, .i32⟩ : BufTy).Contents (Elt F) → (⟨S600000x1, .i32⟩ : BufTy).Contents (Elt F)),
    StableHlo.ternary main_v82 main_v83 main_v81 main_v84 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v56 main_v56 main_v85 (mulf : (⟨S50000, .f32⟩ : BufTy).Contents (Elt F) → (⟨S50000, .f32⟩ : BufTy).Contents (Elt F) → (⟨S50000, .f32⟩ : BufTy).Contents (Elt F)),
    StableHlo.unary main_v85 main_v86 (broadcastInDim S50000x1 ![0] bcast_S50000_S50000x1_0 : (⟨S50000, .f32⟩ : BufTy).Contents (Elt F) → (⟨S50000x1, .f32⟩ : BufTy).Contents (Elt F)),
    StableHlo.unary main_v86 main_v87 (broadcastInDim S50000x128 ![0, 1] bcast_S50000x1_S50000x128_0_1 : (⟨S50000x1, .f32⟩ : BufTy).Contents (Elt F) → (⟨S50000x128, .f32⟩ : BufTy).Contents (Elt F)),
    StableHlo.binary main_v49 main_v87 main_v88 (mulf : (⟨S50000x128, .f32⟩ : BufTy).Contents (Elt F) → (⟨S50000x128, .f32⟩ : BufTy).Contents (Elt F) → (⟨S50000x128, .f32⟩ : BufTy).Contents (Elt F)),
    StableHlo.binary main_v84 main_v88 main_v89 (addf : (⟨S50000x128, .f32⟩ : BufTy).Contents (Elt F) → (⟨S50000x128, .f32⟩ : BufTy).Contents (Elt F) → (⟨S50000x128, .f32⟩ : BufTy).Contents (Elt F)),
    StableHlo.unary main_arg5 main_v90 (broadcastInDim S1x128 ![1] bcast_S128_S1x128_1 : (⟨S128, .f32⟩ : BufTy).Contents (Elt F) → (⟨S1x128, .f32⟩ : BufTy).Contents (Elt F)),
    StableHlo.unary main_v90 main_v91 (broadcastInDim S50000x128 ![0, 1] bcast_S1x128_S50000x128_0_1 : (⟨S1x128, .f32⟩ : BufTy).Contents (Elt F) → (⟨S50000x128, .f32⟩ : BufTy).Contents (Elt F)),
    StableHlo.binary main_v89 main_v91 main_v92 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (StableHlo.TRef.of main_v92 : StableHlo.TRef sig ⟨S50000x128, .f32⟩) main_call1.v0 main_call1.v1 (cmpf .ogt),
    StableHlo.TRef.nullary main_call1.cst_0 (constant S_ .f32 0x00000000#32),
    StableHlo.TRef.unary main_call1.cst_0 main_call1.v2 (broadcastInDim S50000x128 ![] bcast_S_S50000x128),
    StableHlo.TRef.binary (StableHlo.TRef.of main_v92 : StableHlo.TRef sig ⟨S50000x128, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S50000x128 ![] bcast_S_S50000x128),
    StableHlo.TRef.ternary main_call1.v3 main_call1.call0.v1 (StableHlo.TRef.of main_v92 : StableHlo.TRef sig ⟨S50000x128, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S50000x128 ![] bcast_S_S50000x128),
    StableHlo.TRef.binary main_call1.v6 main_call1.v5 main_call1.v7 mulf,
    StableHlo.TRef.ternary main_call1.v1 (StableHlo.TRef.of main_v92 : StableHlo.TRef sig ⟨S50000x128, .f32⟩) main_call1.v7 main_call1.call1.v0 select ]

theorem opsL2b_sub : (opsL2b : List (HloOp τ sig (Elt F))).Forall fun op => op.bufs ⊆ tcRefs τ sig :=
  ⟨nullary_bufs_sub .., unary_bufs_sub .., nullary_bufs_sub .., unary_bufs_sub .., unary_bufs_sub .., ternary_bufs_sub ..,
    nullary_bufs_sub .., unary_bufs_sub .., binary_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., unary_bufs_sub .., binary_bufs_sub .., nullary_bufs_sub ..,
    unary_bufs_sub .., unary_bufs_sub .., ternary_bufs_sub .., binary_bufs_sub .., unary_bufs_sub .., unary_bufs_sub ..,
    binary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    binary_bufs_sub .., ternary_bufs_sub ..⟩

abbrev opsL3a : List (HloOp τ sig (Elt F)) :=
  [
    StableHlo.binary main_v93 main_arg6 main_v94 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_cst_18 (constant S_ .f32 0x3F800000#32),
    StableHlo.unary main_cst_18 main_v95 (broadcastInDim S600000 ![] bcast_S_S600000 : (⟨S_, .f32⟩ : BufTy).Contents (Elt F) → (⟨S600000, .f32⟩ : BufTy).Contents (Elt F)),
    StableHlo.nullary main_cst_19 (constant S_ .f32 0x00000000#32),
    StableHlo.unary main_cst_19 main_v96 (broadcastInDim S50000 ![] bcast_S_S50000 : (⟨S_, .f32⟩ : BufTy).Contents (Elt F) → (⟨S50000, .f32⟩ : BufTy).Contents (Elt F)),
    StableHlo.unary main_v3 main_v97 (broadcastInDim S600000x1 ![0] bcast_S600000_S600000x1_0 : (⟨S600000, .i32⟩ : BufTy).Contents (Elt F) → (⟨S600000x1, .i32⟩ : BufTy).Contents (Elt F)) ]

theorem opsL3a_sub : (opsL3a : List (HloOp τ sig (Elt F))).Forall fun op => op.bufs ⊆ tcRefs τ sig :=
  ⟨binary_bufs_sub .., nullary_bufs_sub .., unary_bufs_sub .., nullary_bufs_sub .., unary_bufs_sub .., unary_bufs_sub ..⟩

abbrev opsL3b : List (HloOp τ sig (Elt F)) :=
  [
    StableHlo.ternary main_v96 main_v97 main_v95 main_v98 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    StableHlo.nullary main_cst_20 (constant S_ .f32 0x3F800000#32),
    StableHlo.unary main_cst_20 main_v99 (broadcastInDim S50000 ![] bcast_S_S50000 : (⟨S_, .f32⟩ : BufTy).Contents (Elt F) → (⟨S50000, .f32⟩ : BufTy).Contents (Elt F)),
    StableHlo.binary main_v98 main_v99 main_v100 (addf : (⟨S50000, .f32⟩ : BufTy).Contents (Elt F) → (⟨S50000, .f32⟩ : BufTy).Contents (Elt F) → (⟨S50000, .f32⟩ : BufTy).Contents (Elt F)),
    StableHlo.unary main_v100 main_v101 (Host.rsqrt : (⟨S50000, .f32⟩ : BufTy).Contents (Elt F) → (⟨S50000, .f32⟩ : BufTy).Contents (Elt F)),
    StableHlo.nullary main_c_21 (constantI S_ 32 0#32),
    StableHlo.unary main_c_21 main_v102 (broadcastInDim S600000 ![] bcast_S_S600000 : (⟨S_, .i32⟩ : BufTy).Contents (Elt F) → (⟨S600000, .i32⟩ : BufTy).Contents (Elt F)),
    StableHlo.binary main_v1 main_v102 main_v103 (cmpi .slt : (⟨S600000, .i32⟩ : BufTy).Contents (Elt F) → (⟨S600000, .i32⟩ : BufTy).Contents (Elt F) → (⟨S600000, .i1⟩ : BufTy).Contents (Elt F)),
    StableHlo.nullary main_c_22 (constantI S_ 32 50000#32),
    StableHlo.unary main_c_22 main_v104 (broadcastInDim S600000 ![] bcast_S_S600000 : (⟨S_, .i32⟩ : BufTy).Contents (Elt F) → (⟨S600000, .i32⟩ : BufTy).Contents (Elt F)),
    StableHlo.binary main_v1 main_v104 main_v105 (addi : (⟨S600000, .i32⟩ : BufTy).Contents (Elt F) → (⟨S600000, .i32⟩ : BufTy).Contents (Elt F) → (⟨S600000, .i32⟩ : BufTy).Contents (Elt F)),
    StableHlo.ternary main_v103 main_v105 main_v1 main_v106 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v106 main_v107 (broadcastInDim S600000x1 ![0] bcast_S600000_S600000x1_0 : (⟨S600000, .i32⟩ : BufTy).Contents (Elt F) → (⟨S600000x1, .i32⟩ : BufTy).Contents (Elt F)),
    StableHlo.binary main_v101 main_v107 main_v108 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    StableHlo.nullary main_c_23 (constantI S_ 32 0#32),
    StableHlo.unary main_c_23 main_v109 (broadcastInDim S600000 ![] bcast_S_S600000 : (⟨S_, .i32⟩ : BufTy).Contents (Elt F) → (⟨S600000, .i32⟩ : BufTy).Contents (Elt F)),
    StableHlo.binary main_v3 main_v109 main_v110 (cmpi .slt : (⟨S600000, .i32⟩ : BufTy).Contents (Elt F) → (⟨S600000, .i32⟩ : BufTy).Contents (Elt F) → (⟨S600000, .i1⟩ : BufTy).Contents (Elt F)),
    StableHlo.nullary main_c_24 (constantI S_ 32 50000#32),
    StableHlo.unary main_c_24 main_v111 (broadcastInDim S600000 ![] bcast_S_S600000 : (⟨S_, .i32⟩ : BufTy).Contents (Elt F) → (⟨S600000, .i32⟩ : BufTy).Contents (Elt F)),
    StableHlo.binary main_v3 main_v111 main_v112 (addi : (⟨S600000, .i32⟩ : BufTy).Contents (Elt F) → (⟨S600000, .i32⟩ : BufTy).Contents (Elt F) → (⟨S600000, .i32⟩ : BufTy).Contents (Elt F)),
    StableHlo.ternary main_v110 main_v112 main_v3 main_v113 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v113 main_v114 (broadcastInDim S600000x1 ![0] bcast_S600000_S600000x1_0 : (⟨S600000, .i32⟩ : BufTy).Contents (Elt F) → (⟨S600000x1, .i32⟩ : BufTy).Contents (Elt F)),
    StableHlo.binary main_v101 main_v114 main_v115 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    StableHlo.binary main_v108 main_v115 main_v116 (mulf : (⟨S600000, .f32⟩ : BufTy).Contents (Elt F) → (⟨S600000, .f32⟩ : BufTy).Contents (Elt F) → (⟨S600000, .f32⟩ : BufTy).Contents (Elt F)),
    StableHlo.nullary main_c_25 (constantI S_ 32 0#32),
    StableHlo.unary main_c_25 main_v117 (broadcastInDim S600000 ![] bcast_S_S600000 : (⟨S_, .i32⟩ : BufTy).Contents (Elt F) → (⟨S600000, .i32⟩ : BufTy).Contents (Elt F)),
    StableHlo.binary main_v1 main_v117 main_v118 (cmpi .slt : (⟨S600000, .i32⟩ : BufTy).Contents (Elt F) → (⟨S600000, .i32⟩ : BufTy).Contents (Elt F) → (⟨S600000, .i1⟩ : BufTy).Contents (Elt F)),
    StableHlo.nullary main_c_26 (constantI S_ 32 50000#32),
    StableHlo.unary main_c_26 main_v119 (broadcastInDim S600000 ![] bcast_S_S600000 : (⟨S_, .i32⟩ : BufTy).Contents (Elt F) → (⟨S600000, .i32⟩ : BufTy).Contents (Elt F)),
    StableHlo.binary main_v1 main_v119 main_v120 (addi : (⟨S600000, .i32⟩ : BufTy).Contents (Elt F) → (⟨S600000, .i32⟩ : BufTy).Contents (Elt F) → (⟨S600000, .i32⟩ : BufTy).Contents (Elt F)),
    StableHlo.ternary main_v118 main_v120 main_v1 main_v121 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v121 main_v122 (broadcastInDim S600000x1 ![0] bcast_S600000_S600000x1_0 : (⟨S600000, .i32⟩ : BufTy).Contents (Elt F) → (⟨S600000x1, .i32⟩ : BufTy).Contents (Elt F)),
    StableHlo.binary main_v94 main_v122 main_v123 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.unary main_v116 main_v124 (broadcastInDim S600000x1 ![0] bcast_S600000_S600000x1_0 : (⟨S600000, .f32⟩ : BufTy).Contents (Elt F) → (⟨S600000x1, .f32⟩ : BufTy).Contents (Elt F)),
    StableHlo.unary main_v124 main_v125 (broadcastInDim S600000x128 ![0, 1] bcast_S600000x1_S600000x128_0_1 : (⟨S600000x1, .f32⟩ : BufTy).Contents (Elt F) → (⟨S600000x128, .f32⟩ : BufTy).Contents (Elt F)),
    StableHlo.binary main_v123 main_v125 main_v126 (mulf : (⟨S600000x128, .f32⟩ : BufTy).Contents (Elt F) → (⟨S600000x128, .f32⟩ : BufTy).Contents (Elt F) → (⟨S600000x128, .f32⟩ : BufTy).Contents (Elt F)),
    StableHlo.nullary main_cst_27 (constant S_ .f32 0x00000000#32),
    StableHlo.unary main_cst_27 main_v127 (broadcastInDim S50000x128 ![] bcast_S_S50000x128 : (⟨S_, .f32⟩ : BufTy).Contents (Elt F) → (⟨S50000x128, .f32⟩ : BufTy).Contents (Elt F)),
    StableHlo.unary main_v3 main_v128 (broadcastInDim S600000x1 ![0] bcast_S600000_S600000x1_0 : (⟨S600000, .i32⟩ : BufTy).Contents (Elt F) → (⟨S600000x1, .i32⟩ : BufTy).Contents (Elt F)),
    StableHlo.ternary main_v127 main_v128 main_v126 main_v129 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v101 main_v101 main_v130 (mulf : (⟨S50000, .f32⟩ : BufTy).Contents (Elt F) → (⟨S50000, .f32⟩ : BufTy).Contents (Elt F) → (⟨S50000, .f32⟩ : BufTy).Contents (Elt F)),
    StableHlo.unary main_v130 main_v131 (broadcastInDim S50000x1 ![0] bcast_S50000_S50000x1_0 : (⟨S50000, .f32⟩ : BufTy).Contents (Elt F) → (⟨S50000x1, .f32⟩ : BufTy).Contents (Elt F)),
    StableHlo.unary main_v131 main_v132 (broadcastInDim S50000x128 ![0, 1] bcast_S50000x1_S50000x128_0_1 : (⟨S50000x1, .f32⟩ : BufTy).Contents (Elt F) → (⟨S50000x128, .f32⟩ : BufTy).Contents (Elt F)),
    StableHlo.binary main_v94 main_v132 main_v133 (mulf : (⟨S50000x128, .f32⟩ : BufTy).Contents (Elt F) → (⟨S50000x128, .f32⟩ : BufTy).Contents (Elt F) → (⟨S50000x128, .f32⟩ : BufTy).Contents (Elt F)),
    StableHlo.binary main_v129 main_v133 main_v134 (addf : (⟨S50000x128, .f32⟩ : BufTy).Contents (Elt F) → (⟨S50000x128, .f32⟩ : BufTy).Contents (Elt F) → (⟨S50000x128, .f32⟩ : BufTy).Contents (Elt F)),
    StableHlo.unary main_arg7 main_v135 (broadcastInDim S1x128 ![1] bcast_S128_S1x128_1 : (⟨S128, .f32⟩ : BufTy).Contents (Elt F) → (⟨S1x128, .f32⟩ : BufTy).Contents (Elt F)),
    StableHlo.unary main_v135 main_v136 (broadcastInDim S50000x128 ![0, 1] bcast_S1x128_S50000x128_0_1 : (⟨S1x128, .f32⟩ : BufTy).Contents (Elt F) → (⟨S50000x128, .f32⟩ : BufTy).Contents (Elt F)),
    StableHlo.binary main_v134 main_v136 main_v137 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (StableHlo.TRef.of main_v137 : StableHlo.TRef sig ⟨S50000x128, .f32⟩) main_call2.v0 main_call2.v1 (cmpf .ogt),
    StableHlo.TRef.nullary main_call2.cst_0 (constant S_ .f32 0x00000000#32),
    StableHlo.TRef.unary main_call2.cst_0 main_call2.v2 (broadcastInDim S50000x128 ![] bcast_S_S50000x128),
    StableHlo.TRef.binary (StableHlo.TRef.of main_v137 : StableHlo.TRef sig ⟨S50000x128, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S50000x128 ![] bcast_S_S50000x128),
    StableHlo.TRef.ternary main_call2.v3 main_call2.call0.v1 (StableHlo.TRef.of main_v137 : StableHlo.TRef sig ⟨S50000x128, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S50000x128 ![] bcast_S_S50000x128),
    StableHlo.TRef.binary main_call2.v6 main_call2.v5 main_call2.v7 mulf,
    StableHlo.TRef.ternary main_call2.v1 (StableHlo.TRef.of main_v137 : StableHlo.TRef sig ⟨S50000x128, .f32⟩) main_call2.v7 main_call2.call1.v0 select ]

theorem opsL3b_sub : (opsL3b : List (HloOp τ sig (Elt F))).Forall fun op => op.bufs ⊆ tcRefs τ sig :=
  ⟨ternary_bufs_sub .., nullary_bufs_sub .., unary_bufs_sub .., binary_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub .., binary_bufs_sub .., unary_bufs_sub ..,
    unary_bufs_sub .., binary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..⟩

abbrev opsL4a : List (HloOp τ sig (Elt F)) :=
  [
    StableHlo.binary main_v138 main_arg8 main_v139 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_cst_28 (constant S_ .f32 0x3F800000#32),
    StableHlo.unary main_cst_28 main_v140 (broadcastInDim S600000 ![] bcast_S_S600000 : (⟨S_, .f32⟩ : BufTy).Contents (Elt F) → (⟨S600000, .f32⟩ : BufTy).Contents (Elt F)),
    StableHlo.nullary main_cst_29 (constant S_ .f32 0x00000000#32),
    StableHlo.unary main_cst_29 main_v141 (broadcastInDim S50000 ![] bcast_S_S50000 : (⟨S_, .f32⟩ : BufTy).Contents (Elt F) → (⟨S50000, .f32⟩ : BufTy).Contents (Elt F)),
    StableHlo.unary main_v3 main_v142 (broadcastInDim S600000x1 ![0] bcast_S600000_S600000x1_0 : (⟨S600000, .i32⟩ : BufTy).Contents (Elt F) → (⟨S600000x1, .i32⟩ : BufTy).Contents (Elt F)),
    StableHlo.ternary main_v141 main_v142 main_v140 main_v143 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    StableHlo.nullary main_cst_30 (constant S_ .f32 0x3F800000#32),
    StableHlo.unary main_cst_30 main_v144 (broadcastInDim S50000 ![] bcast_S_S50000 : (⟨S_, .f32⟩ : BufTy).Contents (Elt F) → (⟨S50000, .f32⟩ : BufTy).Contents (Elt F)),
    StableHlo.binary main_v143 main_v144 main_v145 (addf : (⟨S50000, .f32⟩ : BufTy).Contents (Elt F) → (⟨S50000, .f32⟩ : BufTy).Contents (Elt F) → (⟨S50000, .f32⟩ : BufTy).Contents (Elt F)),
    StableHlo.unary main_v145 main_v146 (Host.rsqrt : (⟨S50000, .f32⟩ : BufTy).Contents (Elt F) → (⟨S50000, .f32⟩ : BufTy).Contents (Elt F)) ]

theorem opsL4a_sub : (opsL4a : List (HloOp τ sig (Elt F))).Forall fun op => op.bufs ⊆ tcRefs τ sig :=
  ⟨binary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub ..⟩

abbrev opsL4b : List (HloOp τ sig (Elt F)) :=
  [
    StableHlo.nullary main_c_31 (constantI S_ 32 0#32),
    StableHlo.unary main_c_31 main_v147 (broadcastInDim S600000 ![] bcast_S_S600000 : (⟨S_, .i32⟩ : BufTy).Contents (Elt F) → (⟨S600000, .i32⟩ : BufTy).Contents (Elt F)),
    StableHlo.binary main_v1 main_v147 main_v148 (cmpi .slt : (⟨S600000, .i32⟩ : BufTy).Contents (Elt F) → (⟨S600000, .i32⟩ : BufTy).Contents (Elt F) → (⟨S600000, .i1⟩ : BufTy).Contents (Elt F)),
    StableHlo.nullary main_c_32 (constantI S_ 32 50000#32),
    StableHlo.unary main_c_32 main_v149 (broadcastInDim S600000 ![] bcast_S_S600000 : (⟨S_, .i32⟩ : BufTy).Contents (Elt F) → (⟨S600000, .i32⟩ : BufTy).Contents (Elt F)),
    StableHlo.binary main_v1 main_v149 main_v150 (addi : (⟨S600000, .i32⟩ : BufTy).Contents (Elt F) → (⟨S600000, .i32⟩ : BufTy).Contents (Elt F) → (⟨S600000, .i32⟩ : BufTy).Contents (Elt F)),
    StableHlo.ternary main_v148 main_v150 main_v1 main_v151 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v151 main_v152 (broadcastInDim S600000x1 ![0] bcast_S600000_S600000x1_0 : (⟨S600000, .i32⟩ : BufTy).Contents (Elt F) → (⟨S600000x1, .i32⟩ : BufTy).Contents (Elt F)),
    StableHlo.binary main_v146 main_v152 main_v153 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    StableHlo.nullary main_c_33 (constantI S_ 32 0#32),
    StableHlo.unary main_c_33 main_v154 (broadcastInDim S600000 ![] bcast_S_S600000 : (⟨S_, .i32⟩ : BufTy).Contents (Elt F) → (⟨S600000, .i32⟩ : BufTy).Contents (Elt F)),
    StableHlo.binary main_v3 main_v154 main_v155 (cmpi .slt : (⟨S600000, .i32⟩ : BufTy).Contents (Elt F) → (⟨S600000, .i32⟩ : BufTy).Contents (Elt F) → (⟨S600000, .i1⟩ : BufTy).Contents (Elt F)),
    StableHlo.nullary main_c_34 (constantI S_ 32 50000#32),
    StableHlo.unary main_c_34 main_v156 (broadcastInDim S600000 ![] bcast_S_S600000 : (⟨S_, .i32⟩ : BufTy).Contents (Elt F) → (⟨S600000, .i32⟩ : BufTy).Contents (Elt F)),
    StableHlo.binary main_v3 main_v156 main_v157 (addi : (⟨S600000, .i32⟩ : BufTy).Contents (Elt F) → (⟨S600000, .i32⟩ : BufTy).Contents (Elt F) → (⟨S600000, .i32⟩ : BufTy).Contents (Elt F)),
    StableHlo.ternary main_v155 main_v157 main_v3 main_v158 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v158 main_v159 (broadcastInDim S600000x1 ![0] bcast_S600000_S600000x1_0 : (⟨S600000, .i32⟩ : BufTy).Contents (Elt F) → (⟨S600000x1, .i32⟩ : BufTy).Contents (Elt F)),
    StableHlo.binary main_v146 main_v159 main_v160 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    StableHlo.binary main_v153 main_v160 main_v161 (mulf : (⟨S600000, .f32⟩ : BufTy).Contents (Elt F) → (⟨S600000, .f32⟩ : BufTy).Contents (Elt F) → (⟨S600000, .f32⟩ : BufTy).Contents (Elt F)),
    StableHlo.nullary main_c_35 (constantI S_ 32 0#32),
    StableHlo.unary main_c_35 main_v162 (broadcastInDim S600000 ![] bcast_S_S600000 : (⟨S_, .i32⟩ : BufTy).Contents (Elt F) → (⟨S600000, .i32⟩ : BufTy).Contents (Elt F)),
    StableHlo.binary main_v1 main_v162 main_v163 (cmpi .slt : (⟨S600000, .i32⟩ : BufTy).Contents (Elt F) → (⟨S600000, .i32⟩ : BufTy).Contents (Elt F) → (⟨S600000, .i1⟩ : BufTy).Contents (Elt F)),
    StableHlo.nullary main_c_36 (constantI S_ 32 50000#32),
    StableHlo.unary main_c_36 main_v164 (broadcastInDim S600000 ![] bcast_S_S600000 : (⟨S_, .i32⟩ : BufTy).Contents (Elt F) → (⟨S600000, .i32⟩ : BufTy).Contents (Elt F)),
    StableHlo.binary main_v1 main_v164 main_v165 (addi : (⟨S600000, .i32⟩ : BufTy).Contents (Elt F) → (⟨S600000, .i32⟩ : BufTy).Contents (Elt F) → (⟨S600000, .i32⟩ : BufTy).Contents (Elt F)),
    StableHlo.ternary main_v163 main_v165 main_v1 main_v166 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v166 main_v167 (broadcastInDim S600000x1 ![0] bcast_S600000_S600000x1_0 : (⟨S600000, .i32⟩ : BufTy).Contents (Elt F) → (⟨S600000x1, .i32⟩ : BufTy).Contents (Elt F)),
    StableHlo.binary main_v139 main_v167 main_v168 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.unary main_v161 main_v169 (broadcastInDim S600000x1 ![0] bcast_S600000_S600000x1_0 : (⟨S600000, .f32⟩ : BufTy).Contents (Elt F) → (⟨S600000x1, .f32⟩ : BufTy).Contents (Elt F)),
    StableHlo.unary main_v169 main_v170 (broadcastInDim S600000x128 ![0, 1] bcast_S600000x1_S600000x128_0_1 : (⟨S600000x1, .f32⟩ : BufTy).Contents (Elt F) → (⟨S600000x128, .f32⟩ : BufTy).Contents (Elt F)),
    StableHlo.binary main_v168 main_v170 main_v171 (mulf : (⟨S600000x128, .f32⟩ : BufTy).Contents (Elt F) → (⟨S600000x128, .f32⟩ : BufTy).Contents (Elt F) → (⟨S600000x128, .f32⟩ : BufTy).Contents (Elt F)),
    StableHlo.nullary main_cst_37 (constant S_ .f32 0x00000000#32),
    StableHlo.unary main_cst_37 main_v172 (broadcastInDim S50000x128 ![] bcast_S_S50000x128 : (⟨S_, .f32⟩ : BufTy).Contents (Elt F) → (⟨S50000x128, .f32⟩ : BufTy).Contents (Elt F)),
    StableHlo.unary main_v3 main_v173 (broadcastInDim S600000x1 ![0] bcast_S600000_S600000x1_0 : (⟨S600000, .i32⟩ : BufTy).Contents (Elt F) → (⟨S600000x1, .i32⟩ : BufTy).Contents (Elt F)),
    StableHlo.ternary main_v172 main_v173 main_v171 main_v174 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v146 main_v146 main_v175 (mulf : (⟨S50000, .f32⟩ : BufTy).Contents (Elt F) → (⟨S50000, .f32⟩ : BufTy).Contents (Elt F) → (⟨S50000, .f32⟩ : BufTy).Contents (Elt F)),
    StableHlo.unary main_v175 main_v176 (broadcastInDim S50000x1 ![0] bcast_S50000_S50000x1_0 : (⟨S50000, .f32⟩ : BufTy).Contents (Elt F) → (⟨S50000x1, .f32⟩ : BufTy).Contents (Elt F)),
    StableHlo.unary main_v176 main_v177 (broadcastInDim S50000x128 ![0, 1] bcast_S50000x1_S50000x128_0_1 : (⟨S50000x1, .f32⟩ : BufTy).Contents (Elt F) → (⟨S50000x128, .f32⟩ : BufTy).Contents (Elt F)),
    StableHlo.binary main_v139 main_v177 main_v178 (mulf : (⟨S50000x128, .f32⟩ : BufTy).Contents (Elt F) → (⟨S50000x128, .f32⟩ : BufTy).Contents (Elt F) → (⟨S50000x128, .f32⟩ : BufTy).Contents (Elt F)),
    StableHlo.binary main_v174 main_v178 main_v179 (addf : (⟨S50000x128, .f32⟩ : BufTy).Contents (Elt F) → (⟨S50000x128, .f32⟩ : BufTy).Contents (Elt F) → (⟨S50000x128, .f32⟩ : BufTy).Contents (Elt F)),
    StableHlo.unary main_arg9 main_v180 (broadcastInDim S1x128 ![1] bcast_S128_S1x128_1 : (⟨S128, .f32⟩ : BufTy).Contents (Elt F) → (⟨S1x128, .f32⟩ : BufTy).Contents (Elt F)),
    StableHlo.unary main_v180 main_v181 (broadcastInDim S50000x128 ![0, 1] bcast_S1x128_S50000x128_0_1 : (⟨S1x128, .f32⟩ : BufTy).Contents (Elt F) → (⟨S50000x128, .f32⟩ : BufTy).Contents (Elt F)),
    StableHlo.binary main_v179 main_v181 main_v182 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (StableHlo.TRef.of main_v182 : StableHlo.TRef sig ⟨S50000x128, .f32⟩) main_call3.v0 main_call3.v1 (cmpf .ogt),
    StableHlo.TRef.nullary main_call3.cst_0 (constant S_ .f32 0x00000000#32),
    StableHlo.TRef.unary main_call3.cst_0 main_call3.v2 (broadcastInDim S50000x128 ![] bcast_S_S50000x128),
    StableHlo.TRef.binary (StableHlo.TRef.of main_v182 : StableHlo.TRef sig ⟨S50000x128, .f32⟩) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S50000x128 ![] bcast_S_S50000x128),
    StableHlo.TRef.ternary main_call3.v3 main_call3.call0.v1 (StableHlo.TRef.of main_v182 : StableHlo.TRef sig ⟨S50000x128, .f32⟩) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S50000x128 ![] bcast_S_S50000x128),
    StableHlo.TRef.binary main_call3.v6 main_call3.v5 main_call3.v7 mulf,
    StableHlo.TRef.ternary main_call3.v1 (StableHlo.TRef.of main_v182 : StableHlo.TRef sig ⟨S50000x128, .f32⟩) main_call3.v7 main_call3.call1.v0 select ]

theorem opsL4b_sub : (opsL4b : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., binary_bufs_sub ..,
    unary_bufs_sub .., unary_bufs_sub .., binary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., ternary_bufs_sub ..⟩

abbrev opsM1 : List (HloOp τ sig (Elt F)) :=
  [
    StableHlo.binary main_v183 main_arg10 main_v184 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg11 main_v185 (broadcastInDim S1x128 ![1] bcast_S128_S1x128_1 : (⟨S128, .f32⟩ : BufTy).Contents (Elt F) → (⟨S1x128, .f32⟩ : BufTy).Contents (Elt F)),
    StableHlo.unary main_v185 main_v186 (broadcastInDim S50000x128 ![0, 1] bcast_S1x128_S50000x128_0_1 : (⟨S1x128, .f32⟩ : BufTy).Contents (Elt F) → (⟨S50000x128, .f32⟩ : BufTy).Contents (Elt F)),
    StableHlo.binary main_v184 main_v186 main_v187 (addf : (⟨S50000x128, .f32⟩ : BufTy).Contents (Elt F) → (⟨S50000x128, .f32⟩ : BufTy).Contents (Elt F) → (⟨S50000x128, .f32⟩ : BufTy).Contents (Elt F)),
    StableHlo.TRef.nullary main_call4.cst (constant S_ .f32 0x00000000#32),
    StableHlo.TRef.unary main_call4.cst main_call4.v0 (broadcastInDim S50000x128 ![] bcast_S_S50000x128),
    StableHlo.TRef.binary (StableHlo.TRef.of main_v187 : StableHlo.TRef sig ⟨S50000x128, .f32⟩) main_call4.v0 main_call4.v1 (cmpf .ogt),
    StableHlo.TRef.nullary main_call4.cst_0 (constant S_ .f32 0x00000000#32),
    StableHlo.TRef.unary main_call4.cst_0 main_call4.v2 (broadcastInDim S50000x128 ![] bcast_S_S50000x128),
    StableHlo.TRef.binary (StableHlo.TRef.of main_v187 : StableHlo.TRef sig ⟨S50000x128, .f32⟩) main_call4.v2 main_call4.v3 (cmpf .ogt),
    StableHlo.TRef.nullary main_call4.cst_1 (constant S_ .f32 0x00000000#32),
    StableHlo.TRef.unary main_call4.cst_1 main_call4.call0.v0 id,
    StableHlo.TRef.unary main_call4.call0.v0 main_call4.call0.v1 (broadcastInDim S50000x128 ![] bcast_S_S50000x128),
    StableHlo.TRef.ternary main_call4.v3 main_call4.call0.v1 (StableHlo.TRef.of main_v187 : StableHlo.TRef sig ⟨S50000x128, .f32⟩) main_call4.call0.v2 select,
    StableHlo.TRef.unary main_call4.call0.v2 main_call4.v5 Host.expm1,
    StableHlo.TRef.nullary main_call4.cst_2 (constant S_ .f32 0x3F800000#32),
    StableHlo.TRef.unary main_call4.cst_2 main_call4.v6 (broadcastInDim S50000x128 ![] bcast_S_S50000x128),
    StableHlo.TRef.binary main_call4.v6 main_call4.v5 main_call4.v7 mulf,
    StableHlo.TRef.ternary main_call4.v1 (StableHlo.TRef.of main_v187 : StableHlo.TRef sig ⟨S50000x128, .f32⟩) main_call4.v7 main_call4.call1.v0 select ]

theorem opsM1_sub : (opsM1 : List (HloOp τ sig (Elt F))).Forall fun op => op.bufs ⊆ tcRefs τ sig :=
  ⟨binary_bufs_sub .., unary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., unary_bufs_sub .., nullary_bufs_sub .., unary_bufs_sub .., binary_bufs_sub ..,
    ternary_bufs_sub ..⟩

abbrev opsM2 : List (HloOp τ sig (Elt F)) :=
  [
    StableHlo.binary main_v183 main_arg12 main_v189 ((fun l r => Host.dotGeneral dot_S50000x128_S128x10_S50000x10_1_0_0_1_n_n none l r) : (⟨S50000x128, .f32⟩ : BufTy).Contents (Elt F) → (⟨S128x10, .f32⟩ : BufTy).Contents (Elt F) → (⟨S50000x10, .f32⟩ : BufTy).Contents (Elt F)),
    StableHlo.unary main_arg13 main_v190 (broadcastInDim S1x10 ![1] bcast_S10_S1x10_1 : (⟨S10, .f32⟩ : BufTy).Contents (Elt F) → (⟨S1x10, .f32⟩ : BufTy).Contents (Elt F)),
    StableHlo.unary main_v190 main_v191 (broadcastInDim S50000x10 ![0, 1] bcast_S1x10_S50000x10_0_1 : (⟨S1x10, .f32⟩ : BufTy).Contents (Elt F) → (⟨S50000x10, .f32⟩ : BufTy).Contents (Elt F)),
    StableHlo.binary main_v189 main_v191 main_v192 (addf : (⟨S50000x10, .f32⟩ : BufTy).Contents (Elt F) → (⟨S50000x10, .f32⟩ : BufTy).Contents (Elt F) → (⟨S50000x10, .f32⟩ : BufTy).Contents (Elt F)),
    StableHlo.TRef.nullary main_call5.cst (constant S_ .f32 0x00000000#32),
    StableHlo.TRef.unary main_call5.cst main_call5.v0 (broadcastInDim S50000x10 ![] bcast_S_S50000x10),
    StableHlo.TRef.binary (StableHlo.TRef.of main_v192 : StableHlo.TRef sig ⟨S50000x10, .f32⟩) main_call5.v0 main_call5.v1 (cmpf .ogt),
    StableHlo.TRef.nullary main_call5.cst_0 (constant S_ .f32 0x00000000#32),
    StableHlo.TRef.unary main_call5.cst_0 main_call5.v2 (broadcastInDim S50000x10 ![] bcast_S_S50000x10),
    StableHlo.TRef.binary (StableHlo.TRef.of main_v192 : StableHlo.TRef sig ⟨S50000x10, .f32⟩) main_call5.v2 main_call5.v3 (cmpf .ogt),
    StableHlo.TRef.nullary main_call5.cst_1 (constant S_ .f32 0x00000000#32),
    StableHlo.TRef.unary main_call5.cst_1 main_call5.call0.v0 id,
    StableHlo.TRef.unary main_call5.call0.v0 main_call5.call0.v1 (broadcastInDim S50000x10 ![] bcast_S_S50000x10),
    StableHlo.TRef.ternary main_call5.v3 main_call5.call0.v1 (StableHlo.TRef.of main_v192 : StableHlo.TRef sig ⟨S50000x10, .f32⟩) main_call5.call0.v2 select,
    StableHlo.TRef.unary main_call5.call0.v2 main_call5.v5 Host.expm1,
    StableHlo.TRef.nullary main_call5.cst_2 (constant S_ .f32 0x3F800000#32),
    StableHlo.TRef.unary main_call5.cst_2 main_call5.v6 (broadcastInDim S50000x10 ![] bcast_S_S50000x10),
    StableHlo.TRef.binary main_call5.v6 main_call5.v5 main_call5.v7 mulf,
    StableHlo.TRef.ternary main_call5.v1 (StableHlo.TRef.of main_v192 : StableHlo.TRef sig ⟨S50000x10, .f32⟩) main_call5.v7 main_call5.call1.v0 select ]

theorem opsM2_sub : (opsM2 : List (HloOp τ sig (Elt F))).Forall fun op => op.bufs ⊆ tcRefs τ sig :=
  ⟨binary_bufs_sub .., unary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., unary_bufs_sub .., nullary_bufs_sub .., unary_bufs_sub .., binary_bufs_sub ..,
    ternary_bufs_sub ..⟩

/-! ## The printed windows are concatenations of pieces -/

/-- The operations of statements 1 … 60, the calls' bodies in place. -/
def win0 : List (HloOp τ sig (Elt F)) := opsP ++ opsL1 ++ opsL2a

set_option maxRecDepth 8192 in
set_option maxHeartbeats 4000000 in
theorem main_part0_eq (c : Dev nD) : main_part0 (F := F) c = seq win0 := by
  unfold win0
  simp only [main_part0, fn_elu.body, fn_where.body, fn_where_0.body, fn_elu_1.body, fn_where_2.body, fn_where_3.body, opsP, opsL1, opsL2a, seq_append, seq, bind_assoc, pure_bind]
  all_goals rfl

theorem win0_sub : (win0 : List (HloOp τ sig (Elt F))).Forall fun op => op.bufs ⊆ tcRefs τ sig := by
  unfold win0
  exact forall_append (forall_append (opsP_sub) opsL1_sub) opsL2a_sub

/-- The operations of statements 61 … 120, the calls' bodies in place. -/
def win1 : List (HloOp τ sig (Elt F)) := opsL2b ++ opsL3a

set_option maxRecDepth 8192 in
set_option maxHeartbeats 4000000 in
theorem main_part1_eq (c : Dev nD) : main_part1 (F := F) c = seq win1 := by
  unfold win1
  simp only [main_part1, fn_elu.body, fn_where.body, fn_where_0.body, fn_elu_1.body, fn_where_2.body, fn_where_3.body, opsL2b, opsL3a, seq_append, seq, bind_assoc, pure_bind]
  all_goals rfl

theorem win1_sub : (win1 : List (HloOp τ sig (Elt F))).Forall fun op => op.bufs ⊆ tcRefs τ sig := by
  unfold win1
  exact forall_append (opsL2b_sub) opsL3a_sub

/-- The operations of statements 121 … 180, the calls' bodies in place. -/
def win2 : List (HloOp τ sig (Elt F)) := opsL3b ++ opsL4a

set_option maxRecDepth 8192 in
set_option maxHeartbeats 4000000 in
theorem main_part2_eq (c : Dev nD) : main_part2 (F := F) c = seq win2 := by
  unfold win2
  simp only [main_part2, fn_elu.body, fn_where.body, fn_where_0.body, fn_elu_1.body, fn_where_2.body, fn_where_3.body, opsL3b, opsL4a, seq_append, seq, bind_assoc, pure_bind]
  all_goals rfl

theorem win2_sub : (win2 : List (HloOp τ sig (Elt F))).Forall fun op => op.bufs ⊆ tcRefs τ sig := by
  unfold win2
  exact forall_append (opsL3b_sub) opsL4a_sub

/-- The operations of statements 181 … 234, the calls' bodies in place. -/
def win3 : List (HloOp τ sig (Elt F)) := opsL4b ++ opsM1 ++ opsM2

set_option maxRecDepth 8192 in
set_option maxHeartbeats 4000000 in
theorem main_part3_eq (c : Dev nD) : main_part3 (F := F) c = seq win3 := by
  unfold win3
  simp only [main_part3, fn_elu.body, fn_where.body, fn_where_0.body, fn_elu_1.body, fn_where_2.body, fn_where_3.body, opsL4b, opsM1, opsM2, seq_append, seq, bind_assoc, pure_bind]
  all_goals rfl

theorem win3_sub : (win3 : List (HloOp τ sig (Elt F))).Forall fun op => op.bufs ⊆ tcRefs τ sig := by
  unfold win3
  exact forall_append (forall_append (opsL4b_sub) opsM1_sub) opsM2_sub

/-! ## @main is the whole line -/

/-- The 318 operations in order. -/
def ops : List (HloOp τ sig (Elt F)) := win0 ++ (win1 ++ (win2 ++ win3))

theorem main_eq (c : Dev nD) : main (F := F) c = seq ops := by
  unfold ops
  simp only [seq_append, ← main_part0_eq c, ← main_part1_eq c, ← main_part2_eq c, ← main_part3_eq c]
  rfl

theorem ops_sub : (ops : List (HloOp τ sig (Elt F))).Forall fun op => op.bufs ⊆ tcRefs τ sig := by
  unfold ops
  exact forall_append win0_sub (forall_append win1_sub (forall_append win2_sub win3_sub))

theorem scopedRefs_eq : (Finset.univ.filter fun b : Ref sig .tc => b.isScoped) = ∅ := by decide
theorem scopedSems_eq : (Finset.univ.filter fun sm : SemLoc sig => sm.isScoped .tc) = ∅ := by decide

/-- Every weakly fair execution of the reference terminates, nothing faulting, with every buffer at the line's fold over
    the launch contents. -/
theorem run_line (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Line

end
-- ==== Proof.RefKeep.lean ====
/-
  Buffers a stage of the reference's line leaves as it found them.

  Every operation of the line writes a buffer of its own, so a stage changes nothing it did not make: the endpoint lists made by
  the prelude, the weight and bias arguments, and the fourth layer's activations stay as they are through every later stage.
  Stated for any contents W the stage starts from, for exactly the buffers a later stage reads.
-/
import proofs.«147130_j78975858639084_1_alg».proof.Proof.RefOps

set_option maxRecDepth 16384

noncomputable section

namespace Cert.ReferenceIdeal.Keep

open Cert.ReferenceIdeal Cert.ReferenceIdeal.Gen Cert.ReferenceIdeal.Line
open Idealize.ShloMosaic Idealize.ShloMosaic.TcCoe Idealize.SL.Sem Idealize.ShloMosaic.StableHlo

variable {F : FTy → Type} [FloatOps F]

/-! ## Stage P -/

theorem passP_arg0 (W : Valuation τ sig (Elt F)) : after opsP W (Proc.devRef .tc main_arg0) = W (Proc.devRef .tc main_arg0) :=
  after_of_forall_not_mem (b := (Proc.devRef .tc main_arg0)) opsP W (List.forall_iff_forall_mem.mp (by
    simp only [opsP, List.Forall, nullary_writes, unary_writes, binary_writes, ternary_writes, quaternary_writes, reshape_writes, Finset.mem_singleton]
    repeat' apply And.intro
    all_goals exact devRef_ne_of_ne (by decide)))

theorem passP_arg2 (W : Valuation τ sig (Elt F)) : after opsP W (Proc.devRef .tc main_arg2) = W (Proc.devRef .tc main_arg2) :=
  after_of_forall_not_mem (b := (Proc.devRef .tc main_arg2)) opsP W (List.forall_iff_forall_mem.mp (by
    simp only [opsP, List.Forall, nullary_writes, unary_writes, binary_writes, ternary_writes, quaternary_writes, reshape_writes, Finset.mem_singleton]
    repeat' apply And.intro
    all_goals exact devRef_ne_of_ne (by decide)))

theorem passP_arg3 (W : Valuation τ sig (Elt F)) : after opsP W (Proc.devRef .tc main_arg3) = W (Proc.devRef .tc main_arg3) :=
  after_of_forall_not_mem (b := (Proc.devRef .tc main_arg3)) opsP W (List.forall_iff_forall_mem.mp (by
    simp only [opsP, List.Forall, nullary_writes, unary_writes, binary_writes, ternary_writes, quaternary_writes, reshape_writes, Finset.mem_singleton]
    repeat' apply And.intro
    all_goals exact devRef_ne_of_ne (by decide)))

theorem passP_arg4 (W : Valuation τ sig (Elt F)) : after opsP W (Proc.devRef .tc main_arg4) = W (Proc.devRef .tc main_arg4) :=
  after_of_forall_not_mem (b := (Proc.devRef .tc main_arg4)) opsP W (List.forall_iff_forall_mem.mp (by
    simp only [opsP, List.Forall, nullary_writes, unary_writes, binary_writes, ternary_writes, quaternary_writes, reshape_writes, Finset.mem_singleton]
    repeat' apply And.intro
    all_goals exact devRef_ne_of_ne (by decide)))

theorem passP_arg5 (W : Valuation τ sig (Elt F)) : after opsP W (Proc.devRef .tc main_arg5) = W (Proc.devRef .tc main_arg5) :=
  after_of_forall_not_mem (b := (Proc.devRef .tc main_arg5)) opsP W (List.forall_iff_forall_mem.mp (by
    simp only [opsP, List.Forall, nullary_writes, unary_writes, binary_writes, ternary_writes, quaternary_writes, reshape_writes, Finset.mem_singleton]
    repeat' apply And.intro
    all_goals exact devRef_ne_of_ne (by decide)))

theorem passP_arg6 (W : Valuation τ sig (Elt F)) : after opsP W (Proc.devRef .tc main_arg6) = W (Proc.devRef .tc main_arg6) :=
  after_of_forall_not_mem (b := (Proc.devRef .tc main_arg6)) opsP W (List.forall_iff_forall_mem.mp (by
    simp only [opsP, List.Forall, nullary_writes, unary_writes, binary_writes, ternary_writes, quaternary_writes, reshape_writes, Finset.mem_singleton]
    repeat' apply And.intro
    all_goals exact devRef_ne_of_ne (by decide)))

theorem passP_arg7 (W : Valuation τ sig (Elt F)) : after opsP W (Proc.devRef .tc main_arg7) = W (Proc.devRef .tc main_arg7) :=
  after_of_forall_not_mem (b := (Proc.devRef .tc main_arg7)) opsP W (List.forall_iff_forall_mem.mp (by
    simp only [opsP, List.Forall, nullary_writes, unary_writes, binary_writes, ternary_writes, quaternary_writes, reshape_writes, Finset.mem_singleton]
    repeat' apply And.intro
    all_goals exact devRef_ne_of_ne (by decide)))

theorem passP_arg8 (W : Valuation τ sig (Elt F)) : after opsP W (Proc.devRef .tc main_arg8) = W (Proc.devRef .tc main_arg8) :=
  after_of_forall_not_mem (b := (Proc.devRef .tc main_arg8)) opsP W (List.forall_iff_forall_mem.mp (by
    simp only [opsP, List.Forall, nullary_writes, unary_writes, binary_writes, ternary_writes, quaternary_writes, reshape_writes, Finset.mem_singleton]
    repeat' apply And.intro
    all_goals exact devRef_ne_of_ne (by decide)))

theorem passP_arg9 (W : Valuation τ sig (Elt F)) : after opsP W (Proc.devRef .tc main_arg9) = W (Proc.devRef .tc main_arg9) :=
  after_of_forall_not_mem (b := (Proc.devRef .tc main_arg9)) opsP W (List.forall_iff_forall_mem.mp (by
    simp only [opsP, List.Forall, nullary_writes, unary_writes, binary_writes, ternary_writes, quaternary_writes, reshape_writes, Finset.mem_singleton]
    repeat' apply And.intro
    all_goals exact devRef_ne_of_ne (by decide)))

theorem passP_arg12 (W : Valuation τ sig (Elt F)) : after opsP W (Proc.devRef .tc main_arg12) = W (Proc.devRef .tc main_arg12) :=
  after_of_forall_not_mem (b := (Proc.devRef .tc main_arg12)) opsP W (List.forall_iff_forall_mem.mp (by
    simp only [opsP, List.Forall, nullary_writes, unary_writes, binary_writes, ternary_writes, quaternary_writes, reshape_writes, Finset.mem_singleton]
    repeat' apply And.intro
    all_goals exact devRef_ne_of_ne (by decide)))

theorem passP_arg13 (W : Valuation τ sig (Elt F)) : after opsP W (Proc.devRef .tc main_arg13) = W (Proc.devRef .tc main_arg13) :=
  after_of_forall_not_mem (b := (Proc.devRef .tc main_arg13)) opsP W (List.forall_iff_forall_mem.mp (by
    simp only [opsP, List.Forall, nullary_writes, unary_writes, binary_writes, ternary_writes, quaternary_writes, reshape_writes, Finset.mem_singleton]
    repeat' apply And.intro
    all_goals exact devRef_ne_of_ne (by decide)))

/-! ## Stage L1 -/

theorem passL1_v1 (W : Valuation τ sig (Elt F)) : after opsL1 W (Proc.devRef .tc main_v1) = W (Proc.devRef .tc main_v1) :=
  after_of_forall_not_mem (b := (Proc.devRef .tc main_v1)) opsL1 W (List.forall_iff_forall_mem.mp (by
    simp only [opsL1, List.Forall, nullary_writes, unary_writes, binary_writes, ternary_writes, quaternary_writes, reshape_writes, Finset.mem_singleton]
    repeat' apply And.intro
    all_goals exact devRef_ne_of_ne (by decide)))

theorem passL1_v3 (W : Valuation τ sig (Elt F)) : after opsL1 W (Proc.devRef .tc main_v3) = W (Proc.devRef .tc main_v3) :=
  after_of_forall_not_mem (b := (Proc.devRef .tc main_v3)) opsL1 W (List.forall_iff_forall_mem.mp (by
    simp only [opsL1, List.Forall, nullary_writes, unary_writes, binary_writes, ternary_writes, quaternary_writes, reshape_writes, Finset.mem_singleton]
    repeat' apply And.intro
    all_goals exact devRef_ne_of_ne (by decide)))

theorem passL1_arg4 (W : Valuation τ sig (Elt F)) : after opsL1 W (Proc.devRef .tc main_arg4) = W (Proc.devRef .tc main_arg4) :=
  after_of_forall_not_mem (b := (Proc.devRef .tc main_arg4)) opsL1 W (List.forall_iff_forall_mem.mp (by
    simp only [opsL1, List.Forall, nullary_writes, unary_writes, binary_writes, ternary_writes, quaternary_writes, reshape_writes, Finset.mem_singleton]
    repeat' apply And.intro
    all_goals exact devRef_ne_of_ne (by decide)))

theorem passL1_arg5 (W : Valuation τ sig (Elt F)) : after opsL1 W (Proc.devRef .tc main_arg5) = W (Proc.devRef .tc main_arg5) :=
  after_of_forall_not_mem (b := (Proc.devRef .tc main_arg5)) opsL1 W (List.forall_iff_forall_mem.mp (by
    simp only [opsL1, List.Forall, nullary_writes, unary_writes, binary_writes, ternary_writes, quaternary_writes, reshape_writes, Finset.mem_singleton]
    repeat' apply And.intro
    all_goals exact devRef_ne_of_ne (by decide)))

theorem passL1_arg6 (W : Valuation τ sig (Elt F)) : after opsL1 W (Proc.devRef .tc main_arg6) = W (Proc.devRef .tc main_arg6) :=
  after_of_forall_not_mem (b := (Proc.devRef .tc main_arg6)) opsL1 W (List.forall_iff_forall_mem.mp (by
    simp only [opsL1, List.Forall, nullary_writes, unary_writes, binary_writes, ternary_writes, quaternary_writes, reshape_writes, Finset.mem_singleton]
    repeat' apply And.intro
    all_goals exact devRef_ne_of_ne (by decide)))

theorem passL1_arg7 (W : Valuation τ sig (Elt F)) : after opsL1 W (Proc.devRef .tc main_arg7) = W (Proc.devRef .tc main_arg7) :=
  after_of_forall_not_mem (b := (Proc.devRef .tc main_arg7)) opsL1 W (List.forall_iff_forall_mem.mp (by
    simp only [opsL1, List.Forall, nullary_writes, unary_writes, binary_writes, ternary_writes, quaternary_writes, reshape_writes, Finset.mem_singleton]
    repeat' apply And.intro
    all_goals exact devRef_ne_of_ne (by decide)))

theorem passL1_arg8 (W : Valuation τ sig (Elt F)) : after opsL1 W (Proc.devRef .tc main_arg8) = W (Proc.devRef .tc main_arg8) :=
  after_of_forall_not_mem (b := (Proc.devRef .tc main_arg8)) opsL1 W (List.forall_iff_forall_mem.mp (by
    simp only [opsL1, List.Forall, nullary_writes, unary_writes, binary_writes, ternary_writes, quaternary_writes, reshape_writes, Finset.mem_singleton]
    repeat' apply And.intro
    all_goals exact devRef_ne_of_ne (by decide)))

theorem passL1_arg9 (W : Valuation τ sig (Elt F)) : after opsL1 W (Proc.devRef .tc main_arg9) = W (Proc.devRef .tc main_arg9) :=
  after_of_forall_not_mem (b := (Proc.devRef .tc main_arg9)) opsL1 W (List.forall_iff_forall_mem.mp (by
    simp only [opsL1, List.Forall, nullary_writes, unary_writes, binary_writes, ternary_writes, quaternary_writes, reshape_writes, Finset.mem_singleton]
    repeat' apply And.intro
    all_goals exact devRef_ne_of_ne (by decide)))

theorem passL1_arg12 (W : Valuation τ sig (Elt F)) : after opsL1 W (Proc.devRef .tc main_arg12) = W (Proc.devRef .tc main_arg12) :=
  after_of_forall_not_mem (b := (Proc.devRef .tc main_arg12)) opsL1 W (List.forall_iff_forall_mem.mp (by
    simp only [opsL1, List.Forall, nullary_writes, unary_writes, binary_writes, ternary_writes, quaternary_writes, reshape_writes, Finset.mem_singleton]
    repeat' apply And.intro
    all_goals exact devRef_ne_of_ne (by decide)))

theorem passL1_arg13 (W : Valuation τ sig (Elt F)) : after opsL1 W (Proc.devRef .tc main_arg13) = W (Proc.devRef .tc main_arg13) :=
  after_of_forall_not_mem (b := (Proc.devRef .tc main_arg13)) opsL1 W (List.forall_iff_forall_mem.mp (by
    simp only [opsL1, List.Forall, nullary_writes, unary_writes, binary_writes, ternary_writes, quaternary_writes, reshape_writes, Finset.mem_singleton]
    repeat' apply And.intro
    all_goals exact devRef_ne_of_ne (by decide)))

/-! ## Stage L2 -/

theorem passL2_v1 (W : Valuation τ sig (Elt F)) : after opsL2b (after opsL2a W) (Proc.devRef .tc main_v1) = W (Proc.devRef .tc main_v1) :=
  (after_of_forall_not_mem (b := (Proc.devRef .tc main_v1)) opsL2b (after opsL2a W) (List.forall_iff_forall_mem.mp (by
    simp only [opsL2b, List.Forall, nullary_writes, unary_writes, binary_writes, ternary_writes, quaternary_writes, reshape_writes, Finset.mem_singleton]
    repeat' apply And.intro
    all_goals exact devRef_ne_of_ne (by decide)))).trans
  (after_of_forall_not_mem (b := (Proc.devRef .tc main_v1)) opsL2a W (List.forall_iff_forall_mem.mp (by
    simp only [opsL2a, List.Forall, nullary_writes, unary_writes, binary_writes, ternary_writes, quaternary_writes, reshape_writes, Finset.mem_singleton]
    repeat' apply And.intro
    all_goals exact devRef_ne_of_ne (by decide))))

theorem passL2_v3 (W : Valuation τ sig (Elt F)) : after opsL2b (after opsL2a W) (Proc.devRef .tc main_v3) = W (Proc.devRef .tc main_v3) :=
  (after_of_forall_not_mem (b := (Proc.devRef .tc main_v3)) opsL2b (after opsL2a W) (List.forall_iff_forall_mem.mp (by
    simp only [opsL2b, List.Forall, nullary_writes, unary_writes, binary_writes, ternary_writes, quaternary_writes, reshape_writes, Finset.mem_singleton]
    repeat' apply And.intro
    all_goals exact devRef_ne_of_ne (by decide)))).trans
  (after_of_forall_not_mem (b := (Proc.devRef .tc main_v3)) opsL2a W (List.forall_iff_forall_mem.mp (by
    simp only [opsL2a, List.Forall, nullary_writes, unary_writes, binary_writes, ternary_writes, quaternary_writes, reshape_writes, Finset.mem_singleton]
    repeat' apply And.intro
    all_goals exact devRef_ne_of_ne (by decide))))

theorem passL2_arg6 (W : Valuation τ sig (Elt F)) : after opsL2b (after opsL2a W) (Proc.devRef .tc main_arg6) = W (Proc.devRef .tc main_arg6) :=
  (after_of_forall_not_mem (b := (Proc.devRef .tc main_arg6)) opsL2b (after opsL2a W) (List.forall_iff_forall_mem.mp (by
    simp only [opsL2b, List.Forall, nullary_writes, unary_writes, binary_writes, ternary_writes, quaternary_writes, reshape_writes, Finset.mem_singleton]
    repeat' apply And.intro
    all_goals exact devRef_ne_of_ne (by decide)))).trans
  (after_of_forall_not_mem (b := (Proc.devRef .tc main_arg6)) opsL2a W (List.forall_iff_forall_mem.mp (by
    simp only [opsL2a, List.Forall, nullary_writes, unary_writes, binary_writes, ternary_writes, quaternary_writes, reshape_writes, Finset.mem_singleton]
    repeat' apply And.intro
    all_goals exact devRef_ne_of_ne (by decide))))

theorem passL2_arg7 (W : Valuation τ sig (Elt F)) : after opsL2b (after opsL2a W) (Proc.devRef .tc main_arg7) = W (Proc.devRef .tc main_arg7) :=
  (after_of_forall_not_mem (b := (Proc.devRef .tc main_arg7)) opsL2b (after opsL2a W) (List.forall_iff_forall_mem.mp (by
    simp only [opsL2b, List.Forall, nullary_writes, unary_writes, binary_writes, ternary_writes, quaternary_writes, reshape_writes, Finset.mem_singleton]
    repeat' apply And.intro
    all_goals exact devRef_ne_of_ne (by decide)))).trans
  (after_of_forall_not_mem (b := (Proc.devRef .tc main_arg7)) opsL2a W (List.forall_iff_forall_mem.mp (by
    simp only [opsL2a, List.Forall, nullary_writes, unary_writes, binary_writes, ternary_writes, quaternary_writes, reshape_writes, Finset.mem_singleton]
    repeat' apply And.intro
    all_goals exact devRef_ne_of_ne (by decide))))

theorem passL2_arg8 (W : Valuation τ sig (Elt F)) : after opsL2b (after opsL2a W) (Proc.devRef .tc main_arg8) = W (Proc.devRef .tc main_arg8) :=
  (after_of_forall_not_mem (b := (Proc.devRef .tc main_arg8)) opsL2b (after opsL2a W) (List.forall_iff_forall_mem.mp (by
    simp only [opsL2b, List.Forall, nullary_writes, unary_writes, binary_writes, ternary_writes, quaternary_writes, reshape_writes, Finset.mem_singleton]
    repeat' apply And.intro
    all_goals exact devRef_ne_of_ne (by decide)))).trans
  (after_of_forall_not_mem (b := (Proc.devRef .tc main_arg8)) opsL2a W (List.forall_iff_forall_mem.mp (by
    simp only [opsL2a, List.Forall, nullary_writes, unary_writes, binary_writes, ternary_writes, quaternary_writes, reshape_writes, Finset.mem_singleton]
    repeat' apply And.intro
    all_goals exact devRef_ne_of_ne (by decide))))

theorem passL2_arg9 (W : Valuation τ sig (Elt F)) : after opsL2b (after opsL2a W) (Proc.devRef .tc main_arg9) = W (Proc.devRef .tc main_arg9) :=
  (after_of_forall_not_mem (b := (Proc.devRef .tc main_arg9)) opsL2b (after opsL2a W) (List.forall_iff_forall_mem.mp (by
    simp only [opsL2b, List.Forall, nullary_writes, unary_writes, binary_writes, ternary_writes, quaternary_writes, reshape_writes, Finset.mem_singleton]
    repeat' apply And.intro
    all_goals exact devRef_ne_of_ne (by decide)))).trans
  (after_of_forall_not_mem (b := (Proc.devRef .tc main_arg9)) opsL2a W (List.forall_iff_forall_mem.mp (by
    simp only [opsL2a, List.Forall, nullary_writes, unary_writes, binary_writes, ternary_writes, quaternary_writes, reshape_writes, Finset.mem_singleton]
    repeat' apply And.intro
    all_goals exact devRef_ne_of_ne (by decide))))

theorem passL2_arg12 (W : Valuation τ sig (Elt F)) : after opsL2b (after opsL2a W) (Proc.devRef .tc main_arg12) = W (Proc.devRef .tc main_arg12) :=
  (after_of_forall_not_mem (b := (Proc.devRef .tc main_arg12)) opsL2b (after opsL2a W) (List.forall_iff_forall_mem.mp (by
    simp only [opsL2b, List.Forall, nullary_writes, unary_writes, binary_writes, ternary_writes, quaternary_writes, reshape_writes, Finset.mem_singleton]
    repeat' apply And.intro
    all_goals exact devRef_ne_of_ne (by decide)))).trans
  (after_of_forall_not_mem (b := (Proc.devRef .tc main_arg12)) opsL2a W (List.forall_iff_forall_mem.mp (by
    simp only [opsL2a, List.Forall, nullary_writes, unary_writes, binary_writes, ternary_writes, quaternary_writes, reshape_writes, Finset.mem_singleton]
    repeat' apply And.intro
    all_goals exact devRef_ne_of_ne (by decide))))

theorem passL2_arg13 (W : Valuation τ sig (Elt F)) : after opsL2b (after opsL2a W) (Proc.devRef .tc main_arg13) = W (Proc.devRef .tc main_arg13) :=
  (after_of_forall_not_mem (b := (Proc.devRef .tc main_arg13)) opsL2b (after opsL2a W) (List.forall_iff_forall_mem.mp (by
    simp only [opsL2b, List.Forall, nullary_writes, unary_writes, binary_writes, ternary_writes, quaternary_writes, reshape_writes, Finset.mem_singleton]
    repeat' apply And.intro
    all_goals exact devRef_ne_of_ne (by decide)))).trans
  (after_of_forall_not_mem (b := (Proc.devRef .tc main_arg13)) opsL2a W (List.forall_iff_forall_mem.mp (by
    simp only [opsL2a, List.Forall, nullary_writes, unary_writes, binary_writes, ternary_writes, quaternary_writes, reshape_writes, Finset.mem_singleton]
    repeat' apply And.intro
    all_goals exact devRef_ne_of_ne (by decide))))

/-! ## Stage L3 -/

theorem passL3_v1 (W : Valuation τ sig (Elt F)) : after opsL3b (after opsL3a W) (Proc.devRef .tc main_v1) = W (Proc.devRef .tc main_v1) :=
  (after_of_forall_not_mem (b := (Proc.devRef .tc main_v1)) opsL3b (after opsL3a W) (List.forall_iff_forall_mem.mp (by
    simp only [opsL3b, List.Forall, nullary_writes, unary_writes, binary_writes, ternary_writes, quaternary_writes, reshape_writes, Finset.mem_singleton]
    repeat' apply And.intro
    all_goals exact devRef_ne_of_ne (by decide)))).trans
  (after_of_forall_not_mem (b := (Proc.devRef .tc main_v1)) opsL3a W (List.forall_iff_forall_mem.mp (by
    simp only [opsL3a, List.Forall, nullary_writes, unary_writes, binary_writes, ternary_writes, quaternary_writes, reshape_writes, Finset.mem_singleton]
    repeat' apply And.intro
    all_goals exact devRef_ne_of_ne (by decide))))

theorem passL3_v3 (W : Valuation τ sig (Elt F)) : after opsL3b (after opsL3a W) (Proc.devRef .tc main_v3) = W (Proc.devRef .tc main_v3) :=
  (after_of_forall_not_mem (b := (Proc.devRef .tc main_v3)) opsL3b (after opsL3a W) (List.forall_iff_forall_mem.mp (by
    simp only [opsL3b, List.Forall, nullary_writes, unary_writes, binary_writes, ternary_writes, quaternary_writes, reshape_writes, Finset.mem_singleton]
    repeat' apply And.intro
    all_goals exact devRef_ne_of_ne (by decide)))).trans
  (after_of_forall_not_mem (b := (Proc.devRef .tc main_v3)) opsL3a W (List.forall_iff_forall_mem.mp (by
    simp only [opsL3a, List.Forall, nullary_writes, unary_writes, binary_writes, ternary_writes, quaternary_writes, reshape_writes, Finset.mem_singleton]
    repeat' apply And.intro
    all_goals exact devRef_ne_of_ne (by decide))))

theorem passL3_arg8 (W : Valuation τ sig (Elt F)) : after opsL3b (after opsL3a W) (Proc.devRef .tc main_arg8) = W (Proc.devRef .tc main_arg8) :=
  (after_of_forall_not_mem (b := (Proc.devRef .tc main_arg8)) opsL3b (after opsL3a W) (List.forall_iff_forall_mem.mp (by
    simp only [opsL3b, List.Forall, nullary_writes, unary_writes, binary_writes, ternary_writes, quaternary_writes, reshape_writes, Finset.mem_singleton]
    repeat' apply And.intro
    all_goals exact devRef_ne_of_ne (by decide)))).trans
  (after_of_forall_not_mem (b := (Proc.devRef .tc main_arg8)) opsL3a W (List.forall_iff_forall_mem.mp (by
    simp only [opsL3a, List.Forall, nullary_writes, unary_writes, binary_writes, ternary_writes, quaternary_writes, reshape_writes, Finset.mem_singleton]
    repeat' apply And.intro
    all_goals exact devRef_ne_of_ne (by decide))))

theorem passL3_arg9 (W : Valuation τ sig (Elt F)) : after opsL3b (after opsL3a W) (Proc.devRef .tc main_arg9) = W (Proc.devRef .tc main_arg9) :=
  (after_of_forall_not_mem (b := (Proc.devRef .tc main_arg9)) opsL3b (after opsL3a W) (List.forall_iff_forall_mem.mp (by
    simp only [opsL3b, List.Forall, nullary_writes, unary_writes, binary_writes, ternary_writes, quaternary_writes, reshape_writes, Finset.mem_singleton]
    repeat' apply And.intro
    all_goals exact devRef_ne_of_ne (by decide)))).trans
  (after_of_forall_not_mem (b := (Proc.devRef .tc main_arg9)) opsL3a W (List.forall_iff_forall_mem.mp (by
    simp only [opsL3a, List.Forall, nullary_writes, unary_writes, binary_writes, ternary_writes, quaternary_writes, reshape_writes, Finset.mem_singleton]
    repeat' apply And.intro
    all_goals exact devRef_ne_of_ne (by decide))))

theorem passL3_arg12 (W : Valuation τ sig (Elt F)) : after opsL3b (after opsL3a W) (Proc.devRef .tc main_arg12) = W (Proc.devRef .tc main_arg12) :=
  (after_of_forall_not_mem (b := (Proc.devRef .tc main_arg12)) opsL3b (after opsL3a W) (List.forall_iff_forall_mem.mp (by
    simp only [opsL3b, List.Forall, nullary_writes, unary_writes, binary_writes, ternary_writes, quaternary_writes, reshape_writes, Finset.mem_singleton]
    repeat' apply And.intro
    all_goals exact devRef_ne_of_ne (by decide)))).trans
  (after_of_forall_not_mem (b := (Proc.devRef .tc main_arg12)) opsL3a W (List.forall_iff_forall_mem.mp (by
    simp only [opsL3a, List.Forall, nullary_writes, unary_writes, binary_writes, ternary_writes, quaternary_writes, reshape_writes, Finset.mem_singleton]
    repeat' apply And.intro
    all_goals exact devRef_ne_of_ne (by decide))))

theorem passL3_arg13 (W : Valuation τ sig (Elt F)) : after opsL3b (after opsL3a W) (Proc.devRef .tc main_arg13) = W (Proc.devRef .tc main_arg13) :=
  (after_of_forall_not_mem (b := (Proc.devRef .tc main_arg13)) opsL3b (after opsL3a W) (List.forall_iff_forall_mem.mp (by
    simp only [opsL3b, List.Forall, nullary_writes, unary_writes, binary_writes, ternary_writes, quaternary_writes, reshape_writes, Finset.mem_singleton]
    repeat' apply And.intro
    all_goals exact devRef_ne_of_ne (by decide)))).trans
  (after_of_forall_not_mem (b := (Proc.devRef .tc main_arg13)) opsL3a W (List.forall_iff_forall_mem.mp (by
    simp only [opsL3a, List.Forall, nullary_writes, unary_writes, binary_writes, ternary_writes, quaternary_writes, reshape_writes, Finset.mem_singleton]
    repeat' apply And.intro
    all_goals exact devRef_ne_of_ne (by decide))))

/-! ## Stage L4 -/

theorem passL4_arg12 (W : Valuation τ sig (Elt F)) : after opsL4b (after opsL4a W) (Proc.devRef .tc main_arg12) = W (Proc.devRef .tc main_arg12) :=
  (after_of_forall_not_mem (b := (Proc.devRef .tc main_arg12)) opsL4b (after opsL4a W) (List.forall_iff_forall_mem.mp (by
    simp only [opsL4b, List.Forall, nullary_writes, unary_writes, binary_writes, ternary_writes, quaternary_writes, reshape_writes, Finset.mem_singleton]
    repeat' apply And.intro
    all_goals exact devRef_ne_of_ne (by decide)))).trans
  (after_of_forall_not_mem (b := (Proc.devRef .tc main_arg12)) opsL4a W (List.forall_iff_forall_mem.mp (by
    simp only [opsL4a, List.Forall, nullary_writes, unary_writes, binary_writes, ternary_writes, quaternary_writes, reshape_writes, Finset.mem_singleton]
    repeat' apply And.intro
    all_goals exact devRef_ne_of_ne (by decide))))

theorem passL4_arg13 (W : Valuation τ sig (Elt F)) : after opsL4b (after opsL4a W) (Proc.devRef .tc main_arg13) = W (Proc.devRef .tc main_arg13) :=
  (after_of_forall_not_mem (b := (Proc.devRef .tc main_arg13)) opsL4b (after opsL4a W) (List.forall_iff_forall_mem.mp (by
    simp only [opsL4b, List.Forall, nullary_writes, unary_writes, binary_writes, ternary_writes, quaternary_writes, reshape_writes, Finset.mem_singleton]
    repeat' apply And.intro
    all_goals exact devRef_ne_of_ne (by decide)))).trans
  (after_of_forall_not_mem (b := (Proc.devRef .tc main_arg13)) opsL4a W (List.forall_iff_forall_mem.mp (by
    simp only [opsL4a, List.Forall, nullary_writes, unary_writes, binary_writes, ternary_writes, quaternary_writes, reshape_writes, Finset.mem_singleton]
    repeat' apply And.intro
    all_goals exact devRef_ne_of_ne (by decide))))

/-! ## Stage M1 -/

theorem passM1_v183 (W : Valuation τ sig (Elt F)) : after opsM1 W (Proc.devRef .tc main_v183) = W (Proc.devRef .tc main_v183) :=
  after_of_forall_not_mem (b := (Proc.devRef .tc main_v183)) opsM1 W (List.forall_iff_forall_mem.mp (by
    simp only [opsM1, List.Forall, nullary_writes, unary_writes, binary_writes, ternary_writes, quaternary_writes, reshape_writes, Finset.mem_singleton]
    repeat' apply And.intro
    all_goals exact devRef_ne_of_ne (by decide)))

theorem passM1_arg12 (W : Valuation τ sig (Elt F)) : after opsM1 W (Proc.devRef .tc main_arg12) = W (Proc.devRef .tc main_arg12) :=
  after_of_forall_not_mem (b := (Proc.devRef .tc main_arg12)) opsM1 W (List.forall_iff_forall_mem.mp (by
    simp only [opsM1, List.Forall, nullary_writes, unary_writes, binary_writes, ternary_writes, quaternary_writes, reshape_writes, Finset.mem_singleton]
    repeat' apply And.intro
    all_goals exact devRef_ne_of_ne (by decide)))

theorem passM1_arg13 (W : Valuation τ sig (Elt F)) : after opsM1 W (Proc.devRef .tc main_arg13) = W (Proc.devRef .tc main_arg13) :=
  after_of_forall_not_mem (b := (Proc.devRef .tc main_arg13)) opsM1 W (List.forall_iff_forall_mem.mp (by
    simp only [opsM1, List.Forall, nullary_writes, unary_writes, binary_writes, ternary_writes, quaternary_writes, reshape_writes, Finset.mem_singleton]
    repeat' apply And.intro
    all_goals exact devRef_ne_of_ne (by decide)))

/-! ## Stage M2 -/

theorem passM2_v183 (W : Valuation τ sig (Elt F)) : after opsM2 W (Proc.devRef .tc main_v183) = W (Proc.devRef .tc main_v183) :=
  after_of_forall_not_mem (b := (Proc.devRef .tc main_v183)) opsM2 W (List.forall_iff_forall_mem.mp (by
    simp only [opsM2, List.Forall, nullary_writes, unary_writes, binary_writes, ternary_writes, quaternary_writes, reshape_writes, Finset.mem_singleton]
    repeat' apply And.intro
    all_goals exact devRef_ne_of_ne (by decide)))

end Cert.ReferenceIdeal.Keep

end
-- ==== Proof.RefRead.lean ====
/-
  The reference's line read at its two results, as functions of the arguments.

  A layer of the reference is: the product xw of the previous activations with the layer's weights; dinv = deg^(-1/2)
  recomputed from the destinations; the messages xw gathered at the sources, scaled per edge by dinv at the source times
  dinv at the destination, added up at the destinations; plus xw scaled per node by dinv · dinv; plus the bias on every row;
  and jax's exponential linear unit of that, spelt select (x > 0) x (1 · expm1 (select (x > 0) 0 x)). Each layer's 69
  operations read back as that one function of the previous activations, the weights, the bias and the two endpoint lists; the
  classifier head's 19 operations as the unit of the activations' product with the [128,10] weights plus its bias. The line
  splits into its pieces, every buffer a later stage reads passes through the stages between unchanged, and the stages compose.
-/
import proofs.«147130_j78975858639084_1_alg».proof.Proof.RefOps
import proofs.«147130_j78975858639084_1_alg».proof.Proof.RefKeep
import proofs.«147130_j78975858639084_1_alg».proof.Proof.Layer
import Idealize.ShloMosaic.Lib.Pipeline.Frame

set_option maxRecDepth 16384

noncomputable section

namespace Cert.ReferenceIdeal.Read

open Cert.ReferenceIdeal Cert.ReferenceIdeal.Gen Cert.ReferenceIdeal.Line Cert.ReferenceIdeal.Keep Cert.ReferenceIdeal.Layer
open Idealize.ShloMosaic Idealize.ShloMosaic.TcCoe Idealize.SL.Sem Idealize.ShloMosaic.StableHlo

variable {F : FTy → Type} [FloatOps F]

-- the gathers, the scatter-adds and the reciprocal square root are never opened: both programs apply the same ones
attribute [local irreducible] Host.gather Host.scatterAdd Host.rsqrt

/-- jax's exponential linear unit on a [50000,128] array. -/
def eluH (x : (⟨S50000x128, .f32⟩ : BufTy).Contents (Elt F)) : (⟨S50000x128, .f32⟩ : BufTy).Contents (Elt F) :=
  select (cmpf .ogt x (broadcastInDim S50000x128 ![] bcast_S_S50000x128 (constant S_ .f32 0x00000000#32))) x
    (mulf (broadcastInDim S50000x128 ![] bcast_S_S50000x128 (constant S_ .f32 0x3F800000#32))
      (Host.expm1 (select (cmpf .ogt x (broadcastInDim S50000x128 ![] bcast_S_S50000x128 (constant S_ .f32 0x00000000#32)))
        (broadcastInDim S50000x128 ![] bcast_S_S50000x128 (id (constant S_ .f32 0x00000000#32))) x)))

/-- The same on a [50000,10] array. -/
def eluH10 (x : (⟨S50000x10, .f32⟩ : BufTy).Contents (Elt F)) : (⟨S50000x10, .f32⟩ : BufTy).Contents (Elt F) :=
  select (cmpf .ogt x (broadcastInDim S50000x10 ![] bcast_S_S50000x10 (constant S_ .f32 0x00000000#32))) x
    (mulf (broadcastInDim S50000x10 ![] bcast_S_S50000x10 (constant S_ .f32 0x3F800000#32))
      (Host.expm1 (select (cmpf .ogt x (broadcastInDim S50000x10 ![] bcast_S_S50000x10 (constant S_ .f32 0x00000000#32)))
        (broadcastInDim S50000x10 ![] bcast_S_S50000x10 (id (constant S_ .f32 0x00000000#32))) x)))

/-- The layer's pre-activation from the product xw, the bias and the endpoint lists. -/
def preAct (xw : (⟨S50000x128, .f32⟩ : BufTy).Contents (Elt F)) (b : (⟨S128, .f32⟩ : BufTy).Contents (Elt F)) (s d : (⟨S600000, .i32⟩ : BufTy).Contents (Elt F)) : (⟨S50000x128, .f32⟩ : BufTy).Contents (Elt F) :=
  addf (addf (aggOf xw (normOf (dinvOf d) s d) s d) (selfOf xw (mulf (dinvOf d) (dinvOf d)))) (biasRows b)

/-- One layer of the reference. -/
def refLayer (X : (⟨S50000x128, .f32⟩ : BufTy).Contents (Elt F)) (Wt : (⟨S128x128, .f32⟩ : BufTy).Contents (Elt F)) (b : (⟨S128, .f32⟩ : BufTy).Contents (Elt F))
    (s d : (⟨S600000, .i32⟩ : BufTy).Contents (Elt F)) : (⟨S50000x128, .f32⟩ : BufTy).Contents (Elt F) :=
  eluH (preAct (Host.dotGeneral dot_S50000x128_S128x128_S50000x128_1_0_0_1_n_n none X Wt) b s d)

/-- The classifier head of the reference. -/
def refHead (X : (⟨S50000x128, .f32⟩ : BufTy).Contents (Elt F)) (Wm : (⟨S128x10, .f32⟩ : BufTy).Contents (Elt F)) (bm : (⟨S10, .f32⟩ : BufTy).Contents (Elt F)) :
    (⟨S50000x10, .f32⟩ : BufTy).Contents (Elt F) :=
  eluH10 (addf (Host.dotGeneral dot_S50000x128_S128x10_S50000x10_1_0_0_1_n_n none X Wm)
    (broadcastInDim S50000x10 ![0, 1] bcast_S1x10_S50000x10_0_1 (broadcastInDim S1x10 ![1] bcast_S10_S1x10_1 bm)))

/-! ## Each stage read back, from any contents -/

theorem readP_src (W : Valuation τ sig (Elt F)) : after opsP W (Proc.devRef .tc main_v1) = srcOf (W (Proc.devRef .tc main_arg1)) := by
  after_results_simp
  rfl
theorem readP_dst (W : Valuation τ sig (Elt F)) : after opsP W (Proc.devRef .tc main_v3) = dstOf (W (Proc.devRef .tc main_arg1)) := by
  after_results_simp
  rfl

theorem readL1 (W : Valuation τ sig (Elt F)) : after opsL1 W (Proc.devRef .tc main_v48)
    = refLayer (W (Proc.devRef .tc main_arg0)) (W (Proc.devRef .tc main_arg2)) (W (Proc.devRef .tc main_arg3)) (W (Proc.devRef .tc main_v1)) (W (Proc.devRef .tc main_v3)) := by
  after_results_simp
  rfl
theorem readL2 (W : Valuation τ sig (Elt F)) : after opsL2b (after opsL2a W) (Proc.devRef .tc main_v93)
    = refLayer (W (Proc.devRef .tc main_v48)) (W (Proc.devRef .tc main_arg4)) (W (Proc.devRef .tc main_arg5)) (W (Proc.devRef .tc main_v1)) (W (Proc.devRef .tc main_v3)) := by
  after_results_simp
  rfl
theorem readL3 (W : Valuation τ sig (Elt F)) : after opsL3b (after opsL3a W) (Proc.devRef .tc main_v138)
    = refLayer (W (Proc.devRef .tc main_v93)) (W (Proc.devRef .tc main_arg6)) (W (Proc.devRef .tc main_arg7)) (W (Proc.devRef .tc main_v1)) (W (Proc.devRef .tc main_v3)) := by
  after_results_simp
  rfl
theorem readL4 (W : Valuation τ sig (Elt F)) : after opsL4b (after opsL4a W) (Proc.devRef .tc main_v183)
    = refLayer (W (Proc.devRef .tc main_v138)) (W (Proc.devRef .tc main_arg8)) (W (Proc.devRef .tc main_arg9)) (W (Proc.devRef .tc main_v1)) (W (Proc.devRef .tc main_v3)) := by
  after_results_simp
  rfl
theorem readM2 (W : Valuation τ sig (Elt F)) : after opsM2 W (Proc.devRef .tc main_v193)
    = refHead (W (Proc.devRef .tc main_v183)) (W (Proc.devRef .tc main_arg12)) (W (Proc.devRef .tc main_arg13)) := by
  after_results_simp
  rfl

/-! ## The line is its pieces in order -/

theorem ops_split (V : Valuation τ sig (Elt F)) : after ops V
    = after opsM2 (after opsM1 (after opsL4b (after opsL4a (after opsL3b (after opsL3a (after opsL2b (after opsL2a
        (after opsL1 (after opsP V))))))))) := by
  unfold ops win0 win1 win2 win3
  simp only [StableHlo.after_append]

/-! ## The two results -/

/-- The four layers composed, from the ten arrays they read. -/
def ref4 (x : (⟨S50000x128, .f32⟩ : BufTy).Contents (Elt F)) (e : (⟨S2x600000, .i32⟩ : BufTy).Contents (Elt F))
    (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F))
    (w3 : (⟨S128x128, .f32⟩ : BufTy).Contents (Elt F)) (b3 : (⟨S128, .f32⟩ : BufTy).Contents (Elt F))
    (w4 : (⟨S128x128, .f32⟩ : BufTy).Contents (Elt F)) (b4 : (⟨S128, .f32⟩ : BufTy).Contents (Elt F)) : (⟨S50000x128, .f32⟩ : BufTy).Contents (Elt F) :=
  refLayer (refLayer (refLayer (refLayer x w1 b1 (srcOf e) (dstOf e)) w2 b2 (srcOf e) (dstOf e)) w3 b3 (srcOf e) (dstOf e))
    w4 b4 (srcOf e) (dstOf e)

/-- The first result: the fourth layer's activations. -/
theorem result0 (V : Valuation τ sig (Elt F)) : after ops V (Proc.devRef .tc main_v183)
    = ref4 (V (Proc.devRef .tc main_arg0)) (V (Proc.devRef .tc main_arg1)) (V (Proc.devRef .tc main_arg2)) (V (Proc.devRef .tc main_arg3)) (V (Proc.devRef .tc main_arg4))
        (V (Proc.devRef .tc main_arg5)) (V (Proc.devRef .tc main_arg6)) (V (Proc.devRef .tc main_arg7)) (V (Proc.devRef .tc main_arg8)) (V (Proc.devRef .tc main_arg9)) := by
  rw [ops_split, passM2_v183, passM1_v183, readL4,
    readL3, passL3_arg8, passL3_arg9, passL3_v1, passL3_v3,
    readL2, passL2_arg6, passL2_arg7, passL2_arg8, passL2_arg9, passL2_v1, passL2_v3,
    readL1, passL1_arg4, passL1_arg5, passL1_arg6, passL1_arg7, passL1_arg8, passL1_arg9, passL1_v1, passL1_v3,
    readP_src, readP_dst, passP_arg0, passP_arg2, passP_arg3, passP_arg4, passP_arg5, passP_arg6, passP_arg7, passP_arg8,
    passP_arg9]
  rfl

/-- The second result: the classifier head of the fourth layer's activations. -/
theorem result1 (V : Valuation τ sig (Elt F)) : after ops V (Proc.devRef .tc main_v193)
    = refHead (ref4 (V (Proc.devRef .tc main_arg0)) (V (Proc.devRef .tc main_arg1)) (V (Proc.devRef .tc main_arg2)) (V (Proc.devRef .tc main_arg3)) (V (Proc.devRef .tc main_arg4))
        (V (Proc.devRef .tc main_arg5)) (V (Proc.devRef .tc main_arg6)) (V (Proc.devRef .tc main_arg7)) (V (Proc.devRef .tc main_arg8)) (V (Proc.devRef .tc main_arg9)))
        (V (Proc.devRef .tc main_arg12)) (V (Proc.devRef .tc main_arg13)) := by
  rw [ops_split, readM2, passM1_v183, passM1_arg12, passM1_arg13, readL4, passL4_arg12, passL4_arg13,
    readL3, passL3_arg8, passL3_arg9, passL3_arg12, passL3_arg13, passL3_v1, passL3_v3,
    readL2, passL2_arg6, passL2_arg7, passL2_arg8, passL2_arg9, passL2_arg12, passL2_arg13, passL2_v1, passL2_v3,
    readL1, passL1_arg4, passL1_arg5, passL1_arg6, passL1_arg7, passL1_arg8, passL1_arg9, passL1_arg12, passL1_arg13, passL1_v1, passL1_v3,
    readP_src, readP_dst, passP_arg0, passP_arg2, passP_arg3, passP_arg4, passP_arg5, passP_arg6, passP_arg7, passP_arg8,
    passP_arg9, passP_arg12, passP_arg13]
  rfl

/-- An argument the line never writes ends as launched. -/
theorem arg_kept (V : Valuation τ sig (Elt F)) (b : Ref sig .tc) (hb : ∀ op ∈ (ops : List (HloOp τ sig (Elt F))), (Proc.devRef .tc b : DevRef τ sig) ∉ op.writes) :
    after ops V (Proc.devRef .tc b) = V (Proc.devRef .tc b) :=
  after_of_forall_not_mem ops V hb

end Cert.ReferenceIdeal.Read

end
-- ==== Proof.Bridge.lean ====
/-
  The bridge: on the extended reals the kernel's layer and the reference's layer are one function.

  Three facts. (1) The kernel's projection array — entry (n, q) the sum over k of X (n,k) · W (k,q) — is the host's dot_general
  of X and W: both are the same contraction, read at an index. (2) The kernel's combine array of A, S and the bias row is the
  reference's exponential linear unit of (A + S) + the bias on every row: at each entry both take the unit of the same sum — the
  bias row read at (0, q) and the bias broadcast read at (n, q) are both b q — and the two spellings of the unit agree. (3) So a
  layer of the kernel, fed the per-edge and per-node degree factors the reference recomputes, is a layer of the reference, and
  the four layers compose. Nothing here needs an input to be finite: only sums and products are rearranged nowhere, the two
  sides are entry by entry the same expression.
-/
import proofs.«147130_j78975858639084_1_alg».proof.Proof.KernelRead
import proofs.«147130_j78975858639084_1_alg».proof.Proof.KernelStable
import proofs.«147130_j78975858639084_1_alg».proof.Proof.RefRead
import proofs.«147130_j78975858639084_1_alg».proof.Proof.LibPlainDot
import proofs.«147130_j78975858639084_1_alg».proof.Proof.EluAlgebra
import Idealize.ShloMosaic.Lib.ValueIdx
import Idealize.ShloMosaic.Lib.ValueLayout
import Idealize.ShloMosaic.Lib.Pipeline.Value

set_option maxRecDepth 16384

noncomputable section

namespace Cert.Bridge

open Idealize.ShloMosaic Idealize.ShloMosaic.ValueIdx Idealize.ShloMosaic.LibPlainDot Cert.GcnAlgebra
open Cert.KernelIdeal.Arrays (projArr combArr)
open Cert.KernelIdeal.Read (kLayer rowOf act1 act2 act3 act4)
open Cert.ReferenceIdeal.Read (eluH preAct refLayer ref4)
open Cert.ReferenceIdeal.Layer (srcOf dstOf dinvOf normOf aggOf selfOf biasRows)

attribute [local irreducible] Host.gather Host.scatterAdd Host.rsqrt

/-- (1) The projection array is the host's product. -/
theorem proj_eq_dot (X : (⟨2, ![50000, 128]⟩ : Shape).Idx → EReal) (Wt : (⟨2, ![128, 128]⟩ : Shape).Idx → EReal) :
    projArr X Wt = Host.dotGeneral (F := Ideal) (φ₁ := .f32) (φ₂ := .f32) Cert.ReferenceIdeal.dot_S50000x128_S128x128_S50000x128_1_0_0_1_n_n none X Wt := by
  funext i
  obtain ⟨r, q, rfl⟩ : ∃ (r : Fin 50000) (q : Fin 128), i = ix2 r q := ⟨i 0, i 1, eq_ix2 i⟩
  exact (dotGeneral_plain_apply (φ₁ := .f32) (φ₂ := .f32) 50000 128 128 none .single X Wt r q).symm

/-- The bias as a row, at (0, q), is b q. -/
theorem rowOf_at (b : (⟨1, ![128]⟩ : Shape).Idx → EReal) (q : Fin 128) : rowOf b (ix2 (0 : Fin 1) q) = b (ix1 q) :=
  shapeCast_a_1a_apply b _ 0 q

/-- The bias on every row, at (n, q), is b q. -/
theorem biasRows_at (b : (⟨1, ![128]⟩ : Shape).Idx → EReal) (n : Fin 50000) (q : Fin 128) :
    biasRows (F := Ideal) b (ix2 n q) = b (ix1 q) := by
  unfold biasRows
  rw [broadcastInDim_apply _ _ _ (ix2 n q) (ix2 (0 : Fin 1) q) (fun a => by match a with | ⟨0, _⟩ => rfl | ⟨1, _⟩ => rfl)]
  exact broadcastInDim_apply _ _ _ (ix2 (0 : Fin 1) q) (ix1 q) (fun a => by match a with | ⟨0, _⟩ => rfl)

/-- (2) The combine array is the reference's unit of the sum. -/
theorem comb_eq_elu (A S : (⟨2, ![50000, 128]⟩ : Shape).Idx → EReal) (b : (⟨1, ![128]⟩ : Shape).Idx → EReal) :
    combArr A S (rowOf b) = eluH (F := Ideal) (addf (F := Ideal) (φ := .f32) (addf (F := Ideal) (φ := .f32) A S) (biasRows (F := Ideal) b)) := by
  funext i
  obtain ⟨n, q, rfl⟩ : ∃ (n : Fin 50000) (q : Fin 128), i = ix2 n q := ⟨i 0, i 1, eq_ix2 i⟩
  show eluKer ((A (ix2 n q) + S (ix2 n q)) + rowOf b (ix2 (0 : Fin 1) q))
    = eluRef ((A (ix2 n q) + S (ix2 n q)) + biasRows (F := Ideal) b (ix2 n q))
  rw [rowOf_at, biasRows_at, eluRef_eq_eluKer]

/-- (3) A layer of the kernel, at the degree factors the reference recomputes, is a layer of the reference. -/
theorem layer_eq (X : (⟨2, ![50000, 128]⟩ : Shape).Idx → EReal) (Wt : (⟨2, ![128, 128]⟩ : Shape).Idx → EReal)
    (b : (⟨1, ![128]⟩ : Shape).Idx → EReal) (s d : (⟨Cert.ReferenceIdeal.S600000, .i32⟩ : BufTy).Contents (Elt Ideal)) :
    kLayer X Wt b (normOf (dinvOf d) s d) (mulf (dinvOf d) (dinvOf d)) s d = refLayer (F := Ideal) X Wt b s d := by
  unfold kLayer refLayer preAct
  rw [proj_eq_dot, comb_eq_elu]

/-- The four layers: the kernel's last activations are the reference's, as functions of the launch memory. -/
theorem act4_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    act4 m ρ c = ref4 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)) := by
  unfold act4 act3 act2 act1 ref4
  rw [show Cert.KernelIdeal.Read.src m ρ c = _ from Cert.KernelIdeal.Stable.src_eq m ρ c,
    show Cert.KernelIdeal.Read.dst m ρ c = _ from Cert.KernelIdeal.Stable.dst_eq m ρ c,
    show Cert.KernelIdeal.Read.nrm m ρ c = _ from Cert.KernelIdeal.Stable.nrm_eq m ρ c,
    show Cert.KernelIdeal.Read.dsq m ρ c = _ from Cert.KernelIdeal.Stable.dsq_eq m ρ c]
  rw [layer_eq, layer_eq, layer_eq, layer_eq]

end Cert.Bridge

end
-- ==== Proof.BridgeHead.lean ====
/-
  The bridge for the second result: the kernel's padded, sliced classifier is the reference's classifier.

  Entry (n, j) of the kernel's result, j below 10, is entry (n, j) of the [50000,128] classifier array: the exponential linear
  unit of the sum over k of X (n,k) · Wpad (k,j) plus bpad j. The padded weights at (k, j) and the padded bias at j are the
  weights at (k, j) and the bias at j — the zeros around them are never read. The reference's entry is the unit of the host's
  product of X with the [128,10] weights at (n, j), the same sum, plus the bias broadcast, b j. The two spellings of the unit
  agree.
-/
import proofs.«147130_j78975858639084_1_alg».proof.Proof.KernelHead
import proofs.«147130_j78975858639084_1_alg».proof.Proof.RefRead
import proofs.«147130_j78975858639084_1_alg».proof.Proof.Pad
import proofs.«147130_j78975858639084_1_alg».proof.Proof.Bridge
import proofs.«147130_j78975858639084_1_alg».proof.Proof.LibPlainDot
import proofs.«147130_j78975858639084_1_alg».proof.Proof.EluAlgebra
import Idealize.ShloMosaic.Lib.ValueIdx
import Idealize.ShloMosaic.Lib.ValueLayout
import Idealize.ShloMosaic.Lib.Pipeline.Value

set_option maxRecDepth 16384

noncomputable section

namespace Cert.BridgeHead

open Idealize.ShloMosaic Idealize.ShloMosaic.ValueIdx Idealize.ShloMosaic.LibPlainDot Cert.GcnAlgebra
open Cert.KernelIdeal.Arrays (headArr)
open Cert.KernelIdeal.Head (zerosW zerosB sliceOf)
open Cert.KernelIdeal.Pad (padW padB padW_hit padB_hit)
open Cert.KernelIdeal.Read (rowOf act4)
open Cert.ReferenceIdeal.Read (refHead eluH10 ref4)
open Cert.Bridge (rowOf_at act4_eq)

/-- The [10] bias on every row of a [50000,10] array, at (n, j), is b j. -/
theorem bias10_at (bm : (⟨1, ![10]⟩ : Shape).Idx → EReal) (n : Fin 50000) (j : Fin 10) :
    (broadcastInDim Cert.ReferenceIdeal.S50000x10 ![0, 1] Cert.ReferenceIdeal.Gen.bcast_S1x10_S50000x10_0_1
      (broadcastInDim Cert.ReferenceIdeal.S1x10 ![1] Cert.ReferenceIdeal.Gen.bcast_S10_S1x10_1 bm)) (ix2 n j) = bm (ix1 j) := by
  rw [broadcastInDim_apply _ _ _ (ix2 n j) (ix2 (0 : Fin 1) j) (fun a => by match a with | ⟨0, _⟩ => rfl | ⟨1, _⟩ => rfl)]
  exact broadcastInDim_apply _ _ _ (ix2 (0 : Fin 1) j) (ix1 j) (fun a => by match a with | ⟨0, _⟩ => rfl)

/-- The kernel's classifier (padded weights and bias, first ten columns kept) is the reference's. -/
theorem head_eq (X : (⟨2, ![50000, 128]⟩ : Shape).Idx → EReal) (Wm : (⟨2, ![128, 10]⟩ : Shape).Idx → EReal)
    (bm : (⟨1, ![10]⟩ : Shape).Idx → EReal) :
    sliceOf (headArr X (padW zerosW Wm) (rowOf (padB zerosB bm))) = refHead (F := Ideal) X Wm bm := by
  funext i
  obtain ⟨n, j, rfl⟩ : ∃ (n : Fin 50000) (j : Fin 10), i = ix2 n j := ⟨i 0, i 1, eq_ix2 i⟩
  have hj' : j.val < 128 := by have := j.isLt; omega
  have hs : sliceOf (headArr X (padW zerosW Wm) (rowOf (padB zerosB bm))) (ix2 n j)
      = headArr X (padW zerosW Wm) (rowOf (padB zerosB bm)) (ix2 n (⟨j.val, hj'⟩ : Fin 128)) :=
    slice2_axis1_apply 0 _ _ n j ⟨j.val, hj'⟩ (Nat.zero_add _).symm
  have hW : ∀ k : Fin 128, padW zerosW Wm (ix2 k (⟨j.val, hj'⟩ : Fin 128)) = Wm (ix2 k j) :=
    fun k => padW_hit zerosW Wm k j ⟨j.val, hj'⟩ rfl
  have hb : rowOf (padB zerosB bm) (ix2 (0 : Fin 1) (⟨j.val, hj'⟩ : Fin 128)) = bm (ix1 j) :=
    (rowOf_at _ _).trans (padB_hit zerosB bm j ⟨j.val, hj'⟩ rfl)
  have hsum : (∑ k : Fin 128, X (ix2 n k) * padW zerosW Wm (ix2 k (⟨j.val, hj'⟩ : Fin 128)))
      = ∑ k : Fin 128, X (ix2 n k) * Wm (ix2 k j) := Finset.sum_congr rfl fun k _ => by rw [hW k]
  have hd : Host.dotGeneral (F := Ideal) (φ₁ := .f32) (φ₂ := .f32) Cert.ReferenceIdeal.dot_S50000x128_S128x10_S50000x10_1_0_0_1_n_n none X Wm (ix2 n j)
      = ∑ k : Fin 128, X (ix2 n k) * Wm (ix2 k j) :=
    dotGeneral_plain_apply (φ₁ := .f32) (φ₂ := .f32) 50000 128 10 none .single X Wm n j
  rw [hs]
  show eluKer ((∑ k : Fin 128, X (ix2 n k) * padW zerosW Wm (ix2 k (⟨j.val, hj'⟩ : Fin 128)))
        + rowOf (padB zerosB bm) (ix2 (0 : Fin 1) (⟨j.val, hj'⟩ : Fin 128)))
    = eluRef (Host.dotGeneral (F := Ideal) (φ₁ := .f32) (φ₂ := .f32) Cert.ReferenceIdeal.dot_S50000x128_S128x10_S50000x10_1_0_0_1_n_n none X Wm (ix2 n j)
        + (broadcastInDim Cert.ReferenceIdeal.S50000x10 ![0, 1] Cert.ReferenceIdeal.Gen.bcast_S1x10_S50000x10_0_1
            (broadcastInDim Cert.ReferenceIdeal.S1x10 ![1] Cert.ReferenceIdeal.Gen.bcast_S10_S1x10_1 bm)) (ix2 n j))
  rw [hsum, hb, hd, bias10_at, eluRef_eq_eluKer]

/-- The kernel's second result, as a function of the launch memory, is the reference's. -/
theorem result1_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    sliceOf (headArr (act4 m ρ c)
        (padW zerosW (m ((c.tc : Thread Cert.KernelIdeal.nD Cert.KernelIdeal.τ).loc Cert.KernelIdeal.main_arg12)))
        (rowOf (padB zerosB (m ((c.tc : Thread Cert.KernelIdeal.nD Cert.KernelIdeal.τ).loc Cert.KernelIdeal.main_arg13)))))
      = refHead (F := Ideal) (ref4 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9)))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13)) := by
  rw [head_eq, act4_eq]

end Cert.BridgeHead

end
-- ==== Proof.RefArgsA.lean ====
/-
  The reference's argument arrays end as launched: every operation of the line writes a buffer of its own, none an argument,
  so each argument passes through the ten pieces unchanged. Here: arguments 0 … 6.
-/
import proofs.«147130_j78975858639084_1_alg».proof.Proof.RefOps
import proofs.«147130_j78975858639084_1_alg».proof.Proof.RefRead

set_option maxRecDepth 16384

noncomputable section

namespace Cert.ReferenceIdeal.ArgsA

open Cert.ReferenceIdeal Cert.ReferenceIdeal.Gen Cert.ReferenceIdeal.Line Cert.ReferenceIdeal.Read
open Idealize.ShloMosaic Idealize.ShloMosaic.TcCoe Idealize.SL.Sem Idealize.ShloMosaic.StableHlo

variable {F : FTy → Type} [FloatOps F]

/-- Argument 0 ends as launched. -/
theorem kept_arg0 (V : Valuation τ sig (Elt F)) : after ops V (Proc.devRef .tc main_arg0) = V (Proc.devRef .tc main_arg0) := by
  rw [ops_split]
  refine (after_of_forall_not_mem (b := (Proc.devRef .tc main_arg0)) opsM2 _ (List.forall_iff_forall_mem.mp (by
      simp only [opsM2, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg0)) opsM1 _ (List.forall_iff_forall_mem.mp (by
      simp only [opsM1, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg0)) opsL4b _ (List.forall_iff_forall_mem.mp (by
      simp only [opsL4b, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg0)) opsL4a _ (List.forall_iff_forall_mem.mp (by
      simp only [opsL4a, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg0)) opsL3b _ (List.forall_iff_forall_mem.mp (by
      simp only [opsL3b, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg0)) opsL3a _ (List.forall_iff_forall_mem.mp (by
      simp only [opsL3a, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg0)) opsL2b _ (List.forall_iff_forall_mem.mp (by
      simp only [opsL2b, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg0)) opsL2a _ (List.forall_iff_forall_mem.mp (by
      simp only [opsL2a, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg0)) opsL1 _ (List.forall_iff_forall_mem.mp (by
      simp only [opsL1, List.Forall, nullary_writes, unary_writes, binary_writes, ternary_writes, quaternary_writes, reshape_writes, Finset.mem_singleton]
      repeat' apply And.intro
      all_goals exact devRef_ne_of_ne (by decide)))).trans ?_
  exact (after_of_forall_not_mem (b := (Proc.devRef .tc main_arg0)) opsP _ (List.forall_iff_forall_mem.mp (by
      simp only [opsP, List.Forall, nullary_writes, unary_writes, binary_writes, ternary_writes, quaternary_writes, reshape_writes, Finset.mem_singleton]
      repeat' apply And.intro
      all_goals exact devRef_ne_of_ne (by decide))))

/-- Argument 1 ends as launched. -/
theorem kept_arg1 (V : Valuation τ sig (Elt F)) : after ops V (Proc.devRef .tc main_arg1) = V (Proc.devRef .tc main_arg1) := by
  rw [ops_split]
  refine (after_of_forall_not_mem (b := (Proc.devRef .tc main_arg1)) opsM2 _ (List.forall_iff_forall_mem.mp (by
      simp only [opsM2, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg1)) opsM1 _ (List.forall_iff_forall_mem.mp (by
      simp only [opsM1, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg1)) opsL4b _ (List.forall_iff_forall_mem.mp (by
      simp only [opsL4b, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg1)) opsL4a _ (List.forall_iff_forall_mem.mp (by
      simp only [opsL4a, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg1)) opsL3b _ (List.forall_iff_forall_mem.mp (by
      simp only [opsL3b, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg1)) opsL3a _ (List.forall_iff_forall_mem.mp (by
      simp only [opsL3a, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg1)) opsL2b _ (List.forall_iff_forall_mem.mp (by
      simp only [opsL2b, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg1)) opsL2a _ (List.forall_iff_forall_mem.mp (by
      simp only [opsL2a, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg1)) opsL1 _ (List.forall_iff_forall_mem.mp (by
      simp only [opsL1, List.Forall, nullary_writes, unary_writes, binary_writes, ternary_writes, quaternary_writes, reshape_writes, Finset.mem_singleton]
      repeat' apply And.intro
      all_goals exact devRef_ne_of_ne (by decide)))).trans ?_
  exact (after_of_forall_not_mem (b := (Proc.devRef .tc main_arg1)) opsP _ (List.forall_iff_forall_mem.mp (by
      simp only [opsP, List.Forall, nullary_writes, unary_writes, binary_writes, ternary_writes, quaternary_writes, reshape_writes, Finset.mem_singleton]
      repeat' apply And.intro
      all_goals exact devRef_ne_of_ne (by decide))))

/-- Argument 2 ends as launched. -/
theorem kept_arg2 (V : Valuation τ sig (Elt F)) : after ops V (Proc.devRef .tc main_arg2) = V (Proc.devRef .tc main_arg2) := by
  rw [ops_split]
  refine (after_of_forall_not_mem (b := (Proc.devRef .tc main_arg2)) opsM2 _ (List.forall_iff_forall_mem.mp (by
      simp only [opsM2, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg2)) opsM1 _ (List.forall_iff_forall_mem.mp (by
      simp only [opsM1, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg2)) opsL4b _ (List.forall_iff_forall_mem.mp (by
      simp only [opsL4b, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg2)) opsL4a _ (List.forall_iff_forall_mem.mp (by
      simp only [opsL4a, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg2)) opsL3b _ (List.forall_iff_forall_mem.mp (by
      simp only [opsL3b, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg2)) opsL3a _ (List.forall_iff_forall_mem.mp (by
      simp only [opsL3a, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg2)) opsL2b _ (List.forall_iff_forall_mem.mp (by
      simp only [opsL2b, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg2)) opsL2a _ (List.forall_iff_forall_mem.mp (by
      simp only [opsL2a, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg2)) opsL1 _ (List.forall_iff_forall_mem.mp (by
      simp only [opsL1, List.Forall, nullary_writes, unary_writes, binary_writes, ternary_writes, quaternary_writes, reshape_writes, Finset.mem_singleton]
      repeat' apply And.intro
      all_goals exact devRef_ne_of_ne (by decide)))).trans ?_
  exact (after_of_forall_not_mem (b := (Proc.devRef .tc main_arg2)) opsP _ (List.forall_iff_forall_mem.mp (by
      simp only [opsP, List.Forall, nullary_writes, unary_writes, binary_writes, ternary_writes, quaternary_writes, reshape_writes, Finset.mem_singleton]
      repeat' apply And.intro
      all_goals exact devRef_ne_of_ne (by decide))))

/-- Argument 3 ends as launched. -/
theorem kept_arg3 (V : Valuation τ sig (Elt F)) : after ops V (Proc.devRef .tc main_arg3) = V (Proc.devRef .tc main_arg3) := by
  rw [ops_split]
  refine (after_of_forall_not_mem (b := (Proc.devRef .tc main_arg3)) opsM2 _ (List.forall_iff_forall_mem.mp (by
      simp only [opsM2, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg3)) opsM1 _ (List.forall_iff_forall_mem.mp (by
      simp only [opsM1, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg3)) opsL4b _ (List.forall_iff_forall_mem.mp (by
      simp only [opsL4b, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg3)) opsL4a _ (List.forall_iff_forall_mem.mp (by
      simp only [opsL4a, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg3)) opsL3b _ (List.forall_iff_forall_mem.mp (by
      simp only [opsL3b, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg3)) opsL3a _ (List.forall_iff_forall_mem.mp (by
      simp only [opsL3a, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg3)) opsL2b _ (List.forall_iff_forall_mem.mp (by
      simp only [opsL2b, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg3)) opsL2a _ (List.forall_iff_forall_mem.mp (by
      simp only [opsL2a, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg3)) opsL1 _ (List.forall_iff_forall_mem.mp (by
      simp only [opsL1, List.Forall, nullary_writes, unary_writes, binary_writes, ternary_writes, quaternary_writes, reshape_writes, Finset.mem_singleton]
      repeat' apply And.intro
      all_goals exact devRef_ne_of_ne (by decide)))).trans ?_
  exact (after_of_forall_not_mem (b := (Proc.devRef .tc main_arg3)) opsP _ (List.forall_iff_forall_mem.mp (by
      simp only [opsP, List.Forall, nullary_writes, unary_writes, binary_writes, ternary_writes, quaternary_writes, reshape_writes, Finset.mem_singleton]
      repeat' apply And.intro
      all_goals exact devRef_ne_of_ne (by decide))))

/-- Argument 4 ends as launched. -/
theorem kept_arg4 (V : Valuation τ sig (Elt F)) : after ops V (Proc.devRef .tc main_arg4) = V (Proc.devRef .tc main_arg4) := by
  rw [ops_split]
  refine (after_of_forall_not_mem (b := (Proc.devRef .tc main_arg4)) opsM2 _ (List.forall_iff_forall_mem.mp (by
      simp only [opsM2, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg4)) opsM1 _ (List.forall_iff_forall_mem.mp (by
      simp only [opsM1, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg4)) opsL4b _ (List.forall_iff_forall_mem.mp (by
      simp only [opsL4b, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg4)) opsL4a _ (List.forall_iff_forall_mem.mp (by
      simp only [opsL4a, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg4)) opsL3b _ (List.forall_iff_forall_mem.mp (by
      simp only [opsL3b, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg4)) opsL3a _ (List.forall_iff_forall_mem.mp (by
      simp only [opsL3a, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg4)) opsL2b _ (List.forall_iff_forall_mem.mp (by
      simp only [opsL2b, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg4)) opsL2a _ (List.forall_iff_forall_mem.mp (by
      simp only [opsL2a, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg4)) opsL1 _ (List.forall_iff_forall_mem.mp (by
      simp only [opsL1, List.Forall, nullary_writes, unary_writes, binary_writes, ternary_writes, quaternary_writes, reshape_writes, Finset.mem_singleton]
      repeat' apply And.intro
      all_goals exact devRef_ne_of_ne (by decide)))).trans ?_
  exact (after_of_forall_not_mem (b := (Proc.devRef .tc main_arg4)) opsP _ (List.forall_iff_forall_mem.mp (by
      simp only [opsP, List.Forall, nullary_writes, unary_writes, binary_writes, ternary_writes, quaternary_writes, reshape_writes, Finset.mem_singleton]
      repeat' apply And.intro
      all_goals exact devRef_ne_of_ne (by decide))))

/-- Argument 5 ends as launched. -/
theorem kept_arg5 (V : Valuation τ sig (Elt F)) : after ops V (Proc.devRef .tc main_arg5) = V (Proc.devRef .tc main_arg5) := by
  rw [ops_split]
  refine (after_of_forall_not_mem (b := (Proc.devRef .tc main_arg5)) opsM2 _ (List.forall_iff_forall_mem.mp (by
      simp only [opsM2, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg5)) opsM1 _ (List.forall_iff_forall_mem.mp (by
      simp only [opsM1, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg5)) opsL4b _ (List.forall_iff_forall_mem.mp (by
      simp only [opsL4b, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg5)) opsL4a _ (List.forall_iff_forall_mem.mp (by
      simp only [opsL4a, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg5)) opsL3b _ (List.forall_iff_forall_mem.mp (by
      simp only [opsL3b, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg5)) opsL3a _ (List.forall_iff_forall_mem.mp (by
      simp only [opsL3a, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg5)) opsL2b _ (List.forall_iff_forall_mem.mp (by
      simp only [opsL2b, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg5)) opsL2a _ (List.forall_iff_forall_mem.mp (by
      simp only [opsL2a, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg5)) opsL1 _ (List.forall_iff_forall_mem.mp (by
      simp only [opsL1, List.Forall, nullary_writes, unary_writes, binary_writes, ternary_writes, quaternary_writes, reshape_writes, Finset.mem_singleton]
      repeat' apply And.intro
      all_goals exact devRef_ne_of_ne (by decide)))).trans ?_
  exact (after_of_forall_not_mem (b := (Proc.devRef .tc main_arg5)) opsP _ (List.forall_iff_forall_mem.mp (by
      simp only [opsP, List.Forall, nullary_writes, unary_writes, binary_writes, ternary_writes, quaternary_writes, reshape_writes, Finset.mem_singleton]
      repeat' apply And.intro
      all_goals exact devRef_ne_of_ne (by decide))))

/-- Argument 6 ends as launched. -/
theorem kept_arg6 (V : Valuation τ sig (Elt F)) : after ops V (Proc.devRef .tc main_arg6) = V (Proc.devRef .tc main_arg6) := by
  rw [ops_split]
  refine (after_of_forall_not_mem (b := (Proc.devRef .tc main_arg6)) opsM2 _ (List.forall_iff_forall_mem.mp (by
      simp only [opsM2, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg6)) opsM1 _ (List.forall_iff_forall_mem.mp (by
      simp only [opsM1, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg6)) opsL4b _ (List.forall_iff_forall_mem.mp (by
      simp only [opsL4b, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg6)) opsL4a _ (List.forall_iff_forall_mem.mp (by
      simp only [opsL4a, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg6)) opsL3b _ (List.forall_iff_forall_mem.mp (by
      simp only [opsL3b, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg6)) opsL3a _ (List.forall_iff_forall_mem.mp (by
      simp only [opsL3a, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg6)) opsL2b _ (List.forall_iff_forall_mem.mp (by
      simp only [opsL2b, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg6)) opsL2a _ (List.forall_iff_forall_mem.mp (by
      simp only [opsL2a, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg6)) opsL1 _ (List.forall_iff_forall_mem.mp (by
      simp only [opsL1, List.Forall, nullary_writes, unary_writes, binary_writes, ternary_writes, quaternary_writes, reshape_writes, Finset.mem_singleton]
      repeat' apply And.intro
      all_goals exact devRef_ne_of_ne (by decide)))).trans ?_
  exact (after_of_forall_not_mem (b := (Proc.devRef .tc main_arg6)) opsP _ (List.forall_iff_forall_mem.mp (by
      simp only [opsP, List.Forall, nullary_writes, unary_writes, binary_writes, ternary_writes, quaternary_writes, reshape_writes, Finset.mem_singleton]
      repeat' apply And.intro
      all_goals exact devRef_ne_of_ne (by decide))))

end Cert.ReferenceIdeal.ArgsA

end
-- ==== Proof.RefArgsB.lean ====
/-
  The reference's argument arrays end as launched: every operation of the line writes a buffer of its own, none an argument,
  so each argument passes through the ten pieces unchanged. Here: arguments 7 … 13.
-/
import proofs.«147130_j78975858639084_1_alg».proof.Proof.RefOps
import proofs.«147130_j78975858639084_1_alg».proof.Proof.RefRead

set_option maxRecDepth 16384

noncomputable section

namespace Cert.ReferenceIdeal.ArgsB

open Cert.ReferenceIdeal Cert.ReferenceIdeal.Gen Cert.ReferenceIdeal.Line Cert.ReferenceIdeal.Read
open Idealize.ShloMosaic Idealize.ShloMosaic.TcCoe Idealize.SL.Sem Idealize.ShloMosaic.StableHlo

variable {F : FTy → Type} [FloatOps F]

/-- Argument 7 ends as launched. -/
theorem kept_arg7 (V : Valuation τ sig (Elt F)) : after ops V (Proc.devRef .tc main_arg7) = V (Proc.devRef .tc main_arg7) := by
  rw [ops_split]
  refine (after_of_forall_not_mem (b := (Proc.devRef .tc main_arg7)) opsM2 _ (List.forall_iff_forall_mem.mp (by
      simp only [opsM2, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg7)) opsM1 _ (List.forall_iff_forall_mem.mp (by
      simp only [opsM1, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg7)) opsL4b _ (List.forall_iff_forall_mem.mp (by
      simp only [opsL4b, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg7)) opsL4a _ (List.forall_iff_forall_mem.mp (by
      simp only [opsL4a, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg7)) opsL3b _ (List.forall_iff_forall_mem.mp (by
      simp only [opsL3b, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg7)) opsL3a _ (List.forall_iff_forall_mem.mp (by
      simp only [opsL3a, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg7)) opsL2b _ (List.forall_iff_forall_mem.mp (by
      simp only [opsL2b, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg7)) opsL2a _ (List.forall_iff_forall_mem.mp (by
      simp only [opsL2a, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg7)) opsL1 _ (List.forall_iff_forall_mem.mp (by
      simp only [opsL1, List.Forall, nullary_writes, unary_writes, binary_writes, ternary_writes, quaternary_writes, reshape_writes, Finset.mem_singleton]
      repeat' apply And.intro
      all_goals exact devRef_ne_of_ne (by decide)))).trans ?_
  exact (after_of_forall_not_mem (b := (Proc.devRef .tc main_arg7)) opsP _ (List.forall_iff_forall_mem.mp (by
      simp only [opsP, List.Forall, nullary_writes, unary_writes, binary_writes, ternary_writes, quaternary_writes, reshape_writes, Finset.mem_singleton]
      repeat' apply And.intro
      all_goals exact devRef_ne_of_ne (by decide))))

/-- Argument 8 ends as launched. -/
theorem kept_arg8 (V : Valuation τ sig (Elt F)) : after ops V (Proc.devRef .tc main_arg8) = V (Proc.devRef .tc main_arg8) := by
  rw [ops_split]
  refine (after_of_forall_not_mem (b := (Proc.devRef .tc main_arg8)) opsM2 _ (List.forall_iff_forall_mem.mp (by
      simp only [opsM2, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg8)) opsM1 _ (List.forall_iff_forall_mem.mp (by
      simp only [opsM1, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg8)) opsL4b _ (List.forall_iff_forall_mem.mp (by
      simp only [opsL4b, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg8)) opsL4a _ (List.forall_iff_forall_mem.mp (by
      simp only [opsL4a, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg8)) opsL3b _ (List.forall_iff_forall_mem.mp (by
      simp only [opsL3b, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg8)) opsL3a _ (List.forall_iff_forall_mem.mp (by
      simp only [opsL3a, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg8)) opsL2b _ (List.forall_iff_forall_mem.mp (by
      simp only [opsL2b, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg8)) opsL2a _ (List.forall_iff_forall_mem.mp (by
      simp only [opsL2a, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg8)) opsL1 _ (List.forall_iff_forall_mem.mp (by
      simp only [opsL1, List.Forall, nullary_writes, unary_writes, binary_writes, ternary_writes, quaternary_writes, reshape_writes, Finset.mem_singleton]
      repeat' apply And.intro
      all_goals exact devRef_ne_of_ne (by decide)))).trans ?_
  exact (after_of_forall_not_mem (b := (Proc.devRef .tc main_arg8)) opsP _ (List.forall_iff_forall_mem.mp (by
      simp only [opsP, List.Forall, nullary_writes, unary_writes, binary_writes, ternary_writes, quaternary_writes, reshape_writes, Finset.mem_singleton]
      repeat' apply And.intro
      all_goals exact devRef_ne_of_ne (by decide))))

/-- Argument 9 ends as launched. -/
theorem kept_arg9 (V : Valuation τ sig (Elt F)) : after ops V (Proc.devRef .tc main_arg9) = V (Proc.devRef .tc main_arg9) := by
  rw [ops_split]
  refine (after_of_forall_not_mem (b := (Proc.devRef .tc main_arg9)) opsM2 _ (List.forall_iff_forall_mem.mp (by
      simp only [opsM2, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg9)) opsM1 _ (List.forall_iff_forall_mem.mp (by
      simp only [opsM1, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg9)) opsL4b _ (List.forall_iff_forall_mem.mp (by
      simp only [opsL4b, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg9)) opsL4a _ (List.forall_iff_forall_mem.mp (by
      simp only [opsL4a, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg9)) opsL3b _ (List.forall_iff_forall_mem.mp (by
      simp only [opsL3b, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg9)) opsL3a _ (List.forall_iff_forall_mem.mp (by
      simp only [opsL3a, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg9)) opsL2b _ (List.forall_iff_forall_mem.mp (by
      simp only [opsL2b, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg9)) opsL2a _ (List.forall_iff_forall_mem.mp (by
      simp only [opsL2a, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg9)) opsL1 _ (List.forall_iff_forall_mem.mp (by
      simp only [opsL1, List.Forall, nullary_writes, unary_writes, binary_writes, ternary_writes, quaternary_writes, reshape_writes, Finset.mem_singleton]
      repeat' apply And.intro
      all_goals exact devRef_ne_of_ne (by decide)))).trans ?_
  exact (after_of_forall_not_mem (b := (Proc.devRef .tc main_arg9)) opsP _ (List.forall_iff_forall_mem.mp (by
      simp only [opsP, List.Forall, nullary_writes, unary_writes, binary_writes, ternary_writes, quaternary_writes, reshape_writes, Finset.mem_singleton]
      repeat' apply And.intro
      all_goals exact devRef_ne_of_ne (by decide))))

/-- Argument 10 ends as launched. -/
theorem kept_arg10 (V : Valuation τ sig (Elt F)) : after ops V (Proc.devRef .tc main_arg10) = V (Proc.devRef .tc main_arg10) := by
  rw [ops_split]
  refine (after_of_forall_not_mem (b := (Proc.devRef .tc main_arg10)) opsM2 _ (List.forall_iff_forall_mem.mp (by
      simp only [opsM2, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg10)) opsM1 _ (List.forall_iff_forall_mem.mp (by
      simp only [opsM1, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg10)) opsL4b _ (List.forall_iff_forall_mem.mp (by
      simp only [opsL4b, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg10)) opsL4a _ (List.forall_iff_forall_mem.mp (by
      simp only [opsL4a, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg10)) opsL3b _ (List.forall_iff_forall_mem.mp (by
      simp only [opsL3b, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg10)) opsL3a _ (List.forall_iff_forall_mem.mp (by
      simp only [opsL3a, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg10)) opsL2b _ (List.forall_iff_forall_mem.mp (by
      simp only [opsL2b, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg10)) opsL2a _ (List.forall_iff_forall_mem.mp (by
      simp only [opsL2a, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg10)) opsL1 _ (List.forall_iff_forall_mem.mp (by
      simp only [opsL1, List.Forall, nullary_writes, unary_writes, binary_writes, ternary_writes, quaternary_writes, reshape_writes, Finset.mem_singleton]
      repeat' apply And.intro
      all_goals exact devRef_ne_of_ne (by decide)))).trans ?_
  exact (after_of_forall_not_mem (b := (Proc.devRef .tc main_arg10)) opsP _ (List.forall_iff_forall_mem.mp (by
      simp only [opsP, List.Forall, nullary_writes, unary_writes, binary_writes, ternary_writes, quaternary_writes, reshape_writes, Finset.mem_singleton]
      repeat' apply And.intro
      all_goals exact devRef_ne_of_ne (by decide))))

/-- Argument 11 ends as launched. -/
theorem kept_arg11 (V : Valuation τ sig (Elt F)) : after ops V (Proc.devRef .tc main_arg11) = V (Proc.devRef .tc main_arg11) := by
  rw [ops_split]
  refine (after_of_forall_not_mem (b := (Proc.devRef .tc main_arg11)) opsM2 _ (List.forall_iff_forall_mem.mp (by
      simp only [opsM2, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg11)) opsM1 _ (List.forall_iff_forall_mem.mp (by
      simp only [opsM1, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg11)) opsL4b _ (List.forall_iff_forall_mem.mp (by
      simp only [opsL4b, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg11)) opsL4a _ (List.forall_iff_forall_mem.mp (by
      simp only [opsL4a, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg11)) opsL3b _ (List.forall_iff_forall_mem.mp (by
      simp only [opsL3b, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg11)) opsL3a _ (List.forall_iff_forall_mem.mp (by
      simp only [opsL3a, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg11)) opsL2b _ (List.forall_iff_forall_mem.mp (by
      simp only [opsL2b, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg11)) opsL2a _ (List.forall_iff_forall_mem.mp (by
      simp only [opsL2a, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg11)) opsL1 _ (List.forall_iff_forall_mem.mp (by
      simp only [opsL1, List.Forall, nullary_writes, unary_writes, binary_writes, ternary_writes, quaternary_writes, reshape_writes, Finset.mem_singleton]
      repeat' apply And.intro
      all_goals exact devRef_ne_of_ne (by decide)))).trans ?_
  exact (after_of_forall_not_mem (b := (Proc.devRef .tc main_arg11)) opsP _ (List.forall_iff_forall_mem.mp (by
      simp only [opsP, List.Forall, nullary_writes, unary_writes, binary_writes, ternary_writes, quaternary_writes, reshape_writes, Finset.mem_singleton]
      repeat' apply And.intro
      all_goals exact devRef_ne_of_ne (by decide))))

/-- Argument 12 ends as launched. -/
theorem kept_arg12 (V : Valuation τ sig (Elt F)) : after ops V (Proc.devRef .tc main_arg12) = V (Proc.devRef .tc main_arg12) := by
  rw [ops_split]
  refine (after_of_forall_not_mem (b := (Proc.devRef .tc main_arg12)) opsM2 _ (List.forall_iff_forall_mem.mp (by
      simp only [opsM2, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg12)) opsM1 _ (List.forall_iff_forall_mem.mp (by
      simp only [opsM1, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg12)) opsL4b _ (List.forall_iff_forall_mem.mp (by
      simp only [opsL4b, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg12)) opsL4a _ (List.forall_iff_forall_mem.mp (by
      simp only [opsL4a, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg12)) opsL3b _ (List.forall_iff_forall_mem.mp (by
      simp only [opsL3b, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg12)) opsL3a _ (List.forall_iff_forall_mem.mp (by
      simp only [opsL3a, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg12)) opsL2b _ (List.forall_iff_forall_mem.mp (by
      simp only [opsL2b, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg12)) opsL2a _ (List.forall_iff_forall_mem.mp (by
      simp only [opsL2a, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg12)) opsL1 _ (List.forall_iff_forall_mem.mp (by
      simp only [opsL1, List.Forall, nullary_writes, unary_writes, binary_writes, ternary_writes, quaternary_writes, reshape_writes, Finset.mem_singleton]
      repeat' apply And.intro
      all_goals exact devRef_ne_of_ne (by decide)))).trans ?_
  exact (after_of_forall_not_mem (b := (Proc.devRef .tc main_arg12)) opsP _ (List.forall_iff_forall_mem.mp (by
      simp only [opsP, List.Forall, nullary_writes, unary_writes, binary_writes, ternary_writes, quaternary_writes, reshape_writes, Finset.mem_singleton]
      repeat' apply And.intro
      all_goals exact devRef_ne_of_ne (by decide))))

/-- Argument 13 ends as launched. -/
theorem kept_arg13 (V : Valuation τ sig (Elt F)) : after ops V (Proc.devRef .tc main_arg13) = V (Proc.devRef .tc main_arg13) := by
  rw [ops_split]
  refine (after_of_forall_not_mem (b := (Proc.devRef .tc main_arg13)) opsM2 _ (List.forall_iff_forall_mem.mp (by
      simp only [opsM2, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg13)) opsM1 _ (List.forall_iff_forall_mem.mp (by
      simp only [opsM1, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg13)) opsL4b _ (List.forall_iff_forall_mem.mp (by
      simp only [opsL4b, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg13)) opsL4a _ (List.forall_iff_forall_mem.mp (by
      simp only [opsL4a, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg13)) opsL3b _ (List.forall_iff_forall_mem.mp (by
      simp only [opsL3b, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg13)) opsL3a _ (List.forall_iff_forall_mem.mp (by
      simp only [opsL3a, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg13)) opsL2b _ (List.forall_iff_forall_mem.mp (by
      simp only [opsL2b, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg13)) opsL2a _ (List.forall_iff_forall_mem.mp (by
      simp only [opsL2a, List.Forall, nullary_writes, unary_writes, binary_writes, ternary_writes, quaternary_writes, reshape_writes, Finset.mem_singleton]
      repeat' apply And.intro
      all_goals exact devRef_ne_of_ne (by decide)))).trans ?_
  refine (after_of_forall_not_mem (b := (Proc.devRef .tc main_arg13)) opsL1 _ (List.forall_iff_forall_mem.mp (by
      simp only [opsL1, List.Forall, nullary_writes, unary_writes, binary_writes, ternary_writes, quaternary_writes, reshape_writes, Finset.mem_singleton]
      repeat' apply And.intro
      all_goals exact devRef_ne_of_ne (by decide)))).trans ?_
  exact (after_of_forall_not_mem (b := (Proc.devRef .tc main_arg13)) opsP _ (List.forall_iff_forall_mem.mp (by
      simp only [opsP, List.Forall, nullary_writes, unary_writes, binary_writes, ternary_writes, quaternary_writes, reshape_writes, Finset.mem_singleton]
      repeat' apply And.intro
      all_goals exact devRef_ne_of_ne (by decide))))

end Cert.ReferenceIdeal.ArgsB

end
-- ==== Proof.lean ====
/-
  The certificate: a four-layer graph convolution with a classifier head, as nine kernels among host glue, against its
  plain reference, on the extended reals.

  Both programs compute, per layer, the exponential linear unit of  Â · (H W) + b  with  Â = D^(-1/2) (A + I) D^(-1/2):  the
  product H W; the messages (H W) gathered at the edges' sources, scaled per edge by dinv(source) · dinv(destination) and
  added up at the destinations; the self-loop term (H W) scaled per node by dinv²; the bias. The kernel computes H W and the
  unit of the sum in kernels, row block by row block, and degree factors once; the reference computes everything on the host
  and the degree factors in every layer. The gathers and scatter-adds are the same host operations on both sides and are
  carried as functions that are never opened; what is proved is that the dense stages agree — a kernel's matrix product with
  the host's, a kernel's fused add-add-unit with the host's adds and jax's unit — entry by entry, as the same expression, so
  no input needs to be finite. The classifier head agrees likewise, the kernel's zero padding of its weights never being read.

  The frames of the two kernel programs are the generated frame certificates; the reference's frame is its run with the
  results dropped; the idealization rewrote nothing, so its conjunct is trivial.
-/
import proofs.«147130_j78975858639084_1_alg».proof.Defs
import proofs.«147130_j78975858639084_1_alg».proof.Proof.Gen.Kernel
import proofs.«147130_j78975858639084_1_alg».proof.Proof.Gen.Kernel.Frame
import proofs.«147130_j78975858639084_1_alg».proof.Proof.Gen.KernelIdeal
import proofs.«147130_j78975858639084_1_alg».proof.Proof.Gen.KernelIdeal.Frame
import proofs.«147130_j78975858639084_1_alg».proof.Proof.Gen.ReferenceIdeal
import proofs.«147130_j78975858639084_1_alg».proof.Proof.Gen.Pre_finite_inputs
import proofs.«147130_j78975858639084_1_alg».proof.Proof.KernelWhole
import proofs.«147130_j78975858639084_1_alg».proof.Proof.KernelRead
import proofs.«147130_j78975858639084_1_alg».proof.Proof.KernelHead
import proofs.«147130_j78975858639084_1_alg».proof.Proof.Bridge
import proofs.«147130_j78975858639084_1_alg».proof.Proof.BridgeHead
import proofs.«147130_j78975858639084_1_alg».proof.Proof.RefOps
import proofs.«147130_j78975858639084_1_alg».proof.Proof.RefRead
import proofs.«147130_j78975858639084_1_alg».proof.Proof.RefArgsA
import proofs.«147130_j78975858639084_1_alg».proof.Proof.RefArgsB
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, each argument read back through the line that never writes it. -/
theorem frame_referenceIdeal : Cert.frame_ReferenceIdeal := fun m ρ _ =>
  (θ_run Cert.ReferenceIdeal.defs _ _).mono (fun r h c =>
    ⟨(h c Cert.ReferenceIdeal.main_arg0).trans (Cert.ReferenceIdeal.ArgsA.kept_arg0 _),
     (h c Cert.ReferenceIdeal.main_arg1).trans (Cert.ReferenceIdeal.ArgsA.kept_arg1 _),
     (h c Cert.ReferenceIdeal.main_arg2).trans (Cert.ReferenceIdeal.ArgsA.kept_arg2 _),
     (h c Cert.ReferenceIdeal.main_arg3).trans (Cert.ReferenceIdeal.ArgsA.kept_arg3 _),
     (h c Cert.ReferenceIdeal.main_arg4).trans (Cert.ReferenceIdeal.ArgsA.kept_arg4 _),
     (h c Cert.ReferenceIdeal.main_arg5).trans (Cert.ReferenceIdeal.ArgsA.kept_arg5 _),
     (h c Cert.ReferenceIdeal.main_arg6).trans (Cert.ReferenceIdeal.ArgsA.kept_arg6 _),
     (h c Cert.ReferenceIdeal.main_arg7).trans (Cert.ReferenceIdeal.ArgsB.kept_arg7 _),
     (h c Cert.ReferenceIdeal.main_arg8).trans (Cert.ReferenceIdeal.ArgsB.kept_arg8 _),
     (h c Cert.ReferenceIdeal.main_arg9).trans (Cert.ReferenceIdeal.ArgsB.kept_arg9 _),
     (h c Cert.ReferenceIdeal.main_arg10).trans (Cert.ReferenceIdeal.ArgsB.kept_arg10 _),
     (h c Cert.ReferenceIdeal.main_arg11).trans (Cert.ReferenceIdeal.ArgsB.kept_arg11 _),
     (h c Cert.ReferenceIdeal.main_arg12).trans (Cert.ReferenceIdeal.ArgsB.kept_arg12 _),
     (h c Cert.ReferenceIdeal.main_arg13).trans (Cert.ReferenceIdeal.ArgsB.kept_arg13 _)⟩)
    (Cert.ReferenceIdeal.Line.run_line (F := Ideal) m ρ)

theorem preserves : Cert.preserves_Kernel_KernelIdeal := trivial

/-- Both idealized programs end with the same two results — the fourth layer's activations and the classifier's output, as
    functions of the kernel's launch memory — and their arguments unchanged. -/
theorem algebraic : Cert.algebraic_KernelIdeal_ReferenceIdeal := by
  intro m ρ m' ρ' _ hagree
  refine ⟨fun c => (Cert.ReferenceIdeal.Read.ref4 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))),
    fun c => Cert.ReferenceIdeal.Read.refHead (F := Ideal) (Cert.ReferenceIdeal.Read.ref4 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · refine (θ_run Cert.KernelIdeal.defs _ _).mono (fun r h c => ?_) (Cert.KernelIdeal.Whole.run_results (F := Ideal) m ρ)
    obtain ⟨h0, h1, hargs⟩ := h c
    exact ⟨h0.trans ((Cert.KernelIdeal.Read.result0 m ρ c).trans (Cert.Bridge.act4_eq m ρ c)),
      h1.trans ((Cert.KernelIdeal.Head.result1 m ρ c).trans (Cert.BridgeHead.result1_eq m ρ c)), hargs⟩
  · refine (θ_run Cert.ReferenceIdeal.defs _ _).mono (fun r h c => ?_) (Cert.ReferenceIdeal.Line.run_line (F := Ideal) m' ρ')
    refine ⟨(h c Cert.ReferenceIdeal.main_v183).trans ((Cert.ReferenceIdeal.Read.result0 _).trans ?_),
      (h c Cert.ReferenceIdeal.main_v193).trans ((Cert.ReferenceIdeal.Read.result1 _).trans ?_),
      (h c Cert.ReferenceIdeal.main_arg0).trans (Cert.ReferenceIdeal.ArgsA.kept_arg0 _),
      (h c Cert.ReferenceIdeal.main_arg1).trans (Cert.ReferenceIdeal.ArgsA.kept_arg1 _),
      (h c Cert.ReferenceIdeal.main_arg2).trans (Cert.ReferenceIdeal.ArgsA.kept_arg2 _),
      (h c Cert.ReferenceIdeal.main_arg3).trans (Cert.ReferenceIdeal.ArgsA.kept_arg3 _),
      (h c Cert.ReferenceIdeal.main_arg4).trans (Cert.ReferenceIdeal.ArgsA.kept_arg4 _),
      (h c Cert.ReferenceIdeal.main_arg5).trans (Cert.ReferenceIdeal.ArgsA.kept_arg5 _),
      (h c Cert.ReferenceIdeal.main_arg6).trans (Cert.ReferenceIdeal.ArgsA.kept_arg6 _),
      (h c Cert.ReferenceIdeal.main_arg7).trans (Cert.ReferenceIdeal.ArgsB.kept_arg7 _),
      (h c Cert.ReferenceIdeal.main_arg8).trans (Cert.ReferenceIdeal.ArgsB.kept_arg8 _),
      (h c Cert.ReferenceIdeal.main_arg9).trans (Cert.ReferenceIdeal.ArgsB.kept_arg9 _),
      (h c Cert.ReferenceIdeal.main_arg10).trans (Cert.ReferenceIdeal.ArgsB.kept_arg10 _),
      (h c Cert.ReferenceIdeal.main_arg11).trans (Cert.ReferenceIdeal.ArgsB.kept_arg11 _),
      (h c Cert.ReferenceIdeal.main_arg12).trans (Cert.ReferenceIdeal.ArgsB.kept_arg12 _),
      (h c Cert.ReferenceIdeal.main_arg13).trans (Cert.ReferenceIdeal.ArgsB.kept_arg13 _)⟩
    · show Cert.ReferenceIdeal.Read.ref4 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) = _
      rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1]
    · show Cert.ReferenceIdeal.Read.refHead (F := Ideal) (Cert.ReferenceIdeal.Read.ref4 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)))
        (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) = _
      rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.2.2.1, (hagree c).2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
